-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S30x128 : Shape := ⟨2, ![30, 128]⟩
abbrev S30x64 : Shape := ⟨2, ![30, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S30x128 : S_.BroadcastsInDim S30x128 (![] : Fin 0 → Fin S30x128.rank)
  reducesTo_S30x128_S_d0_1 : S30x128.ReducesTo [0, 1] S_
  bcast_S_S30x64 : S_.BroadcastsInDim S30x64 (![] : Fin 0 → Fin S30x64.rank)
  reducesTo_S30x64_S_d0_1 : S30x64.ReducesTo [0, 1] S_

variable [Facts]

def fn_part3 {F : FTy → Type} [FloatOps F] (main_v48 : IVec S_ 1) (main_v49 : FVec F S30x128 .f32) (main_v50 : FVec F S30x128 .f32) : IVec S_ 1 :=
  let main_v51 : IVec S30x128 1 := cmpf .une main_v49 main_v50
  let main_c_19 : IVec S_ 1 := constantI S_ 1 1#1
  let main_v52 : IVec S_ 1 := (fun x v => Host.reduce IntOp.andi x v reducesTo_S30x128_S_d0_1 h_S_) main_v51 main_c_19
  let main_v53 : IVec S_ 1 := andi main_v48 main_v52
  main_v53

def fn_part2 {F : FTy → Type} [FloatOps F] (main_arg8 : FVec F S30x128 .f32) (main_arg9 : FVec F S30x64 .f32) (main_arg10 : FVec F S30x64 .f32) (main_v33 : IVec S_ 1) : IVec S_ 1 :=
  let main_v34 : FVec F S30x128 .f32 := Host.absf main_arg8
  let main_cst_12 : FVec F S_ .f32 := constant S_ .f32 0x7F800000#32
  let main_v35 : FVec F S30x128 .f32 := broadcastInDim S30x128 ![] bcast_S_S30x128 main_cst_12
  let main_v36 : IVec S30x128 1 := cmpf .olt main_v34 main_v35
  let main_c_13 : IVec S_ 1 := constantI S_ 1 1#1
  let main_v37 : IVec S_ 1 := (fun x v => Host.reduce IntOp.andi x v reducesTo_S30x128_S_d0_1 h_S_) main_v36 main_c_13
  let main_v38 : IVec S_ 1 := andi main_v33 main_v37
  let main_v39 : FVec F S30x64 .f32 := Host.absf main_arg9
  let main_cst_14 : FVec F S_ .f32 := constant S_ .f32 0x7F800000#32
  let main_v40 : FVec F S30x64 .f32 := broadcastInDim S30x64 ![] bcast_S_S30x64 main_cst_14
  let main_v41 : IVec S30x64 1 := cmpf .olt main_v39 main_v40
  let main_c_15 : IVec S_ 1 := constantI S_ 1 1#1
  let main_v42 : IVec S_ 1 := (fun x v => Host.reduce IntOp.andi x v reducesTo_S30x64_S_d0_1 h_S_) main_v41 main_c_15
  let main_v43 : IVec S_ 1 := andi main_v38 main_v42
  let main_v44 : FVec F S30x64 .f32 := Host.absf main_arg10
  let main_cst_16 : FVec F S_ .f32 := constant S_ .f32 0x7F800000#32
  let main_v45 : FVec F S30x64 .f32 := broadcastInDim S30x64 ![] bcast_S_S30x64 main_cst_16
  let main_v46 : IVec S30x64 1 := cmpf .olt main_v44 main_v45
  let main_c_17 : IVec S_ 1 := constantI S_ 1 1#1
  let main_v47 : IVec S_ 1 := (fun x v => Host.reduce IntOp.andi x v reducesTo_S30x64_S_d0_1 h_S_) main_v46 main_c_17
  let main_v48 : IVec S_ 1 := andi main_v43 main_v47
  let main_v49 : FVec F S30x128 .f32 := mulf main_arg8 main_arg8
  let main_cst_18 : FVec F S_ .f32 := constant S_ .f32 0x00000000#32
  let main_v50 : FVec F S30x128 .f32 := broadcastInDim S30x128 ![] bcast_S_S30x128 main_cst_18
  fn_part3 (F := F) main_v48 main_v49 main_v50

def fn_part1 {F : FTy → Type} [FloatOps F] (main_arg5 : FVec F S128x64 .f32) (main_arg6 : FVec F S64 .f32) (main_arg7 : FVec F S30x128 .f32) (main_arg8 : FVec F S30x128 .f32) (main_arg9 : FVec F S30x64 .f32) (main_arg10 : FVec F S30x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S30x128 .f32 := Host.absf main_arg7
  let main_cst_10 : FVec F S_ .f32 := constant S_ .f32 0x7F800000#32
  let main_v30 : FVec F S30x128 .f32 := broadcastInDim S30x128 ![] bcast_S_S30x128 main_cst_10
  let main_v31 : IVec S30x128 1 := cmpf .olt main_v29 main_v30
  let main_c_11 : IVec S_ 1 := constantI S_ 1 1#1
  let main_v32 : IVec S_ 1 := (fun x v => Host.reduce IntOp.andi x v reducesTo_S30x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) (main_arg7 : FVec F S30x128 .f32) (main_arg8 : FVec F S30x128 .f32) (main_arg9 : FVec F S30x64 .f32) (main_arg10 : FVec F S30x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S30x128 : Shape := ⟨2, ![30, 128]⟩
abbrev S30x64 : Shape := ⟨2, ![30, 64]⟩
abbrev S5000x128 : Shape := ⟨2, ![5000, 128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S30 : Shape := ⟨1, ![30]⟩
abbrev S30x1 : Shape := ⟨2, ![30, 1]⟩
abbrev S1x30 : Shape := ⟨2, ![1, 30]⟩
abbrev S128x30 : Shape := ⟨2, ![128, 30]⟩
abbrev S1x128 : Shape := ⟨2, ![1, 128]⟩
abbrev S100000x64 : Shape := ⟨2, ![100000, 64]⟩
abbrev S2000x128 : Shape := ⟨2, ![2000, 128]⟩
abbrev S2000x64 : Shape := ⟨2, ![2000, 64]⟩
abbrev S2000x30 : Shape := ⟨2, ![2000, 30]⟩
abbrev S2000 : Shape := ⟨1, ![2000]⟩
abbrev S2000x1 : Shape := ⟨2, ![2000, 1]⟩
abbrev S1700000x64 : Shape := ⟨2, ![1700000, 64]⟩
abbrev S64x30 : Shape := ⟨2, ![64, 30]⟩
abbrev S1x64 : Shape := ⟨2, ![1, 64]⟩

abbrev nBuf : Space → Nat
  | .hbm => 167
  | .vmem => 23
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S30x128, .f32⟩
  | 8 => ⟨S30x128, .f32⟩
  | 9 => ⟨S30x64, .f32⟩
  | 10 => ⟨S30x64, .f32⟩
  | 11 => ⟨S100000x128, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S30x64, .f32⟩
  | 74 => ⟨S30x128, .f32⟩
  | 75 => ⟨S_, .f32⟩
  | 76 => ⟨S30x128, .f32⟩
  | 77 => ⟨S30x128, .f32⟩
  | 78 => ⟨S30x128, .f32⟩
  | 79 => ⟨S30x128, .f32⟩
  | 80 => ⟨S30x128, .f32⟩
  | 81 => ⟨S_, .f32⟩
  | 82 => ⟨S30, .f32⟩
  | 83 => ⟨S30x1, .f32⟩
  | 84 => ⟨S1x30, .f32⟩
  | 85 => ⟨S128x30, .f32⟩
  | 86 => ⟨S128x30, .f32⟩
  | 87 => ⟨S1x128, .f32⟩
  | 88 => ⟨S100000x64, .f32⟩
  | 89 => ⟨S_, .f32⟩
  | 90 => ⟨S1600000, .f32⟩
  | 91 => ⟨S100000, .i32⟩
  | 92 => ⟨S1x1600000, .i32⟩
  | 93 => ⟨S1600000, .i32⟩
  | 94 => ⟨S1700000, .i32⟩
  | 95 => ⟨S1x1600000, .i32⟩
  | 96 => ⟨S1600000, .i32⟩
  | 97 => ⟨S1700000, .i32⟩
  | 98 => ⟨S_, .f32⟩
  | 99 => ⟨S100000, .f32⟩
  | 100 => ⟨S1700000, .f32⟩
  | 101 => ⟨S_, .f32⟩
  | 102 => ⟨S100000, .f32⟩
  | 103 => ⟨S1700000x1, .i32⟩
  | 104 => ⟨S100000, .f32⟩
  | 105 => ⟨S_, .f32⟩
  | 106 => ⟨S100000, .f32⟩
  | 107 => ⟨S100000, .i1⟩
  | 108 => ⟨S_, .f32⟩
  | 109 => ⟨S100000, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S1700000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x1, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S30x64, .f32⟩
  | 25 => ⟨S_, .f32⟩
  | 26 => ⟨S30x64, .f32⟩
  | 27 => ⟨S30x64, .f32⟩
  | 28 => ⟨S30x64, .f32⟩
  | 29 => ⟨S30x64, .f32⟩
  | 30 => ⟨S30x64, .f32⟩
  | 31 => ⟨S_, .f32⟩
  | 32 => ⟨S30, .f32⟩
  | 33 => ⟨S30x1, .f32⟩
  | 34 => ⟨S1x30, .f32⟩
  | 35 => ⟨S64x30, .f32⟩
  | 36 => ⟨S64x30, .f32⟩
  | 37 => ⟨S1x64, .f32⟩
  | 38 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x30, .f32⟩
  | .local _ .vmem, ⟨9, _⟩ => ⟨S128x30, .f32⟩
  | .local _ .vmem, ⟨10, _⟩ => ⟨S1x30, .f32⟩
  | .local _ .vmem, ⟨11, _⟩ => ⟨S30x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S1x64, .f32⟩
  | .local _ .vmem, ⟨17, _⟩ => ⟨S64x30, .f32⟩
  | .local _ .vmem, ⟨18, _⟩ => ⟨S64x30, .f32⟩
  | .local _ .vmem, ⟨19, _⟩ => ⟨S1x30, .f32⟩
  | .local _ .vmem, ⟨20, _⟩ => ⟨S30x64, .f32⟩
  | .local _ .vmem, ⟨21, _⟩ => ⟨S2000x64, .f32⟩
  | .local _ .vmem, ⟨22, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_call1_v0 : Ref sig .tc := ⟨.hbm, 113, rfl⟩
abbrev main_call1_v1 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_c_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_20 : Ref sig .tc := ⟨.hbm, 126, rfl⟩
abbrev main_v89 : Ref sig .tc := ⟨.hbm, 127, rfl⟩
abbrev main_v90 : Ref sig .tc := ⟨.hbm, 128, rfl⟩
abbrev main_c_21 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_22 : Ref sig .tc := ⟨.hbm, 136, rfl⟩
abbrev main_v97 : Ref sig .tc := ⟨.hbm, 137, rfl⟩
abbrev main_v98 : Ref sig .tc := ⟨.hbm, 138, rfl⟩
abbrev main_c_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_24 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_25 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_26 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x30 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x30 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x30 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S30x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x30 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x30 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S30x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S30x128 : S_.BroadcastsInDim S30x128 (![] : Fin 0 → Fin S30x128.rank)
  reducesTo_S30x128_S30_d1 : S30x128.ReducesTo [1] S30
  h_S_ : 0 < S_.numel
  bcast_S30_S30x1_0 : S30.BroadcastsInDim S30x1 (![0] : Fin 1 → Fin S30x1.rank)
  shapeCasts_S30x1_S1x30 : S30x1.ShapeCasts S1x30
  transposes_S30x128_S128x30_1_0 : S30x128.Transposes [1, 0] S128x30
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x30_S128x30_0_0 : ∀ a, (![0, 0] : Fin 2 → Nat) a + S128x30.size a ≤ S128x30.size a
  h_S128x30 : 0 < S128x30.numel
  shapeCasts_S128x30_S128x30 : S128x30.ShapeCasts S128x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S2000x30 : S1x30.Broadcasts S2000x30
  reduces_S2000x30_S2000 : S2000x30.Reduces [1] S2000
  shapeCasts_S2000_S2000x1 : S2000.ShapeCasts S2000x1
  broadcasts_S2000x1_S2000x30 : S2000x1.Broadcasts S2000x30
  inb_S30x64_S30x64_0_0 : ∀ a, (![0, 0] : Fin 2 → Nat) a + S30x64.size a ≤ S30x64.size a
  h_S30x64 : 0 < S30x64.numel
  shapeCasts_S30x64_S30x64 : S30x64.ShapeCasts S30x64
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S_S30x64 : S_.BroadcastsInDim S30x64 (![] : Fin 0 → Fin S30x64.rank)
  reducesTo_S30x64_S30_d1 : S30x64.ReducesTo [1] S30
  transposes_S30x64_S64x30_1_0 : S30x64.Transposes [1, 0] S64x30
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x30_S64x30_0_0 : ∀ a, (![0, 0] : Fin 2 → Nat) a + S64x30.size a ≤ S64x30.size a
  h_S64x30 : 0 < S64x30.numel
  shapeCasts_S64x30_S64x30 : S64x30.ShapeCasts S64x30
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S30x128_S128x64_S30x64_1_0_0_1_n_n_wf : DotDims.WF S30x128 S128x64 S30x64 [1] [0] [0] [1] [] []
  dot_S2000x128_S128x30_S2000x30_1_0_0_1_n_n_wf : DotDims.WF S2000x128 S128x30 S2000x30 [1] [0] [0] [1] [] []
  dot_S2000x30_S30x64_S2000x64_1_0_0_1_n_n_wf : DotDims.WF S2000x30 S30x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x30_S2000x30_1_0_0_1_n_n_wf : DotDims.WF S2000x64 S64x30 S2000x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x30.size a ≤ S128x30.size a
  hwx1_2 : ∀ i : grid1.Coords, EltTy.bits .f32 = 32 ∨ (Rect.block (s := S128x30) S128x30.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x30.size a ≤ S128x30.size a
  hwx1_3 : ∀ i : grid1.Coords, EltTy.bits .f32 = 32 ∨ (Rect.block (s := S128x30) S128x30.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x30.size a ≤ S1x30.size a
  hwx1_4 : ∀ i : grid1.Coords, EltTy.bits .f32 = 32 ∨ (Rect.block (s := S1x30) S1x30.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S30x64.size a ≤ S30x64.size a
  hwx1_5 : ∀ i : grid1.Coords, EltTy.bits .f32 = 32 ∨ (Rect.block (s := S30x64) S30x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x30.size a ≤ S64x30.size a
  hwx2_2 : ∀ i : grid2.Coords, EltTy.bits .f32 = 32 ∨ (Rect.block (s := S64x30) S64x30.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x30.size a ≤ S64x30.size a
  hwx2_3 : ∀ i : grid2.Coords, EltTy.bits .f32 = 32 ∨ (Rect.block (s := S64x30) S64x30.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x30.size a ≤ S1x30.size a
  hwx2_4 : ∀ i : grid2.Coords, EltTy.bits .f32 = 32 ∨ (Rect.block (s := S1x30) S1x30.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S30x64.size a ≤ S30x64.size a
  hwx2_5 : ∀ i : grid2.Coords, EltTy.bits .f32 = 32 ∨ (Rect.block (s := S30x64) S30x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S30x128_S128x64_S30x64_1_0_0_1_n_n : DotDims S30x128 S128x64 S30x64 where
  lhsContracting := [1]
  rhsContracting := [0]
  lhsNonContracting := [0]
  rhsNonContracting := [1]
  lhsBatch := []
  rhsBatch := []
  wf := dot_S30x128_S128x64_S30x64_1_0_0_1_n_n_wf
def dot_S2000x128_S128x30_S2000x30_1_0_0_1_n_n : DotDims S2000x128 S128x30 S2000x30 where
  lhsContracting := [1]
  rhsContracting := [0]
  lhsNonContracting := [0]
  rhsNonContracting := [1]
  lhsBatch := []
  rhsBatch := []
  wf := dot_S2000x128_S128x30_S2000x30_1_0_0_1_n_n_wf
def dot_S2000x30_S30x64_S2000x64_1_0_0_1_n_n : DotDims S2000x30 S30x64 S2000x64 where
  lhsContracting := [1]
  rhsContracting := [0]
  lhsNonContracting := [0]
  rhsNonContracting := [1]
  lhsBatch := []
  rhsBatch := []
  wf := dot_S2000x30_S30x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x30_S2000x30_1_0_0_1_n_n : DotDims S2000x64 S64x30 S2000x30 where
  lhsContracting := [1]
  rhsContracting := [0]
  lhsNonContracting := [0]
  rhsNonContracting := [1]
  lhsBatch := []
  rhsBatch := []
  wf := dot_S2000x64_S64x30_S2000x30_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128x30.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S128x30.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x30.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S30x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v109) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v121) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v119) S64x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v120) S64x30.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x30.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S30x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v122) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S30x128 : Shape := ⟨2, ![30, 128]⟩
abbrev S30x64 : Shape := ⟨2, ![30, 64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x30 : Shape := ⟨2, ![128, 30]⟩
abbrev S100000x30 : Shape := ⟨2, ![100000, 30]⟩
abbrev S30 : Shape := ⟨1, ![30]⟩
abbrev S1x30 : Shape := ⟨2, ![1, 30]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩
abbrev S64x30 : Shape := ⟨2, ![64, 30]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S30x128, .f32⟩
  | 8 => ⟨S30x128, .f32⟩
  | 9 => ⟨S30x64, .f32⟩
  | 10 => ⟨S30x64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S30x128, .f32⟩
  | 77 => ⟨S_, .f32⟩
  | 78 => ⟨S30x128, .f32⟩
  | 79 => ⟨S30x128, .f32⟩
  | 80 => ⟨S100000x128, .f32⟩
  | 81 => ⟨S128x30, .f32⟩
  | 82 => ⟨S100000x30, .f32⟩
  | 83 => ⟨S30x128, .f32⟩
  | 84 => ⟨S128x30, .f32⟩
  | 85 => ⟨S100000x30, .f32⟩
  | 86 => ⟨S_, .f32⟩
  | 87 => ⟨S100000x30, .f32⟩
  | 88 => ⟨S100000x30, .f32⟩
  | 89 => ⟨S100000x30, .f32⟩
  | 90 => ⟨S30x128, .f32⟩
  | 91 => ⟨S30x128, .f32⟩
  | 92 => ⟨S_, .f32⟩
  | 93 => ⟨S30, .f32⟩
  | 94 => ⟨S1x30, .f32⟩
  | 95 => ⟨S100000x30, .f32⟩
  | 96 => ⟨S100000x30, .f32⟩
  | 97 => ⟨S_, .f32⟩
  | 98 => ⟨S100000x30, .f32⟩
  | 99 => ⟨S100000x30, .f32⟩
  | 100 => ⟨S_, .f32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x30, .f32⟩
  | 107 => ⟨S100000x30, .f32⟩
  | 108 => ⟨S100000x30, .f32⟩
  | 109 => ⟨S_, .f32⟩
  | 110 => ⟨S100000, .f32⟩
  | 111 => ⟨S100000x1, .f32⟩
  | 112 => ⟨S100000x30, .f32⟩
  | 113 => ⟨S100000x30, .f32⟩
  | 114 => ⟨S100000x128, .f32⟩
  | 115 => ⟨S_, .f32⟩
  | 116 => ⟨S1600000, .f32⟩
  | 117 => ⟨S100000, .i32⟩
  | 118 => ⟨S1x1600000, .i32⟩
  | 119 => ⟨S1600000, .i32⟩
  | 120 => ⟨S1700000, .i32⟩
  | 121 => ⟨S1x1600000, .i32⟩
  | 122 => ⟨S1600000, .i32⟩
  | 123 => ⟨S1700000, .i32⟩
  | 124 => ⟨S_, .f32⟩
  | 125 => ⟨S100000, .f32⟩
  | 126 => ⟨S1700000, .f32⟩
  | 127 => ⟨S_, .f32⟩
  | _ => ⟨S100000x128, .f32⟩

abbrev hbmTy0_1 (i : Nat) : BufTy := match i % 128 with
  | 0 => ⟨S100000, .f32⟩
  | 1 => ⟨S1700000x1, .i32⟩
  | 2 => ⟨S100000, .f32⟩
  | 3 => ⟨S_, .f32⟩
  | 4 => ⟨S100000, .f32⟩
  | 5 => ⟨S100000, .i1⟩
  | 6 => ⟨S_, .f32⟩
  | 7 => ⟨S100000, .f32⟩
  | 8 => ⟨S100000, .f32⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S1700000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S1700000, .f32⟩
  | 34 => ⟨S100000x64, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000x64, .f32⟩
  | 44 => ⟨S1700000x1, .f32⟩
  | 45 => ⟨S1700000x64, .f32⟩
  | 46 => ⟨S1700000x64, .f32⟩
  | 47 => ⟨S_, .f32⟩
  | 48 => ⟨S100000x64, .f32⟩
  | 49 => ⟨S1700000x1, .i32⟩
  | 50 => ⟨S100000x64, .f32⟩
  | 51 => ⟨S1x64, .f32⟩
  | 52 => ⟨S100000x64, .f32⟩
  | 53 => ⟨S100000x64, .f32⟩
  | 54 => ⟨S30x64, .f32⟩
  | 55 => ⟨S_, .f32⟩
  | 56 => ⟨S30x64, .f32⟩
  | 57 => ⟨S30x64, .f32⟩
  | 58 => ⟨S100000x64, .f32⟩
  | 59 => ⟨S64x30, .f32⟩
  | 60 => ⟨S100000x30, .f32⟩
  | 61 => ⟨S30x64, .f32⟩
  | 62 => ⟨S64x30, .f32⟩
  | 63 => ⟨S100000x30, .f32⟩
  | 64 => ⟨S_, .f32⟩
  | 65 => ⟨S100000x30, .f32⟩
  | 66 => ⟨S100000x30, .f32⟩
  | 67 => ⟨S100000x30, .f32⟩
  | 68 => ⟨S30x64, .f32⟩
  | 69 => ⟨S30x64, .f32⟩
  | 70 => ⟨S_, .f32⟩
  | 71 => ⟨S30, .f32⟩
  | 72 => ⟨S1x30, .f32⟩
  | 73 => ⟨S100000x30, .f32⟩
  | 74 => ⟨S100000x30, .f32⟩
  | 75 => ⟨S_, .f32⟩
  | 76 => ⟨S100000x30, .f32⟩
  | 77 => ⟨S100000x30, .f32⟩
  | 78 => ⟨S_, .f32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x30, .f32⟩
  | 85 => ⟨S100000x30, .f32⟩
  | 86 => ⟨S100000x30, .f32⟩
  | 87 => ⟨S_, .f32⟩
  | 88 => ⟨S100000, .f32⟩
  | 89 => ⟨S100000x1, .f32⟩
  | 90 => ⟨S100000x30, .f32⟩
  | 91 => ⟨S100000x30, .f32⟩
  | 92 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_call1_v0 : Ref sig .tc := ⟨.hbm, 139, rfl⟩
abbrev main_call1_v1 : Ref sig .tc := ⟨.hbm, 140, rfl⟩
abbrev main_v101 : Ref sig .tc := ⟨.hbm, 141, rfl⟩
abbrev main_c_23 : Ref sig .tc := ⟨.hbm, 142, rfl⟩
abbrev main_v102 : Ref sig .tc := ⟨.hbm, 143, rfl⟩
abbrev main_v103 : Ref sig .tc := ⟨.hbm, 144, rfl⟩
abbrev main_c_24 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_25 : Ref sig .tc := ⟨.hbm, 152, rfl⟩
abbrev main_v110 : Ref sig .tc := ⟨.hbm, 153, rfl⟩
abbrev main_v111 : Ref sig .tc := ⟨.hbm, 154, rfl⟩
abbrev main_c_26 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_27 : Ref sig .tc := ⟨.hbm, 163, rfl⟩
abbrev main_v119 : Ref sig .tc := ⟨.hbm, 164, rfl⟩
abbrev main_v120 : Ref sig .tc := ⟨.hbm, 165, rfl⟩
abbrev main_c_28 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_29 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_30 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_31 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_32 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_33 : Ref sig .tc := ⟨.hbm, 203, rfl⟩
abbrev main_v153 : Ref sig .tc := ⟨.hbm, 204, rfl⟩
abbrev main_v154 : Ref sig .tc := ⟨.hbm, 205, rfl⟩
abbrev main_cst_34 : Ref sig .tc := ⟨.hbm, 206, rfl⟩
abbrev main_v155 : Ref sig .tc := ⟨.hbm, 207, rfl⟩
abbrev main_cst_35 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_36 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S30x128 : S_.BroadcastsInDim S30x128 (![] : Fin 0 → Fin S30x128.rank)
  transposes_S30x128_S128x30_1_0 : S30x128.Transposes [1, 0] S128x30
  bcast_S_S100000x30 : S_.BroadcastsInDim S100000x30 (![] : Fin 0 → Fin S100000x30.rank)
  reducesTo_S30x128_S30_d1 : S30x128.ReducesTo [1] S30
  h_S_ : 0 < S_.numel
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  reducesTo_S100000x30_S100000_d1 : S100000x30.ReducesTo [1] S100000
  bcast_S100000_S100000x1_0 : S100000.BroadcastsInDim S100000x1 (![0] : Fin 1 → Fin S100000x1.rank)
  bcast_S100000x1_S100000x30_0_1 : S100000x1.BroadcastsInDim S100000x30 (![0, 1] : Fin 2 → Fin S100000x30.rank)
  bcast_S_S1600000 : S_.BroadcastsInDim S1600000 (![] : Fin 0 → Fin S1600000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S30x64 : S_.BroadcastsInDim S30x64 (![] : Fin 0 → Fin S30x64.rank)
  transposes_S30x64_S64x30_1_0 : S30x64.Transposes [1, 0] S64x30
  reducesTo_S30x64_S30_d1 : S30x64.ReducesTo [1] S30
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x30_S100000x30_1_0_0_1_n_n_wf : DotDims.WF S100000x128 S128x30 S100000x30 [1] [0] [0] [1] [] []
  dot_S100000x30_S30x128_S100000x128_1_0_0_1_n_n_wf : DotDims.WF S100000x30 S30x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x30_S100000x30_1_0_0_1_n_n_wf : DotDims.WF S100000x64 S64x30 S100000x30 [1] [0] [0] [1] [] []
  dot_S100000x30_S30x64_S100000x64_1_0_0_1_n_n_wf : DotDims.WF S100000x30 S30x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x30_S100000x30_1_0_0_1_n_n : DotDims S100000x128 S128x30 S100000x30 where
  lhsContracting := [1]
  rhsContracting := [0]
  lhsNonContracting := [0]
  rhsNonContracting := [1]
  lhsBatch := []
  rhsBatch := []
  wf := dot_S100000x128_S128x30_S100000x30_1_0_0_1_n_n_wf
def dot_S100000x30_S30x128_S100000x128_1_0_0_1_n_n : DotDims S100000x30 S30x128 S100000x128 where
  lhsContracting := [1]
  rhsContracting := [0]
  lhsNonContracting := [0]
  rhsNonContracting := [1]
  lhsBatch := []
  rhsBatch := []
  wf := dot_S100000x30_S30x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x30_S100000x30_1_0_0_1_n_n : DotDims S100000x64 S64x30 S100000x30 where
  lhsContracting := [1]
  rhsContracting := [0]
  lhsNonContracting := [0]
  rhsNonContracting := [1]
  lhsBatch := []
  rhsBatch := []
  wf := dot_S100000x64_S64x30_S100000x30_1_0_0_1_n_n_wf
def dot_S100000x30_S30x64_S100000x64_1_0_0_1_n_n : DotDims S100000x30 S30x64 S100000x64 where
  lhsContracting := [1]
  rhsContracting := [0]
  lhsNonContracting := [0]
  rhsNonContracting := [1]
  lhsBatch := []
  rhsBatch := []
  wf := dot_S100000x30_S30x64_S100000x64_1_0_0_1_n_n_wf

class Facts : Prop extends Facts₀ where

variable [Facts]
-- ==== Proof.KRun.lean ====
/-
  The idealized kernel's run with its result named. Every weakly fair execution of @main terminates, nothing faulting,
  and in the final state the result array holds what the last region's write-backs leave of it, while every argument
  array holds its launch contents. This is the library's launch theorem for a program of several regions over the
  generated segments, read at the result's buffer as well as at the arguments'.
-/
import proofs.«166959_j39908836114942_2_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array and every argument array named in the final state. -/
theorem run_named : θ_run defs (onTc (τ := τ) (main (F := F))) ⟨m, fun _ => 0, ρ⟩ (fun r => ∀ c : Dev nD,
      r.2.mem ((c.tc : Thread nD τ).loc main_v122) = W9 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v122 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunAll

end
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.Fuzzy.lean ====
/-
  One Gaussian-membership ("fuzzify") layer on one node's feature row, over the extended reals.

  For a row `hb : Fin D → EReal` (aggregated features plus bias), inverse squared widths `iv2t d r`, centres times
  inverse squared widths `civ2t d r` and the per-rule constant `con r`:
    z r   = -1/2 · ((∑_d hb_d² · iv2t d r) - 2 · (∑_d hb_d · civ2t d r) + con r)          (`zrow`)
    M     = max (-∞) (max_r z r)                                                          (`rowMax`)
    e r   = exp (z r - M),  f r = e r / ∑_r' e r'    (the normalised firing strengths)     (`erow`, `frs`)
    out j = ∑_r f r · cp r j                                                               (`mix`, `fuzz`)
  The three numeric constants are kept as the single-precision words both programs print.

  Two facts about it:
  * if every entry that enters is a real number, the firing strengths are real numbers (`frs_real`): the row maximum of
    finitely many reals is real, each `e r` is a positive real, their sum is a positive real;
  * mixing real firing strengths with a product `c · w` of real matrices is mixing with `c` first and multiplying by `w`
    afterwards (`mix_assoc`): a finite double sum of reals, reordered.
-/
import Idealize.ShloMosaic.PureOps.Ideal
import Idealize.ShloMosaic.PureOps.Ideal.Laws
import proofs.«166959_j39908836114942_2_alg».proof.Proof.LibReal

noncomputable section

namespace Cert.Fuzzy

open Idealize.ShloMosaic Cert.LibReal

/-- The membership exponent of rule `r` for the row `hb`. -/
def zrow {D R : ℕ} (hb : Fin D → EReal) (iv2t civ2t : Fin D → Fin R → EReal) (con : Fin R → EReal) (r : Fin R) : EReal :=
  Ideal.ofBits .f32 0xBF000000#32 *
    (((∑ d : Fin D, (hb d * hb d) * iv2t d r) - Ideal.ofBits .f32 0x40000000#32 * (∑ d : Fin D, hb d * civ2t d r)) + con r)

/-- The row maximum, taken from `-∞` and once more against `-∞`, as both programs do. -/
def rowMax {R : ℕ} (z : Fin R → EReal) : EReal :=
  max (Ideal.ofBits .f32 0xFF800000#32) ((Finset.univ : Finset (Fin R)).fold max (Ideal.ofBits .f32 0xFF800000#32) z)

/-- The shifted exponential of rule `r`. -/
def erow {R : ℕ} (z : Fin R → EReal) (r : Fin R) : EReal := Ideal.exp (z r - rowMax z)

/-- The normalised firing strength of rule `r`. -/
def frs {R : ℕ} (z : Fin R → EReal) (r : Fin R) : EReal := Ideal.div (erow z r) (∑ r' : Fin R, erow z r')

/-- Firing strengths mixed with the rows of `cp`. -/
def mix {R O : ℕ} (f : Fin R → EReal) (cp : Fin R → Fin O → EReal) (j : Fin O) : EReal := ∑ r : Fin R, f r * cp r j

/-- The whole layer on one row. -/
def fuzz {D R O : ℕ} (hb : Fin D → EReal) (iv2t civ2t : Fin D → Fin R → EReal) (con : Fin R → EReal)
    (cp : Fin R → Fin O → EReal) (j : Fin O) : EReal :=
  mix (frs (zrow hb iv2t civ2t con)) cp j

/-! ## Real entries give real firing strengths -/

theorem negInf_word : Ideal.ofBits .f32 0xFF800000#32 = ⊥ := by simp [Ideal.ofBits, Ideal.ieee]
theorem two_word : Ideal.ofBits .f32 0x40000000#32 = ((2 : ℝ) : EReal) := by
  simp [Ideal.ofBits, Ideal.ieee, -EReal.coe_mul]; norm_num
theorem mhalf_word : Ideal.ofBits .f32 0xBF000000#32 = ((-(1/2) : ℝ) : EReal) := by
  simp [Ideal.ofBits, Ideal.ieee, -EReal.coe_mul]; norm_num

theorem _root_.Cert.LibReal.IsReal.sub {x y : EReal} (hx : IsReal x) (hy : IsReal y) : IsReal (x - y) := by
  obtain ⟨a, rfl⟩ := hx
  obtain ⟨b, rfl⟩ := hy
  exact ⟨a - b, (EReal.coe_sub a b).symm⟩

theorem zrow_real {D R : ℕ} {hb : Fin D → EReal} {iv2t civ2t : Fin D → Fin R → EReal} {con : Fin R → EReal}
    (h1 : ∀ d, IsReal (hb d)) (h2 : ∀ d r, IsReal (iv2t d r)) (h3 : ∀ d r, IsReal (civ2t d r)) (h4 : ∀ r, IsReal (con r))
    (r : Fin R) : IsReal (zrow hb iv2t civ2t con r) := by
  unfold zrow
  rw [mhalf_word, two_word]
  refine (isReal_coe _).mul (((IsReal.sum _ _ fun d _ => (((h1 d).mul (h1 d)).mul (h2 d r))).sub
    ((isReal_coe _).mul (IsReal.sum _ _ fun d _ => (h1 d).mul (h3 d r)))).add (h4 r))

/-- The maximum of finitely many reals taken from `-∞` is `-∞` over the empty set and a real otherwise. -/
theorem fold_max_real {ι : Type*} (s : Finset ι) (z : ι → EReal) (hz : ∀ i ∈ s, IsReal (z i)) :
    (s = ∅ ∧ s.fold max ⊥ z = ⊥) ∨ IsReal (s.fold max ⊥ z) := by
  classical
  induction s using Finset.induction_on with
  | empty => exact .inl ⟨rfl, by simp⟩
  | insert a s ha ih =>
    right
    rw [Finset.fold_insert ha]
    rcases ih (fun i hi => hz i (Finset.mem_insert_of_mem hi)) with ⟨_, e⟩ | h
    · rw [e, max_eq_left bot_le]; exact hz a (Finset.mem_insert_self a s)
    · exact (hz a (Finset.mem_insert_self a s)).max h

theorem rowMax_real {R : ℕ} (hR : 0 < R) {z : Fin R → EReal} (hz : ∀ r, IsReal (z r)) : IsReal (rowMax z) := by
  unfold rowMax
  rw [negInf_word, max_eq_right bot_le]
  rcases fold_max_real Finset.univ z (fun r _ => hz r) with ⟨e, _⟩ | h
  · exact absurd e (Finset.univ_nonempty_iff.mpr ⟨⟨0, hR⟩⟩).ne_empty
  · exact h

theorem frs_real {R : ℕ} (hR : 0 < R) {z : Fin R → EReal} (hz : ∀ r, IsReal (z r)) (r : Fin R) : IsReal (frs z r) := by
  obtain ⟨M, hM⟩ := rowMax_real hR hz
  have he : ∀ r', erow z r' = ((Real.exp ((hz r').choose - M) : ℝ) : EReal) := fun r' => by
    unfold erow
    rw [hM]
    conv_lhs => rw [(hz r').choose_spec]
    rw [← EReal.coe_sub, Ideal.exp_coe]
  unfold frs
  simp only [he]
  rw [← coe_sum]
  have hpos : (0 : ℝ) < ∑ r' : Fin R, Real.exp ((hz r').choose - M) :=
    Finset.sum_pos (fun _ _ => Real.exp_pos _) (Finset.univ_nonempty_iff.mpr ⟨⟨0, hR⟩⟩)
  rw [Ideal.div_coe hpos.ne', ← EReal.coe_mul]
  exact isReal_coe _

/-! ## Mixing with a product of real matrices -/

theorem mix_assoc {R K O : ℕ} {f : Fin R → EReal} {c : Fin R → Fin K → EReal} {w : Fin K → Fin O → EReal}
    (hf : ∀ r, IsReal (f r)) (hc : ∀ r k, IsReal (c r k)) (hw : ∀ k j, IsReal (w k j)) (j : Fin O) :
    mix f (fun r j' => ∑ k : Fin K, c r k * w k j') j = ∑ k : Fin K, (mix f c k) * w k j := by
  unfold mix
  choose f' hf' using hf
  choose c' hc' using hc
  choose w' hw' using hw
  simp only [hf', hc', hw', ← EReal.coe_mul, ← coe_sum]
  congr 1
  simp only [Finset.mul_sum, Finset.sum_mul]
  rw [Finset.sum_comm]
  exact Finset.sum_congr rfl fun k _ => Finset.sum_congr rfl fun r _ => by ring

end Cert.Fuzzy

end
-- ==== Proof.PayMM.lean ====
/- The dense projection's block body at one entry: row p of the x block against column e of the weight. -/
import proofs.«166959_j39908836114942_2_alg».proof.Proof.Gen.KernelIdeal.Skeleton
import proofs.«166959_j39908836114942_2_alg».proof.Proof.Fuzzy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! The dimension numbers of the [5000, 128] × [128, 128] product: the left operand is read at (row, k), the right at (k, column). -/

private theorem mmProj_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem mmProj_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem mmProj_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem mmProj_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The [5000, 128] × [128, 128] product into a zero accumulator at entry (p, e): the sum over the contracted coordinate. -/
private theorem mmProj_apply {φ₁ φ₂ : FTy} (prec : Option ContractPrecision) (l : FVec Ideal S5000x128 φ₁) (r : FVec Ideal S128x128 φ₂)
    (p : Fin 5000) (e : Fin 128) :
    FloatOps.matmul dot_S5000x128_S128x128_S5000x128_1_0_0_1_n_n prec l r (constant (F := Ideal) S5000x128 .f32 0x00000000#32) (ix2 p e)
      = ∑ k : Fin 128, l (ix2 p k) * r (ix2 k e) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p e) ((contrEquiv1 dot_S5000x128_S128x128_S5000x128_1_0_0_1_n_n 128 rfl rfl).symm k) = ix2 p k := funext fun a => Fin.ext (by
    match a with
    | ⟨0, _⟩ => exact mmProj_lhs0 _ _
    | ⟨1, _⟩ => exact (mmProj_lhs1 _ _).trans hk)
  have er : dot_S5000x128_S128x128_S5000x128_1_0_0_1_n_n.rhsIdx (ix2 p e) ((contrEquiv1 dot_S5000x128_S128x128_S5000x128_1_0_0_1_n_n 128 rfl rfl).symm k) = ix2 k e := funext fun a => Fin.ext (by
    match a with
    | ⟨0, _⟩ => exact (mmProj_rhs0 _ _).trans hk
    | ⟨1, _⟩ => exact mmProj_rhs1 _ _)
  rw [el, er]

/-- Entry (p, e) of the block product is the sum over the contracted coordinate. -/
theorem k0_pay1_apply (x : Vec Ideal S5000x128 .f32) (w : Vec Ideal S128x128 .f32) (p : Fin 5000) (e : Fin 128) :
    k0_pay1 (F := Ideal) x w (ix2 p e) = ∑ j : Fin 128, x (ix2 p j) * w (ix2 j e) := by
  unfold k0_pay1
  exact mmProj_apply none (truncf .bf16 x bitsLt_bf16_f32) (truncf .bf16 w bitsLt_bf16_f32) p e

end Cert.KernelIdeal.Pay

end
-- ==== Proof.KRegion0.lean ====
/- The dense projection's region: what its output array holds when the region is left, entry by entry, in terms of the
   arrays the region was entered with. Twenty blocks of 5000 rows tile the 100000 rows; row n lies in block n / 5000. -/
import proofs.«166959_j39908836114942_2_alg».proof.Proof.Gen.KernelIdeal.Frame
import proofs.«166959_j39908836114942_2_alg».proof.Proof.PayMM
import proofs.«166959_j39908836114942_2_alg».proof.Proof.Fuzzy
import Idealize.ShloMosaic.Lib.ValueIdx
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zero_off0 : (![0, 0] : Fin 2 → Nat) = fun _ => 0 := funext fun a => by fin_cases a <;> rfl

/-- Row `n` of x against column `e` of the weight. -/
def rowval0 (c : Dev nD) (n : Fin 100000) (e : Fin 128) : EReal :=
  ∑ j : Fin 128, HMul.hMul (α := EReal) (β := EReal) (γ := EReal) ((V c main_arg0 : S100000x128.Idx → EReal) (ix2 n j)) ((V c main_arg3 : S128x128.Idx → EReal) (ix2 j e))

/-- The whole output array as one function of the arrays the region is entered with. -/
def G0 (c : Dev nD) : S100000x128.Idx → EReal := fun i => rowval0 V c (i 0) (i 1)

/-- The index maps over the twenty points: x and the output are at block row `t`, column block 0; the weight is at
    block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point `t` is rows `5000 t … 5000 t + 4999` of the array. -/
theorem blk0_0_apply (c : Dev nD) (t : Fin cfg0.N) (y : Fin 5000) (d : Fin 128) (n : Fin 100000)
    (hn : n.val = 5000 * t.val + y.val) :
    (iblk0 V c 0 t : Vec Ideal S5000x128 .f32) (ix2 y d) = (V c main_arg0 : S100000x128.Idx → EReal) (ix2 n d) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * y.val = n.val; rw [e0, hn]; omega
  | ⟨1, _⟩ => show win0_0.index t (1 : Fin 2) * 128 + 1 * d.val = d.val; rw [e1]; omega

/-- The weight's block at every point is the whole array. -/
theorem blk0_1_apply (c : Dev nD) (t : Fin cfg0.N) (d : Fin 128) (e : Fin 128) :
    (iblk0 V c 1 t : Vec Ideal S128x128 .f32) (ix2 d e) = (V c main_arg3 : S128x128.Idx → EReal) (ix2 d e) := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * d.val = d.val; rw [e0]; omega
  | ⟨1, _⟩ => show win0_1.index t (1 : Fin 2) * 128 + 1 * e.val = e.val; rw [e1]; omega

/-- The block body at one entry, once each block it reads is known entry by entry as a part of an array. -/
theorem point0 (x0 : Vec Ideal S5000x128 .f32) (x1 : Vec Ideal S128x128 .f32)
    (A0 : S100000x128.Idx → EReal) (A1 : S128x128.Idx → EReal) (p : Fin 5000) (e : Fin 128) (n : Fin 100000)
    (h0 : ∀ j : Fin 128, x0 (ix2 p j) = A0 (ix2 n j))
    (h1 : ∀ (j : Fin 128) (e' : Fin 128), x1 (ix2 j e') = A1 (ix2 j e')) :
    k0_pay1 (F := Ideal) x0 x1 (ix2 p e) = ∑ j : Fin 128, A0 (ix2 n j) * A1 (ix2 j e) := by
  rw [Pay.k0_pay1_apply]
  simp only [h0, h1]

/-- What point `t` writes back is block `t` of `G0`. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S128x128) zero_off0]
  have e2 := (idx_facts0 t).2.2.2.2
  have hN : grid0.N = 20 := N_0
  have ht : t.val < 20 := hN ▸ t.isLt
  funext y
  obtain ⟨p, q, rfl⟩ : ∃ (p : Fin 5000) (q : Fin 128), y = ix2 p q := ⟨y 0, y 1, eq_ix2 y⟩
  have hemb : ((cfg0.win 2).blk t).view.emb (ix2 p q) = (ix2 (⟨5000 * t.val + p.val, by omega⟩ : Fin 100000) q : S100000x128.Idx) := by
    funext a
    apply Fin.ext
    match a with
    | ⟨0, _⟩ => show win0_2.index t (0 : Fin 2) * 5000 + 1 * p.val = 5000 * t.val + p.val; rw [e2.1]; omega
    | ⟨1, _⟩ => show win0_2.index t (1 : Fin 2) * 128 + 1 * q.val = q.val; rw [e2.2]; omega
  show k0_pay1 (F := Ideal) (iblk0 V c 0 t) (iblk0 V c 1 t) (ix2 p q)
      = G0 V c (((cfg0.win 2).blk t).view.emb (ix2 p q))
  rw [hemb]
  exact point0 _ _ (V c main_arg0) (V c main_arg3) p q _
    (fun j => blk0_0_apply V c t p j _ rfl) (fun j e' => blk0_1_apply V c t j e')

/-- The region's output array, whole: every row lies in the block of the point `row / 5000`. -/
theorem final0 (c : Dev nD) : (dat0 V c).arrAt 2 cfg0.N = G0 V c :=
  (dat0 V c).arrAt_eq_of_cover 2 (G0 V c) (fun t _ => flushed0_eq V c t) fun i => by
    have hN : grid0.N = 20 := N_0
    have hi0 : (i 0).val < 100000 := (i 0).isLt
    have hi1 : (i 1).val < 128 := (i 1).isLt
    have hq : (i 0).val / 5000 < grid0.N := by rw [hN]; omega
    obtain ⟨-, -, -, -, e0, e1⟩ := idx_facts0 ⟨(i 0).val / 5000, hq⟩
    refine ⟨⟨(i 0).val / 5000, hq⟩, flush0_2 _, ?_⟩
    show i ∈ ((View.whole main_v0).slice (win0_2.rect ⟨(i 0).val / 5000, hq⟩)).set
    rw [View.set_slice_whole, Rect.mem_set_unit]
    intro a
    match a with
    | ⟨0, _⟩ =>
      show win0_2.index ⟨(i 0).val / 5000, hq⟩ (0 : Fin 2) * 5000 ≤ (i 0).val
        ∧ (i 0).val < win0_2.index ⟨(i 0).val / 5000, hq⟩ (0 : Fin 2) * 5000 + 5000
      rw [e0]; show (i 0).val / 5000 * 5000 ≤ (i 0).val ∧ (i 0).val < (i 0).val / 5000 * 5000 + 5000; omega
    | ⟨1, _⟩ =>
      show win0_2.index ⟨(i 0).val / 5000, hq⟩ (1 : Fin 2) * 128 ≤ (i 1).val
        ∧ (i 1).val < win0_2.index ⟨(i 0).val / 5000, hq⟩ (1 : Fin 2) * 128 + 128
      rw [e1]; omega

/-- Entry (n, e) of the projection's output is row n of x against column e of the weight. -/
theorem region0_value (c : Dev nD) (n : Fin 100000) (e : Fin 128) :
    ((dat0 (F := Ideal) V c).arrAt 2 cfg0.N : S100000x128.Idx → EReal) (ix2 n e)
      = ∑ j : Fin 128, HMul.hMul (α := EReal) (β := EReal) (γ := EReal) ((V c main_arg0 : S100000x128.Idx → EReal) (ix2 n j)) ((V c main_arg3 : S128x128.Idx → EReal) (ix2 j e)) := by
  rw [final0 V c]
  rfl

end Cert.KernelIdeal.Regions

end
-- ==== Proof.PayFz1.lean ====
/- The first membership layer's block body at one entry: the layer of Fuzzy.lean on row y of the block. -/
import proofs.«166959_j39908836114942_2_alg».proof.Proof.Gen.KernelIdeal.Skeleton
import proofs.«166959_j39908836114942_2_alg».proof.Proof.Fuzzy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! The dimension numbers of the [2000, 128] × [128, 30] product: the left operand is read at (row, k), the right at (k, column). -/

private theorem fzIn_lhs0 (i : S2000x30.Idx) (q : dot_S2000x128_S128x30_S2000x30_1_0_0_1_n_n.contr.Idx) :
    (dot_S2000x128_S128x30_S2000x30_1_0_0_1_n_n.lhsIdx i q 0).val = (i 0).val := by
  unfold DotDims.lhsIdx
  rw [dif_neg (show ¬(0 : Fin S2000x128.rank) ∈ dot_S2000x128_S128x30_S2000x30_1_0_0_1_n_n.lhsBatch by decide), dif_pos (show (0 : Fin S2000x128.rank) ∈ dot_S2000x128_S128x30_S2000x30_1_0_0_1_n_n.lhsNonContracting by decide)]
  rfl
private theorem fzIn_lhs1 (i : S2000x30.Idx) (q : dot_S2000x128_S128x30_S2000x30_1_0_0_1_n_n.contr.Idx) :
    (dot_S2000x128_S128x30_S2000x30_1_0_0_1_n_n.lhsIdx i q 1).val = (q ⟨0, by decide⟩).val :=
  dot_S2000x128_S128x30_S2000x30_1_0_0_1_n_n.lhsIdx_val_of_single rfl i q
private theorem fzIn_rhs0 (i : S2000x30.Idx) (q : dot_S2000x128_S128x30_S2000x30_1_0_0_1_n_n.contr.Idx) :
    (dot_S2000x128_S128x30_S2000x30_1_0_0_1_n_n.rhsIdx i q 0).val = (q ⟨0, by decide⟩).val :=
  dot_S2000x128_S128x30_S2000x30_1_0_0_1_n_n.rhsIdx_val_of_single rfl i q
private theorem fzIn_rhs1 (i : S2000x30.Idx) (q : dot_S2000x128_S128x30_S2000x30_1_0_0_1_n_n.contr.Idx) :
    (dot_S2000x128_S128x30_S2000x30_1_0_0_1_n_n.rhsIdx i q 1).val = (i 1).val := by
  unfold DotDims.rhsIdx
  rw [dif_neg (show ¬(1 : Fin S128x30.rank) ∈ dot_S2000x128_S128x30_S2000x30_1_0_0_1_n_n.rhsBatch by decide), dif_pos (show (1 : Fin S128x30.rank) ∈ dot_S2000x128_S128x30_S2000x30_1_0_0_1_n_n.rhsNonContracting by decide)]
  rfl

/-- The [2000, 128] × [128, 30] product into a zero accumulator at entry (p, e): the sum over the contracted coordinate. -/
private theorem fzIn_apply {φ₁ φ₂ : FTy} (prec : Option ContractPrecision) (l : FVec Ideal S2000x128 φ₁) (r : FVec Ideal S128x30 φ₂)
    (p : Fin 2000) (e : Fin 30) :
    FloatOps.matmul dot_S2000x128_S128x30_S2000x30_1_0_0_1_n_n prec l r (constant (F := Ideal) S2000x30 .f32 0x00000000#32) (ix2 p e)
      = ∑ k : Fin 128, l (ix2 p k) * r (ix2 k e) := by
  rw [Ideal.matmul_constant_zero_apply, ← Equiv.sum_comp (contrEquiv1 dot_S2000x128_S128x30_S2000x30_1_0_0_1_n_n 128 rfl rfl).symm]
  refine Finset.sum_congr rfl fun k _ => ?_
  have hk := contrEquiv1_symm_val dot_S2000x128_S128x30_S2000x30_1_0_0_1_n_n 128 rfl rfl k
  have el : dot_S2000x128_S128x30_S2000x30_1_0_0_1_n_n.lhsIdx (ix2 p e) ((contrEquiv1 dot_S2000x128_S128x30_S2000x30_1_0_0_1_n_n 128 rfl rfl).symm k) = ix2 p k := funext fun a => Fin.ext (by
    match a with
    | ⟨0, _⟩ => exact fzIn_lhs0 _ _
    | ⟨1, _⟩ => exact (fzIn_lhs1 _ _).trans hk)
  have er : dot_S2000x128_S128x30_S2000x30_1_0_0_1_n_n.rhsIdx (ix2 p e) ((contrEquiv1 dot_S2000x128_S128x30_S2000x30_1_0_0_1_n_n 128 rfl rfl).symm k) = ix2 k e := funext fun a => Fin.ext (by
    match a with
    | ⟨0, _⟩ => exact (fzIn_rhs0 _ _).trans hk
    | ⟨1, _⟩ => exact fzIn_rhs1 _ _)
  rw [el, er]

/-! The dimension numbers of the [2000, 30] × [30, 64] product: the left operand is read at (row, k), the right at (k, column). -/

private theorem fzOut_lhs0 (i : S2000x64.Idx) (q : dot_S2000x30_S30x64_S2000x64_1_0_0_1_n_n.contr.Idx) :
    (dot_S2000x30_S30x64_S2000x64_1_0_0_1_n_n.lhsIdx i q 0).val = (i 0).val := by
  unfold DotDims.lhsIdx
  rw [dif_neg (show ¬(0 : Fin S2000x30.rank) ∈ dot_S2000x30_S30x64_S2000x64_1_0_0_1_n_n.lhsBatch by decide), dif_pos (show (0 : Fin S2000x30.rank) ∈ dot_S2000x30_S30x64_S2000x64_1_0_0_1_n_n.lhsNonContracting by decide)]
  rfl
private theorem fzOut_lhs1 (i : S2000x64.Idx) (q : dot_S2000x30_S30x64_S2000x64_1_0_0_1_n_n.contr.Idx) :
    (dot_S2000x30_S30x64_S2000x64_1_0_0_1_n_n.lhsIdx i q 1).val = (q ⟨0, by decide⟩).val :=
  dot_S2000x30_S30x64_S2000x64_1_0_0_1_n_n.lhsIdx_val_of_single rfl i q
private theorem fzOut_rhs0 (i : S2000x64.Idx) (q : dot_S2000x30_S30x64_S2000x64_1_0_0_1_n_n.contr.Idx) :
    (dot_S2000x30_S30x64_S2000x64_1_0_0_1_n_n.rhsIdx i q 0).val = (q ⟨0, by decide⟩).val :=
  dot_S2000x30_S30x64_S2000x64_1_0_0_1_n_n.rhsIdx_val_of_single rfl i q
private theorem fzOut_rhs1 (i : S2000x64.Idx) (q : dot_S2000x30_S30x64_S2000x64_1_0_0_1_n_n.contr.Idx) :
    (dot_S2000x30_S30x64_S2000x64_1_0_0_1_n_n.rhsIdx i q 1).val = (i 1).val := by
  unfold DotDims.rhsIdx
  rw [dif_neg (show ¬(1 : Fin S30x64.rank) ∈ dot_S2000x30_S30x64_S2000x64_1_0_0_1_n_n.rhsBatch by decide), dif_pos (show (1 : Fin S30x64.rank) ∈ dot_S2000x30_S30x64_S2000x64_1_0_0_1_n_n.rhsNonContracting by decide)]
  rfl

/-- The [2000, 30] × [30, 64] product into a zero accumulator at entry (p, e): the sum over the contracted coordinate. -/
private theorem fzOut_apply {φ₁ φ₂ : FTy} (prec : Option ContractPrecision) (l : FVec Ideal S2000x30 φ₁) (r : FVec Ideal S30x64 φ₂)
    (p : Fin 2000) (e : Fin 64) :
    FloatOps.matmul dot_S2000x30_S30x64_S2000x64_1_0_0_1_n_n prec l r (constant (F := Ideal) S2000x64 .f32 0x00000000#32) (ix2 p e)
      = ∑ k : Fin 30, l (ix2 p k) * r (ix2 k e) := by
  rw [Ideal.matmul_constant_zero_apply, ← Equiv.sum_comp (contrEquiv1 dot_S2000x30_S30x64_S2000x64_1_0_0_1_n_n 30 rfl rfl).symm]
  refine Finset.sum_congr rfl fun k _ => ?_
  have hk := contrEquiv1_symm_val dot_S2000x30_S30x64_S2000x64_1_0_0_1_n_n 30 rfl rfl k
  have el : dot_S2000x30_S30x64_S2000x64_1_0_0_1_n_n.lhsIdx (ix2 p e) ((contrEquiv1 dot_S2000x30_S30x64_S2000x64_1_0_0_1_n_n 30 rfl rfl).symm k) = ix2 p k := funext fun a => Fin.ext (by
    match a with
    | ⟨0, _⟩ => exact fzOut_lhs0 _ _
    | ⟨1, _⟩ => exact (fzOut_lhs1 _ _).trans hk)
  have er : dot_S2000x30_S30x64_S2000x64_1_0_0_1_n_n.rhsIdx (ix2 p e) ((contrEquiv1 dot_S2000x30_S30x64_S2000x64_1_0_0_1_n_n 30 rfl rfl).symm k) = ix2 k e := funext fun a => Fin.ext (by
    match a with
    | ⟨0, _⟩ => exact (fzOut_rhs0 _ _).trans hk
    | ⟨1, _⟩ => exact fzOut_rhs1 _ _)
  rw [el, er]

/-! ### A row statistic as a column: a length-n vector as an [n, 1] column, and that column repeated along each row -/

/-- A length-n vector cast to an [n, 1] column reads, at (y, u), the vector at y. -/
private theorem colCast_apply {α : Type} {n : ℕ} (v : (⟨1, ![n]⟩ : Shape).Idx → α)
    (h : (⟨1, ![n]⟩ : Shape).ShapeCasts ⟨2, ![n, 1]⟩) (y : Fin n) (u : Fin 1) :
    shapeCast ⟨2, ![n, 1]⟩ v h (ix2 y u) = v (ix1 y) :=
  shapeCast_apply v h _ _ (by
    have hu : u.val = 0 := by omega
    rw [Shape.rowMajor_val_one, Shape.rowMajor_val_two]
    show y.val = y.val * 1 + u.val
    rw [hu, Nat.mul_one, Nat.add_zero])

/-- An [n, 1] column broadcast to [n, b] reads, at (y, r), the column at y. -/
private theorem colBroadcast_apply {α : Type} {n b : ℕ} (v : (⟨2, ![n, 1]⟩ : Shape).Idx → α)
    (h : (⟨2, ![n, 1]⟩ : Shape).Broadcasts ⟨2, ![n, b]⟩) (y : Fin n) (r : Fin b) :
    broadcastTo ⟨2, ![n, b]⟩ v h (ix2 y r) = v (ix2 y (0 : Fin 1)) := by
  refine broadcastTo_apply v h (ix2 y r) (ix2 y (0 : Fin 1)) fun ax => ?_
  match ax with
  | ⟨0, _⟩ =>
    show y.val = if n = 1 then 0 else y.val
    split
    · have := y.isLt; omega
    · rfl
  | ⟨1, _⟩ => rfl

/-- Row y's index with the rule coordinate k put back is (y, k). -/
private theorem lift_row (h : S2000x30.Reduces [1] S2000) (y : Fin 2000) (k : Fin (S2000x30.size 1)) :
    h.lift (ix1 y) k = ix2 y (⟨k.val, k.isLt⟩ : Fin 30) := by
  funext c; apply Fin.ext
  fin_cases c <;> rfl

/-! ### The body in four pieces: the exponents, their row maximum, the shifted exponentials, the normalised strengths -/

/-- The membership exponents of every row of the block (the body's operations up to the scaling by -1/2). -/
private def zV (v0 : Vec Ideal S2000x128 .f32) (v2 : Vec Ideal S1x128 .f32) (v7 v9 : Vec Ideal S128x30 .f32) (v16 : Vec Ideal S1x30 .f32) :
    FVec Ideal S2000x30 .f32 :=
  have v1 : FVec Ideal S2000x128 .f32 := shapeCast S2000x128 v0 shapeCasts_S2000x128_S2000x128
  have v3 : FVec Ideal S1x128 .f32 := shapeCast S1x128 v2 shapeCasts_S1x128_S1x128
  have v4 : FVec Ideal S2000x128 .f32 := broadcastTo S2000x128 v3 broadcasts_S1x128_S2000x128
  have v5 : FVec Ideal S2000x128 .f32 := addf v1 v4
  have v6 : FVec Ideal S2000x128 .f32 := mulf v5 v5
  have v8 : FVec Ideal S128x30 .f32 := shapeCast S128x30 v7 shapeCasts_S128x30_S128x30
  have v10 : FVec Ideal S128x30 .f32 := shapeCast S128x30 v9 shapeCasts_S128x30_S128x30
  have cst : FVec Ideal S2000x30 .f32 := constant S2000x30 .f32 0x00000000#32
  have v11 : FVec Ideal S2000x30 .f32 := matmul dot_S2000x128_S128x30_S2000x30_1_0_0_1_n_n (some .fp32) v6 v8 cst
  have cst_7 : FVec Ideal S2000x30 .f32 := constant S2000x30 .f32 0x00000000#32
  have v12 : FVec Ideal S2000x30 .f32 := matmul dot_S2000x128_S128x30_S2000x30_1_0_0_1_n_n (some .fp32) v5 v10 cst_7
  have cst_8 : Ideal .f32 := Scalar.ofBits .f32 0x40000000#32
  have v13 : FVec Ideal S2000x30 .f32 := broadcast S2000x30 cst_8
  have v14 : FVec Ideal S2000x30 .f32 := mulf v13 v12
  have v15 : FVec Ideal S2000x30 .f32 := subf v11 v14
  have v17 : FVec Ideal S1x30 .f32 := shapeCast S1x30 v16 shapeCasts_S1x30_S1x30
  have v18 : FVec Ideal S2000x30 .f32 := broadcastTo S2000x30 v17 broadcasts_S1x30_S2000x30
  have v19 : FVec Ideal S2000x30 .f32 := addf v15 v18
  have cst_11 : Ideal .f32 := Scalar.ofBits .f32 0xBF000000#32
  have v20 : FVec Ideal S2000x30 .f32 := broadcast S2000x30 cst_11
  mulf v20 v19

/-- Every row's maximum exponent, taken from -∞ and once more against -∞. -/
private def rowMaxV (z : FVec Ideal S2000x30 .f32) : FVec Ideal S2000 .f32 :=
  maximumf (broadcast S2000 (Scalar.ofBits (F := Ideal) .f32 0xFF800000#32))
    (multiReduction (F := Ideal) .maximumf [1] S2000 z 0xFF800000#32 reduces_S2000x30_S2000 (.inl rfl) rfl)

/-- The exponentials of the exponents shifted by their row's maximum. -/
private def expV (z : FVec Ideal S2000x30 .f32) : FVec Ideal S2000x30 .f32 :=
  exp (subf z (broadcastTo S2000x30 (shapeCast S2000x1 (rowMaxV z) shapeCasts_S2000_S2000x1) broadcasts_S2000x1_S2000x30))

/-- The exponentials divided by their row's sum. -/
private def frsV (z : FVec Ideal S2000x30 .f32) : FVec Ideal S2000x30 .f32 :=
  divf (expV z) (broadcastTo S2000x30 (shapeCast S2000x1
    (multiReduction (F := Ideal) .add [1] S2000 (expV z) 0x00000000#32 reduces_S2000x30_S2000 (.inl rfl) rfl)
    shapeCasts_S2000_S2000x1) broadcasts_S2000x1_S2000x30)

/-- The body is the product of the normalised strengths with the rule outputs. -/
private theorem k1_pay1_split (v0 : Vec Ideal S2000x128 .f32) (v2 : Vec Ideal S1x128 .f32) (v7 v9 : Vec Ideal S128x30 .f32)
    (v16 : Vec Ideal S1x30 .f32) (v34 : Vec Ideal S30x64 .f32) :
    k1_pay1 (F := Ideal) v0 v2 v7 v9 v16 v34
      = FloatOps.matmul dot_S2000x30_S30x64_S2000x64_1_0_0_1_n_n none (truncf .bf16 (frsV (zV v0 v2 v7 v9 v16)) bitsLt_bf16_f32)
          (truncf .bf16 (shapeCast S30x64 v34 shapeCasts_S30x64_S30x64) bitsLt_bf16_f32) (constant (F := Ideal) S2000x64 .f32 0x00000000#32) := rfl

/-- Entry (y, r) of the exponents is the membership exponent of rule r for row y (features plus the bias row). -/
private theorem zV_apply (v0 : Vec Ideal S2000x128 .f32) (v2 : Vec Ideal S1x128 .f32) (v7 v9 : Vec Ideal S128x30 .f32)
    (v16 : Vec Ideal S1x30 .f32) (y : Fin 2000) (r : Fin 30) :
    zV v0 v2 v7 v9 v16 (ix2 y r)
      = Cert.Fuzzy.zrow (fun d : Fin 128 => v0 (ix2 y d) + v2 (ix2 (0 : Fin 1) d)) (fun (d : Fin 128) (r : Fin 30) => v7 (ix2 d r))
          (fun (d : Fin 128) (r : Fin 30) => v9 (ix2 d r)) (fun r : Fin 30 => v16 (ix2 (0 : Fin 1) r)) r := by
  unfold zV Cert.Fuzzy.zrow
  simp only [shapeCast_self, matmul, mulf_apply, addf_apply, subf_apply, broadcast_apply, fzIn_apply, broadcastTo_1b_ab_apply]
  rfl

/-- Row y's maximum is the layer's row maximum of that row's exponents. -/
private theorem rowMaxV_apply (z : FVec Ideal S2000x30 .f32) (y : Fin 2000) :
    rowMaxV z (ix1 y) = Cert.Fuzzy.rowMax (fun r : Fin 30 => z (ix2 y r)) := by
  unfold rowMaxV Cert.Fuzzy.rowMax
  refine congrArg (max (Ideal.ofBits .f32 0xFF800000#32)) ?_
  refine (Ideal.multiReduction_maximumf_single z 0xFF800000#32 reduces_S2000x30_S2000 (.inl rfl) rfl (ix1 y)).trans ?_
  have hf : (z ∘ reduces_S2000x30_S2000.lift (ix1 y)) = fun r : Fin 30 => z (ix2 y r) :=
    funext fun k => congrArg z (lift_row reduces_S2000x30_S2000 y k)
  exact congrArg (fun f => Finset.fold max (Ideal.ofBits .f32 0xFF800000#32) f (Finset.univ : Finset (Fin 30))) hf

/-- Entry (y, r) of the shifted exponentials. -/
private theorem expV_apply (z : FVec Ideal S2000x30 .f32) (y : Fin 2000) (r : Fin 30) :
    expV z (ix2 y r) = Cert.Fuzzy.erow (fun r : Fin 30 => z (ix2 y r)) r := by
  unfold expV Cert.Fuzzy.erow
  show Ideal.exp (z (ix2 y r) - broadcastTo S2000x30 (shapeCast S2000x1 (rowMaxV z) shapeCasts_S2000_S2000x1) broadcasts_S2000x1_S2000x30 (ix2 y r)) = _
  rw [colBroadcast_apply, colCast_apply, rowMaxV_apply]

/-- Entry (y, r) of the normalised strengths. -/
private theorem frsV_apply (z : FVec Ideal S2000x30 .f32) (y : Fin 2000) (r : Fin 30) :
    frsV z (ix2 y r) = Cert.Fuzzy.frs (fun r : Fin 30 => z (ix2 y r)) r := by
  unfold frsV Cert.Fuzzy.frs
  show Ideal.div (expV z (ix2 y r)) (broadcastTo S2000x30 (shapeCast S2000x1
    (multiReduction (F := Ideal) .add [1] S2000 (expV z) 0x00000000#32 reduces_S2000x30_S2000 (.inl rfl) rfl)
    shapeCasts_S2000_S2000x1) broadcasts_S2000x1_S2000x30 (ix2 y r)) = _
  rw [colBroadcast_apply, colCast_apply, expV_apply]
  refine congrArg (Ideal.div _) ?_
  refine (Ideal.multiReduction_add_single (expV z) 0x00000000#32 reduces_S2000x30_S2000 (.inl rfl) rfl (ix1 y)).trans ?_
  show ∑ k : Fin 30, expV z (reduces_S2000x30_S2000.lift (ix1 y) k) = ∑ r' : Fin 30, Cert.Fuzzy.erow (fun r : Fin 30 => z (ix2 y r)) r'
  refine Finset.sum_congr rfl fun k _ => ?_
  rw [lift_row reduces_S2000x30_S2000 y k]
  exact expV_apply z y k

/-- Entry (y, j) of the body's result is the membership layer on row y (features plus the bias row). -/
theorem k1_pay1_apply (v0 : Vec Ideal S2000x128 .f32) (v2 : Vec Ideal S1x128 .f32) (v7 v9 : Vec Ideal S128x30 .f32)
    (v16 : Vec Ideal S1x30 .f32) (v34 : Vec Ideal S30x64 .f32) (y : Fin 2000) (j : Fin 64) :
    k1_pay1 (F := Ideal) v0 v2 v7 v9 v16 v34 (ix2 y j)
      = Cert.Fuzzy.fuzz (fun d : Fin 128 => v0 (ix2 y d) + v2 (ix2 (0 : Fin 1) d)) (fun (d : Fin 128) (r : Fin 30) => v7 (ix2 d r))
          (fun (d : Fin 128) (r : Fin 30) => v9 (ix2 d r)) (fun r : Fin 30 => v16 (ix2 (0 : Fin 1) r))
          (fun (r : Fin 30) (j' : Fin 64) => v34 (ix2 r j')) j := by
  rw [k1_pay1_split]
  refine (fzOut_apply none _ _ y j).trans ?_
  unfold Cert.Fuzzy.fuzz Cert.Fuzzy.mix
  refine Finset.sum_congr rfl fun r _ => ?_
  have hf : (truncf .bf16 (frsV (zV v0 v2 v7 v9 v16)) bitsLt_bf16_f32 : FVec Ideal S2000x30 .bf16) (ix2 y r)
      = Cert.Fuzzy.frs (fun r : Fin 30 => zV v0 v2 v7 v9 v16 (ix2 y r)) r := frsV_apply _ y r
  have hz : (fun r : Fin 30 => zV v0 v2 v7 v9 v16 (ix2 y r)) = _ := funext fun r => zV_apply v0 v2 v7 v9 v16 y r
  rw [hf, hz]
  simp only [shapeCast_self]
  rfl

end Cert.KernelIdeal.Pay

end
-- ==== Proof.KRegion1.lean ====
/- The first membership region: what its output array holds when the region is left, entry by entry, in terms of the
   arrays the region was entered with. Fifty blocks of 2000 rows tile the 100000 rows; row n lies in block n / 2000;
   the five small operands are read whole at every point. -/
import proofs.«166959_j39908836114942_2_alg».proof.Proof.Gen.KernelIdeal.Frame
import proofs.«166959_j39908836114942_2_alg».proof.Proof.PayFz1
import proofs.«166959_j39908836114942_2_alg».proof.Proof.Fuzzy
import Idealize.ShloMosaic.Lib.ValueIdx
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zero_off1 : (![0, 0] : Fin 2 → Nat) = fun _ => 0 := funext fun a => by fin_cases a <;> rfl

/-- The membership layer on row `n` of the aggregate (plus the bias row), at output column `j`. -/
def rowval1 (c : Dev nD) (n : Fin 100000) (j : Fin 64) : EReal :=
  Cert.Fuzzy.fuzz
    (fun d : Fin 128 => HAdd.hAdd (α := EReal) (β := EReal) (γ := EReal) ((V c main_v47 : S100000x128.Idx → EReal) (ix2 n d)) ((V c main_v60 : S1x128.Idx → EReal) (ix2 (0 : Fin 1) d)))
    (fun (d : Fin 128) (r : Fin 30) => (V c main_v58 : S128x30.Idx → EReal) (ix2 d r))
    (fun (d : Fin 128) (r : Fin 30) => (V c main_v59 : S128x30.Idx → EReal) (ix2 d r))
    (fun r : Fin 30 => (V c main_v57 : S1x30.Idx → EReal) (ix2 (0 : Fin 1) r))
    (fun (r : Fin 30) (j' : Fin 64) => (V c main_v48 : S30x64.Idx → EReal) (ix2 r j')) j

/-- The whole output array as one function of the arrays the region is entered with. -/
def G1 (c : Dev nD) : S100000x64.Idx → EReal := fun i => rowval1 V c (i 0) (i 1)

/-- The index maps over the fifty points: the row-blocked windows (the aggregate and the output) are at block row `t`,
    column block 0; the five small operands are at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate's block at point `t` is rows `2000 t … 2000 t + 1999` of the array. -/
theorem blk1_0_apply (c : Dev nD) (t : Fin cfg1.N) (y : Fin 2000) (d : Fin 128) (n : Fin 100000)
    (hn : n.val = 2000 * t.val + y.val) :
    (iblk1 V c 0 t : Vec Ideal S2000x128 .f32) (ix2 y d) = (V c main_v47 : S100000x128.Idx → EReal) (ix2 n d) := by
  obtain ⟨e0, e1, -⟩ := idx_facts1 t
  unfold iblk1
  rw [View.read_apply]
  show V c main_v47 _ = V c main_v47 _
  congr 1
  funext a
  apply Fin.ext
  match a with
  | ⟨0, _⟩ => show win1_0.index t (0 : Fin 2) * 2000 + 1 * y.val = n.val; rw [e0, hn]; omega
  | ⟨1, _⟩ => show win1_0.index t (1 : Fin 2) * 128 + 1 * d.val = d.val; rw [e1]; omega

/-- The bias row's block at every point is the whole array. -/
theorem blk1_1_apply (c : Dev nD) (t : Fin cfg1.N) (z : Fin 1) (d : Fin 128) :
    (iblk1 V c 1 t : Vec Ideal S1x128 .f32) (ix2 z d) = (V c main_v60 : S1x128.Idx → EReal) (ix2 z d) := by
  obtain ⟨-, -, e0, e1, -⟩ := idx_facts1 t
  unfold iblk1
  rw [View.read_apply]
  show V c main_v60 _ = V c main_v60 _
  congr 1
  funext a
  apply Fin.ext
  match a with
  | ⟨0, _⟩ => show win1_1.index t (0 : Fin 2) * 1 + 1 * z.val = z.val; rw [e0]; omega
  | ⟨1, _⟩ => show win1_1.index t (1 : Fin 2) * 128 + 1 * d.val = d.val; rw [e1]; omega

/-- The inverse squared widths' block at every point is the whole array. -/
theorem blk1_2_apply (c : Dev nD) (t : Fin cfg1.N) (d : Fin 128) (r : Fin 30) :
    (iblk1 V c 2 t : Vec Ideal S128x30 .f32) (ix2 d r) = (V c main_v58 : S128x30.Idx → EReal) (ix2 d r) := by
  obtain ⟨-, -, -, -, e0, e1, -⟩ := idx_facts1 t
  unfold iblk1
  rw [View.read_apply]
  show V c main_v58 _ = V c main_v58 _
  congr 1
  funext a
  apply Fin.ext
  match a with
  | ⟨0, _⟩ => show win1_2.index t (0 : Fin 2) * 128 + 1 * d.val = d.val; rw [e0]; omega
  | ⟨1, _⟩ => show win1_2.index t (1 : Fin 2) * 30 + 1 * r.val = r.val; rw [e1]; omega

/-- The scaled centres' block at every point is the whole array. -/
theorem blk1_3_apply (c : Dev nD) (t : Fin cfg1.N) (d : Fin 128) (r : Fin 30) :
    (iblk1 V c 3 t : Vec Ideal S128x30 .f32) (ix2 d r) = (V c main_v59 : S128x30.Idx → EReal) (ix2 d r) := by
  obtain ⟨-, -, -, -, -, -, e0, e1, -⟩ := idx_facts1 t
  unfold iblk1
  rw [View.read_apply]
  show V c main_v59 _ = V c main_v59 _
  congr 1
  funext a
  apply Fin.ext
  match a with
  | ⟨0, _⟩ => show win1_3.index t (0 : Fin 2) * 128 + 1 * d.val = d.val; rw [e0]; omega
  | ⟨1, _⟩ => show win1_3.index t (1 : Fin 2) * 30 + 1 * r.val = r.val; rw [e1]; omega

/-- The per-rule constants' block at every point is the whole array. -/
theorem blk1_4_apply (c : Dev nD) (t : Fin cfg1.N) (z : Fin 1) (r : Fin 30) :
    (iblk1 V c 4 t : Vec Ideal S1x30 .f32) (ix2 z r) = (V c main_v57 : S1x30.Idx → EReal) (ix2 z r) := by
  obtain ⟨-, -, -, -, -, -, -, -, e0, e1, -⟩ := idx_facts1 t
  unfold iblk1
  rw [View.read_apply]
  show V c main_v57 _ = V c main_v57 _
  congr 1
  funext a
  apply Fin.ext
  match a with
  | ⟨0, _⟩ => show win1_4.index t (0 : Fin 2) * 1 + 1 * z.val = z.val; rw [e0]; omega
  | ⟨1, _⟩ => show win1_4.index t (1 : Fin 2) * 30 + 1 * r.val = r.val; rw [e1]; omega

/-- The consequent matrix's block at every point is the whole array. -/
theorem blk1_5_apply (c : Dev nD) (t : Fin cfg1.N) (r : Fin 30) (j : Fin 64) :
    (iblk1 V c 5 t : Vec Ideal S30x64 .f32) (ix2 r j) = (V c main_v48 : S30x64.Idx → EReal) (ix2 r j) := by
  obtain ⟨-, -, -, -, -, -, -, -, -, -, e0, e1, -⟩ := idx_facts1 t
  unfold iblk1
  rw [View.read_apply]
  show V c main_v48 _ = V c main_v48 _
  congr 1
  funext a
  apply Fin.ext
  match a with
  | ⟨0, _⟩ => show win1_5.index t (0 : Fin 2) * 30 + 1 * r.val = r.val; rw [e0]; omega
  | ⟨1, _⟩ => show win1_5.index t (1 : Fin 2) * 64 + 1 * j.val = j.val; rw [e1]; omega

/-- The block body at one entry, once each block it reads is known entry by entry as a part of an array. -/
theorem point1 (x0 : Vec Ideal S2000x128 .f32) (x1 : Vec Ideal S1x128 .f32) (x2 x3 : Vec Ideal S128x30 .f32)
    (x4 : Vec Ideal S1x30 .f32) (x5 : Vec Ideal S30x64 .f32)
    (A0 : S100000x128.Idx → EReal) (A1 : S1x128.Idx → EReal) (A2 A3 : S128x30.Idx → EReal) (A4 : S1x30.Idx → EReal)
    (A5 : S30x64.Idx → EReal) (p : Fin 2000) (q : Fin 64) (n : Fin 100000)
    (h0 : ∀ d : Fin 128, x0 (ix2 p d) = A0 (ix2 n d))
    (h1 : ∀ d : Fin 128, x1 (ix2 (0 : Fin 1) d) = A1 (ix2 (0 : Fin 1) d))
    (h2 : ∀ (d : Fin 128) (r : Fin 30), x2 (ix2 d r) = A2 (ix2 d r))
    (h3 : ∀ (d : Fin 128) (r : Fin 30), x3 (ix2 d r) = A3 (ix2 d r))
    (h4 : ∀ r : Fin 30, x4 (ix2 (0 : Fin 1) r) = A4 (ix2 (0 : Fin 1) r))
    (h5 : ∀ (r : Fin 30) (j : Fin 64), x5 (ix2 r j) = A5 (ix2 r j)) :
    k1_pay1 (F := Ideal) x0 x1 x2 x3 x4 x5 (ix2 p q)
      = Cert.Fuzzy.fuzz (fun d : Fin 128 => A0 (ix2 n d) + A1 (ix2 (0 : Fin 1) d)) (fun (d : Fin 128) (r : Fin 30) => A2 (ix2 d r))
          (fun (d : Fin 128) (r : Fin 30) => A3 (ix2 d r)) (fun r : Fin 30 => A4 (ix2 (0 : Fin 1) r))
          (fun (r : Fin 30) (j' : Fin 64) => A5 (ix2 r j')) q := by
  rw [Pay.k1_pay1_apply]
  simp only [h0, h1, h2, h3, h4, h5]

/-- What point `t` writes back is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero zero_off1]
  simp only [View.ld_unit_zero (S := S2000x128) zero_off1, View.ld_unit_zero (S := S1x128) zero_off1,
    View.ld_unit_zero (S := S128x30) zero_off1, View.ld_unit_zero (S := S1x30) zero_off1,
    View.ld_unit_zero (S := S30x64) zero_off1]
  have e6 := (idx_facts1 t).2.2.2.2.2.2.2.2.2.2.2.2
  have hN : grid1.N = 50 := N_1
  have ht : t.val < 50 := hN ▸ t.isLt
  funext y
  obtain ⟨p, q, rfl⟩ : ∃ (p : Fin 2000) (q : Fin 64), y = ix2 p q := ⟨y 0, y 1, eq_ix2 y⟩
  have hemb : ((cfg1.win 6).blk t).view.emb (ix2 p q) = (ix2 (⟨2000 * t.val + p.val, by omega⟩ : Fin 100000) q : S100000x64.Idx) := by
    funext a
    apply Fin.ext
    match a with
    | ⟨0, _⟩ => show win1_6.index t (0 : Fin 2) * 2000 + 1 * p.val = 2000 * t.val + p.val; rw [e6.1]; omega
    | ⟨1, _⟩ => show win1_6.index t (1 : Fin 2) * 64 + 1 * q.val = q.val; rw [e6.2]; omega
  show k1_pay1 (F := Ideal) (iblk1 V c 0 t) (iblk1 V c 1 t) (iblk1 V c 2 t) (iblk1 V c 3 t) (iblk1 V c 4 t) (iblk1 V c 5 t) (ix2 p q)
      = G1 V c (((cfg1.win 6).blk t).view.emb (ix2 p q))
  rw [hemb]
  exact point1 _ _ _ _ _ _ (V c main_v47) (V c main_v60) (V c main_v58) (V c main_v59) (V c main_v57) (V c main_v48) p q _
    (fun d => blk1_0_apply V c t p d _ rfl) (fun d => blk1_1_apply V c t 0 d) (fun d r => blk1_2_apply V c t d r)
    (fun d r => blk1_3_apply V c t d r) (fun r => blk1_4_apply V c t 0 r) (fun r j => blk1_5_apply V c t r j)

/-- The region's output array, whole: every row lies in the block of the point `row / 2000`. -/
theorem final1 (c : Dev nD) : (dat1 V c).arrAt 6 cfg1.N = G1 V c :=
  (dat1 V c).arrAt_eq_of_cover 6 (G1 V c) (fun t _ => flushed1_eq V c t) fun i => by
    have hN : grid1.N = 50 := N_1
    have hi0 : (i 0).val < 100000 := (i 0).isLt
    have hi1 : (i 1).val < 64 := (i 1).isLt
    have hq : (i 0).val / 2000 < grid1.N := by rw [hN]; omega
    obtain ⟨-, -, -, -, -, -, -, -, -, -, -, -, e0, e1⟩ := idx_facts1 ⟨(i 0).val / 2000, hq⟩
    refine ⟨⟨(i 0).val / 2000, hq⟩, flush1_6 _, ?_⟩
    show i ∈ ((View.whole main_v61).slice (win1_6.rect ⟨(i 0).val / 2000, hq⟩)).set
    rw [View.set_slice_whole, Rect.mem_set_unit]
    intro a
    match a with
    | ⟨0, _⟩ =>
      show win1_6.index ⟨(i 0).val / 2000, hq⟩ (0 : Fin 2) * 2000 ≤ (i 0).val
        ∧ (i 0).val < win1_6.index ⟨(i 0).val / 2000, hq⟩ (0 : Fin 2) * 2000 + 2000
      rw [e0]; show (i 0).val / 2000 * 2000 ≤ (i 0).val ∧ (i 0).val < (i 0).val / 2000 * 2000 + 2000; omega
    | ⟨1, _⟩ =>
      show win1_6.index ⟨(i 0).val / 2000, hq⟩ (1 : Fin 2) * 64 ≤ (i 1).val
        ∧ (i 1).val < win1_6.index ⟨(i 0).val / 2000, hq⟩ (1 : Fin 2) * 64 + 64
      rw [e1]; omega

/-- Entry (n, j) of the region's output is the membership layer on row n of the aggregate (plus the bias row). -/
theorem region1_value (c : Dev nD) (n : Fin 100000) (j : Fin 64) :
    ((dat1 (F := Ideal) V c).arrAt 6 cfg1.N : S100000x64.Idx → EReal) (ix2 n j)
      = Cert.Fuzzy.fuzz
          (fun d : Fin 128 => HAdd.hAdd (α := EReal) (β := EReal) (γ := EReal) ((V c main_v47 : S100000x128.Idx → EReal) (ix2 n d)) ((V c main_v60 : S1x128.Idx → EReal) (ix2 (0 : Fin 1) d)))
          (fun (d : Fin 128) (r : Fin 30) => (V c main_v58 : S128x30.Idx → EReal) (ix2 d r))
          (fun (d : Fin 128) (r : Fin 30) => (V c main_v59 : S128x30.Idx → EReal) (ix2 d r))
          (fun r : Fin 30 => (V c main_v57 : S1x30.Idx → EReal) (ix2 (0 : Fin 1) r))
          (fun (r : Fin 30) (j' : Fin 64) => (V c main_v48 : S30x64.Idx → EReal) (ix2 r j')) j := by
  rw [final1 V c]
  rfl

end Cert.KernelIdeal.Regions

end
-- ==== Proof.PayFz2.lean ====
/- The second membership layer's block body at one entry: the layer of Fuzzy.lean on row y of the block. -/
import proofs.«166959_j39908836114942_2_alg».proof.Proof.Gen.KernelIdeal.Skeleton
import proofs.«166959_j39908836114942_2_alg».proof.Proof.Fuzzy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! The dimension numbers of the [2000, 64] × [64, 30] product: the left operand is read at (row, k), the right at (k, column). -/

private theorem fzIn_lhs0 (i : S2000x30.Idx) (q : dot_S2000x64_S64x30_S2000x30_1_0_0_1_n_n.contr.Idx) :
    (dot_S2000x64_S64x30_S2000x30_1_0_0_1_n_n.lhsIdx i q 0).val = (i 0).val := by
  unfold DotDims.lhsIdx
  rw [dif_neg (show ¬(0 : Fin S2000x64.rank) ∈ dot_S2000x64_S64x30_S2000x30_1_0_0_1_n_n.lhsBatch by decide), dif_pos (show (0 : Fin S2000x64.rank) ∈ dot_S2000x64_S64x30_S2000x30_1_0_0_1_n_n.lhsNonContracting by decide)]
  rfl
private theorem fzIn_lhs1 (i : S2000x30.Idx) (q : dot_S2000x64_S64x30_S2000x30_1_0_0_1_n_n.contr.Idx) :
    (dot_S2000x64_S64x30_S2000x30_1_0_0_1_n_n.lhsIdx i q 1).val = (q ⟨0, by decide⟩).val :=
  dot_S2000x64_S64x30_S2000x30_1_0_0_1_n_n.lhsIdx_val_of_single rfl i q
private theorem fzIn_rhs0 (i : S2000x30.Idx) (q : dot_S2000x64_S64x30_S2000x30_1_0_0_1_n_n.contr.Idx) :
    (dot_S2000x64_S64x30_S2000x30_1_0_0_1_n_n.rhsIdx i q 0).val = (q ⟨0, by decide⟩).val :=
  dot_S2000x64_S64x30_S2000x30_1_0_0_1_n_n.rhsIdx_val_of_single rfl i q
private theorem fzIn_rhs1 (i : S2000x30.Idx) (q : dot_S2000x64_S64x30_S2000x30_1_0_0_1_n_n.contr.Idx) :
    (dot_S2000x64_S64x30_S2000x30_1_0_0_1_n_n.rhsIdx i q 1).val = (i 1).val := by
  unfold DotDims.rhsIdx
  rw [dif_neg (show ¬(1 : Fin S64x30.rank) ∈ dot_S2000x64_S64x30_S2000x30_1_0_0_1_n_n.rhsBatch by decide), dif_pos (show (1 : Fin S64x30.rank) ∈ dot_S2000x64_S64x30_S2000x30_1_0_0_1_n_n.rhsNonContracting by decide)]
  rfl

/-- The [2000, 64] × [64, 30] product into a zero accumulator at entry (p, e): the sum over the contracted coordinate. -/
private theorem fzIn_apply {φ₁ φ₂ : FTy} (prec : Option ContractPrecision) (l : FVec Ideal S2000x64 φ₁) (r : FVec Ideal S64x30 φ₂)
    (p : Fin 2000) (e : Fin 30) :
    FloatOps.matmul dot_S2000x64_S64x30_S2000x30_1_0_0_1_n_n prec l r (constant (F := Ideal) S2000x30 .f32 0x00000000#32) (ix2 p e)
      = ∑ k : Fin 64, l (ix2 p k) * r (ix2 k e) := by
  rw [Ideal.matmul_constant_zero_apply, ← Equiv.sum_comp (contrEquiv1 dot_S2000x64_S64x30_S2000x30_1_0_0_1_n_n 64 rfl rfl).symm]
  refine Finset.sum_congr rfl fun k _ => ?_
  have hk := contrEquiv1_symm_val dot_S2000x64_S64x30_S2000x30_1_0_0_1_n_n 64 rfl rfl k
  have el : dot_S2000x64_S64x30_S2000x30_1_0_0_1_n_n.lhsIdx (ix2 p e) ((contrEquiv1 dot_S2000x64_S64x30_S2000x30_1_0_0_1_n_n 64 rfl rfl).symm k) = ix2 p k := funext fun a => Fin.ext (by
    match a with
    | ⟨0, _⟩ => exact fzIn_lhs0 _ _
    | ⟨1, _⟩ => exact (fzIn_lhs1 _ _).trans hk)
  have er : dot_S2000x64_S64x30_S2000x30_1_0_0_1_n_n.rhsIdx (ix2 p e) ((contrEquiv1 dot_S2000x64_S64x30_S2000x30_1_0_0_1_n_n 64 rfl rfl).symm k) = ix2 k e := funext fun a => Fin.ext (by
    match a with
    | ⟨0, _⟩ => exact (fzIn_rhs0 _ _).trans hk
    | ⟨1, _⟩ => exact fzIn_rhs1 _ _)
  rw [el, er]

/-! The dimension numbers of the [2000, 30] × [30, 64] product: the left operand is read at (row, k), the right at (k, column). -/

private theorem fzOut_lhs0 (i : S2000x64.Idx) (q : dot_S2000x30_S30x64_S2000x64_1_0_0_1_n_n.contr.Idx) :
    (dot_S2000x30_S30x64_S2000x64_1_0_0_1_n_n.lhsIdx i q 0).val = (i 0).val := by
  unfold DotDims.lhsIdx
  rw [dif_neg (show ¬(0 : Fin S2000x30.rank) ∈ dot_S2000x30_S30x64_S2000x64_1_0_0_1_n_n.lhsBatch by decide), dif_pos (show (0 : Fin S2000x30.rank) ∈ dot_S2000x30_S30x64_S2000x64_1_0_0_1_n_n.lhsNonContracting by decide)]
  rfl
private theorem fzOut_lhs1 (i : S2000x64.Idx) (q : dot_S2000x30_S30x64_S2000x64_1_0_0_1_n_n.contr.Idx) :
    (dot_S2000x30_S30x64_S2000x64_1_0_0_1_n_n.lhsIdx i q 1).val = (q ⟨0, by decide⟩).val :=
  dot_S2000x30_S30x64_S2000x64_1_0_0_1_n_n.lhsIdx_val_of_single rfl i q
private theorem fzOut_rhs0 (i : S2000x64.Idx) (q : dot_S2000x30_S30x64_S2000x64_1_0_0_1_n_n.contr.Idx) :
    (dot_S2000x30_S30x64_S2000x64_1_0_0_1_n_n.rhsIdx i q 0).val = (q ⟨0, by decide⟩).val :=
  dot_S2000x30_S30x64_S2000x64_1_0_0_1_n_n.rhsIdx_val_of_single rfl i q
private theorem fzOut_rhs1 (i : S2000x64.Idx) (q : dot_S2000x30_S30x64_S2000x64_1_0_0_1_n_n.contr.Idx) :
    (dot_S2000x30_S30x64_S2000x64_1_0_0_1_n_n.rhsIdx i q 1).val = (i 1).val := by
  unfold DotDims.rhsIdx
  rw [dif_neg (show ¬(1 : Fin S30x64.rank) ∈ dot_S2000x30_S30x64_S2000x64_1_0_0_1_n_n.rhsBatch by decide), dif_pos (show (1 : Fin S30x64.rank) ∈ dot_S2000x30_S30x64_S2000x64_1_0_0_1_n_n.rhsNonContracting by decide)]
  rfl

/-- The [2000, 30] × [30, 64] product into a zero accumulator at entry (p, e): the sum over the contracted coordinate. -/
private theorem fzOut_apply {φ₁ φ₂ : FTy} (prec : Option ContractPrecision) (l : FVec Ideal S2000x30 φ₁) (r : FVec Ideal S30x64 φ₂)
    (p : Fin 2000) (e : Fin 64) :
    FloatOps.matmul dot_S2000x30_S30x64_S2000x64_1_0_0_1_n_n prec l r (constant (F := Ideal) S2000x64 .f32 0x00000000#32) (ix2 p e)
      = ∑ k : Fin 30, l (ix2 p k) * r (ix2 k e) := by
  rw [Ideal.matmul_constant_zero_apply, ← Equiv.sum_comp (contrEquiv1 dot_S2000x30_S30x64_S2000x64_1_0_0_1_n_n 30 rfl rfl).symm]
  refine Finset.sum_congr rfl fun k _ => ?_
  have hk := contrEquiv1_symm_val dot_S2000x30_S30x64_S2000x64_1_0_0_1_n_n 30 rfl rfl k
  have el : dot_S2000x30_S30x64_S2000x64_1_0_0_1_n_n.lhsIdx (ix2 p e) ((contrEquiv1 dot_S2000x30_S30x64_S2000x64_1_0_0_1_n_n 30 rfl rfl).symm k) = ix2 p k := funext fun a => Fin.ext (by
    match a with
    | ⟨0, _⟩ => exact fzOut_lhs0 _ _
    | ⟨1, _⟩ => exact (fzOut_lhs1 _ _).trans hk)
  have er : dot_S2000x30_S30x64_S2000x64_1_0_0_1_n_n.rhsIdx (ix2 p e) ((contrEquiv1 dot_S2000x30_S30x64_S2000x64_1_0_0_1_n_n 30 rfl rfl).symm k) = ix2 k e := funext fun a => Fin.ext (by
    match a with
    | ⟨0, _⟩ => exact (fzOut_rhs0 _ _).trans hk
    | ⟨1, _⟩ => exact fzOut_rhs1 _ _)
  rw [el, er]

/-! ### A row statistic as a column: a length-n vector as an [n, 1] column, and that column repeated along each row -/

/-- A length-n vector cast to an [n, 1] column reads, at (y, u), the vector at y. -/
private theorem colCast_apply {α : Type} {n : ℕ} (v : (⟨1, ![n]⟩ : Shape).Idx → α)
    (h : (⟨1, ![n]⟩ : Shape).ShapeCasts ⟨2, ![n, 1]⟩) (y : Fin n) (u : Fin 1) :
    shapeCast ⟨2, ![n, 1]⟩ v h (ix2 y u) = v (ix1 y) :=
  shapeCast_apply v h _ _ (by
    have hu : u.val = 0 := by omega
    rw [Shape.rowMajor_val_one, Shape.rowMajor_val_two]
    show y.val = y.val * 1 + u.val
    rw [hu, Nat.mul_one, Nat.add_zero])

/-- An [n, 1] column broadcast to [n, b] reads, at (y, r), the column at y. -/
private theorem colBroadcast_apply {α : Type} {n b : ℕ} (v : (⟨2, ![n, 1]⟩ : Shape).Idx → α)
    (h : (⟨2, ![n, 1]⟩ : Shape).Broadcasts ⟨2, ![n, b]⟩) (y : Fin n) (r : Fin b) :
    broadcastTo ⟨2, ![n, b]⟩ v h (ix2 y r) = v (ix2 y (0 : Fin 1)) := by
  refine broadcastTo_apply v h (ix2 y r) (ix2 y (0 : Fin 1)) fun ax => ?_
  match ax with
  | ⟨0, _⟩ =>
    show y.val = if n = 1 then 0 else y.val
    split
    · have := y.isLt; omega
    · rfl
  | ⟨1, _⟩ => rfl

/-- Row y's index with the rule coordinate k put back is (y, k). -/
private theorem lift_row (h : S2000x30.Reduces [1] S2000) (y : Fin 2000) (k : Fin (S2000x30.size 1)) :
    h.lift (ix1 y) k = ix2 y (⟨k.val, k.isLt⟩ : Fin 30) := by
  funext c; apply Fin.ext
  fin_cases c <;> rfl

/-! ### The body in four pieces: the exponents, their row maximum, the shifted exponentials, the normalised strengths -/

/-- The membership exponents of every row of the block (the body's operations up to the scaling by -1/2). -/
private def zV (v0 : Vec Ideal S2000x64 .f32) (v2 : Vec Ideal S1x64 .f32) (v7 v9 : Vec Ideal S64x30 .f32) (v16 : Vec Ideal S1x30 .f32) :
    FVec Ideal S2000x30 .f32 :=
  have v1 : FVec Ideal S2000x64 .f32 := shapeCast S2000x64 v0 shapeCasts_S2000x64_S2000x64
  have v3 : FVec Ideal S1x64 .f32 := shapeCast S1x64 v2 shapeCasts_S1x64_S1x64
  have v4 : FVec Ideal S2000x64 .f32 := broadcastTo S2000x64 v3 broadcasts_S1x64_S2000x64
  have v5 : FVec Ideal S2000x64 .f32 := addf v1 v4
  have v6 : FVec Ideal S2000x64 .f32 := mulf v5 v5
  have v8 : FVec Ideal S64x30 .f32 := shapeCast S64x30 v7 shapeCasts_S64x30_S64x30
  have v10 : FVec Ideal S64x30 .f32 := shapeCast S64x30 v9 shapeCasts_S64x30_S64x30
  have cst : FVec Ideal S2000x30 .f32 := constant S2000x30 .f32 0x00000000#32
  have v11 : FVec Ideal S2000x30 .f32 := matmul dot_S2000x64_S64x30_S2000x30_1_0_0_1_n_n (some .fp32) v6 v8 cst
  have cst_7 : FVec Ideal S2000x30 .f32 := constant S2000x30 .f32 0x00000000#32
  have v12 : FVec Ideal S2000x30 .f32 := matmul dot_S2000x64_S64x30_S2000x30_1_0_0_1_n_n (some .fp32) v5 v10 cst_7
  have cst_8 : Ideal .f32 := Scalar.ofBits .f32 0x40000000#32
  have v13 : FVec Ideal S2000x30 .f32 := broadcast S2000x30 cst_8
  have v14 : FVec Ideal S2000x30 .f32 := mulf v13 v12
  have v15 : FVec Ideal S2000x30 .f32 := subf v11 v14
  have v17 : FVec Ideal S1x30 .f32 := shapeCast S1x30 v16 shapeCasts_S1x30_S1x30
  have v18 : FVec Ideal S2000x30 .f32 := broadcastTo S2000x30 v17 broadcasts_S1x30_S2000x30
  have v19 : FVec Ideal S2000x30 .f32 := addf v15 v18
  have cst_11 : Ideal .f32 := Scalar.ofBits .f32 0xBF000000#32
  have v20 : FVec Ideal S2000x30 .f32 := broadcast S2000x30 cst_11
  mulf v20 v19

/-- Every row's maximum exponent, taken from -∞ and once more against -∞. -/
private def rowMaxV (z : FVec Ideal S2000x30 .f32) : FVec Ideal S2000 .f32 :=
  maximumf (broadcast S2000 (Scalar.ofBits (F := Ideal) .f32 0xFF800000#32))
    (multiReduction (F := Ideal) .maximumf [1] S2000 z 0xFF800000#32 reduces_S2000x30_S2000 (.inl rfl) rfl)

/-- The exponentials of the exponents shifted by their row's maximum. -/
private def expV (z : FVec Ideal S2000x30 .f32) : FVec Ideal S2000x30 .f32 :=
  exp (subf z (broadcastTo S2000x30 (shapeCast S2000x1 (rowMaxV z) shapeCasts_S2000_S2000x1) broadcasts_S2000x1_S2000x30))

/-- The exponentials divided by their row's sum. -/
private def frsV (z : FVec Ideal S2000x30 .f32) : FVec Ideal S2000x30 .f32 :=
  divf (expV z) (broadcastTo S2000x30 (shapeCast S2000x1
    (multiReduction (F := Ideal) .add [1] S2000 (expV z) 0x00000000#32 reduces_S2000x30_S2000 (.inl rfl) rfl)
    shapeCasts_S2000_S2000x1) broadcasts_S2000x1_S2000x30)

/-- The body is the product of the normalised strengths with the rule outputs. -/
private theorem k2_pay1_split (v0 : Vec Ideal S2000x64 .f32) (v2 : Vec Ideal S1x64 .f32) (v7 v9 : Vec Ideal S64x30 .f32)
    (v16 : Vec Ideal S1x30 .f32) (v34 : Vec Ideal S30x64 .f32) :
    k2_pay1 (F := Ideal) v0 v2 v7 v9 v16 v34
      = FloatOps.matmul dot_S2000x30_S30x64_S2000x64_1_0_0_1_n_n none (truncf .bf16 (frsV (zV v0 v2 v7 v9 v16)) bitsLt_bf16_f32)
          (truncf .bf16 v34 bitsLt_bf16_f32) (constant (F := Ideal) S2000x64 .f32 0x00000000#32) := rfl

/-- Entry (y, r) of the exponents is the membership exponent of rule r for row y (features plus the bias row). -/
private theorem zV_apply (v0 : Vec Ideal S2000x64 .f32) (v2 : Vec Ideal S1x64 .f32) (v7 v9 : Vec Ideal S64x30 .f32)
    (v16 : Vec Ideal S1x30 .f32) (y : Fin 2000) (r : Fin 30) :
    zV v0 v2 v7 v9 v16 (ix2 y r)
      = Cert.Fuzzy.zrow (fun d : Fin 64 => v0 (ix2 y d) + v2 (ix2 (0 : Fin 1) d)) (fun (d : Fin 64) (r : Fin 30) => v7 (ix2 d r))
          (fun (d : Fin 64) (r : Fin 30) => v9 (ix2 d r)) (fun r : Fin 30 => v16 (ix2 (0 : Fin 1) r)) r := by
  unfold zV Cert.Fuzzy.zrow
  simp only [shapeCast_self, matmul, mulf_apply, addf_apply, subf_apply, broadcast_apply, fzIn_apply, broadcastTo_1b_ab_apply]
  rfl

/-- Row y's maximum is the layer's row maximum of that row's exponents. -/
private theorem rowMaxV_apply (z : FVec Ideal S2000x30 .f32) (y : Fin 2000) :
    rowMaxV z (ix1 y) = Cert.Fuzzy.rowMax (fun r : Fin 30 => z (ix2 y r)) := by
  unfold rowMaxV Cert.Fuzzy.rowMax
  refine congrArg (max (Ideal.ofBits .f32 0xFF800000#32)) ?_
  refine (Ideal.multiReduction_maximumf_single z 0xFF800000#32 reduces_S2000x30_S2000 (.inl rfl) rfl (ix1 y)).trans ?_
  have hf : (z ∘ reduces_S2000x30_S2000.lift (ix1 y)) = fun r : Fin 30 => z (ix2 y r) :=
    funext fun k => congrArg z (lift_row reduces_S2000x30_S2000 y k)
  exact congrArg (fun f => Finset.fold max (Ideal.ofBits .f32 0xFF800000#32) f (Finset.univ : Finset (Fin 30))) hf

/-- Entry (y, r) of the shifted exponentials. -/
private theorem expV_apply (z : FVec Ideal S2000x30 .f32) (y : Fin 2000) (r : Fin 30) :
    expV z (ix2 y r) = Cert.Fuzzy.erow (fun r : Fin 30 => z (ix2 y r)) r := by
  unfold expV Cert.Fuzzy.erow
  show Ideal.exp (z (ix2 y r) - broadcastTo S2000x30 (shapeCast S2000x1 (rowMaxV z) shapeCasts_S2000_S2000x1) broadcasts_S2000x1_S2000x30 (ix2 y r)) = _
  rw [colBroadcast_apply, colCast_apply, rowMaxV_apply]

/-- Entry (y, r) of the normalised strengths. -/
private theorem frsV_apply (z : FVec Ideal S2000x30 .f32) (y : Fin 2000) (r : Fin 30) :
    frsV z (ix2 y r) = Cert.Fuzzy.frs (fun r : Fin 30 => z (ix2 y r)) r := by
  unfold frsV Cert.Fuzzy.frs
  show Ideal.div (expV z (ix2 y r)) (broadcastTo S2000x30 (shapeCast S2000x1
    (multiReduction (F := Ideal) .add [1] S2000 (expV z) 0x00000000#32 reduces_S2000x30_S2000 (.inl rfl) rfl)
    shapeCasts_S2000_S2000x1) broadcasts_S2000x1_S2000x30 (ix2 y r)) = _
  rw [colBroadcast_apply, colCast_apply, expV_apply]
  refine congrArg (Ideal.div _) ?_
  refine (Ideal.multiReduction_add_single (expV z) 0x00000000#32 reduces_S2000x30_S2000 (.inl rfl) rfl (ix1 y)).trans ?_
  show ∑ k : Fin 30, expV z (reduces_S2000x30_S2000.lift (ix1 y) k) = ∑ r' : Fin 30, Cert.Fuzzy.erow (fun r : Fin 30 => z (ix2 y r)) r'
  refine Finset.sum_congr rfl fun k _ => ?_
  rw [lift_row reduces_S2000x30_S2000 y k]
  exact expV_apply z y k

/-- Entry (y, j) of the body's result is the membership layer on row y (features plus the bias row). -/
theorem k2_pay1_apply (v0 : Vec Ideal S2000x64 .f32) (v2 : Vec Ideal S1x64 .f32) (v7 v9 : Vec Ideal S64x30 .f32)
    (v16 : Vec Ideal S1x30 .f32) (v34 : Vec Ideal S30x64 .f32) (y : Fin 2000) (j : Fin 64) :
    k2_pay1 (F := Ideal) v0 v2 v7 v9 v16 v34 (ix2 y j)
      = Cert.Fuzzy.fuzz (fun d : Fin 64 => v0 (ix2 y d) + v2 (ix2 (0 : Fin 1) d)) (fun (d : Fin 64) (r : Fin 30) => v7 (ix2 d r))
          (fun (d : Fin 64) (r : Fin 30) => v9 (ix2 d r)) (fun r : Fin 30 => v16 (ix2 (0 : Fin 1) r))
          (fun (r : Fin 30) (j' : Fin 64) => v34 (ix2 r j')) j := by
  rw [k2_pay1_split]
  refine (fzOut_apply none _ _ y j).trans ?_
  unfold Cert.Fuzzy.fuzz Cert.Fuzzy.mix
  refine Finset.sum_congr rfl fun r _ => ?_
  have hf : (truncf .bf16 (frsV (zV v0 v2 v7 v9 v16)) bitsLt_bf16_f32 : FVec Ideal S2000x30 .bf16) (ix2 y r)
      = Cert.Fuzzy.frs (fun r : Fin 30 => zV v0 v2 v7 v9 v16 (ix2 y r)) r := frsV_apply _ y r
  have hz : (fun r : Fin 30 => zV v0 v2 v7 v9 v16 (ix2 y r)) = _ := funext fun r => zV_apply v0 v2 v7 v9 v16 y r
  rw [hf, hz]
  rfl

end Cert.KernelIdeal.Pay

end
-- ==== Proof.KRegion2.lean ====
/- The second membership region: what its output array holds when the region is left, entry by entry, in terms of the
   arrays the region was entered with. Fifty blocks of 2000 rows tile the 100000 rows; row n lies in block n / 2000;
   the five small operands are read whole at every point. -/
import proofs.«166959_j39908836114942_2_alg».proof.Proof.Gen.KernelIdeal.Frame
import proofs.«166959_j39908836114942_2_alg».proof.Proof.PayFz2
import proofs.«166959_j39908836114942_2_alg».proof.Proof.Fuzzy
import Idealize.ShloMosaic.Lib.ValueIdx
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zero_off2 : (![0, 0] : Fin 2 → Nat) = fun _ => 0 := funext fun a => by fin_cases a <;> rfl

/-- The membership layer on row `n` of the aggregate (plus the bias row), at output column `j`. -/
def rowval2 (c : Dev nD) (n : Fin 100000) (j : Fin 64) : EReal :=
  Cert.Fuzzy.fuzz
    (fun d : Fin 64 => HAdd.hAdd (α := EReal) (β := EReal) (γ := EReal) ((V c main_v109 : S100000x64.Idx → EReal) (ix2 n d)) ((V c main_v121 : S1x64.Idx → EReal) (ix2 (0 : Fin 1) d)))
    (fun (d : Fin 64) (r : Fin 30) => (V c main_v119 : S64x30.Idx → EReal) (ix2 d r))
    (fun (d : Fin 64) (r : Fin 30) => (V c main_v120 : S64x30.Idx → EReal) (ix2 d r))
    (fun r : Fin 30 => (V c main_v118 : S1x30.Idx → EReal) (ix2 (0 : Fin 1) r))
    (fun (r : Fin 30) (j' : Fin 64) => (V c main_arg9 : S30x64.Idx → EReal) (ix2 r j')) j

/-- The whole output array as one function of the arrays the region is entered with. -/
def G2 (c : Dev nD) : S100000x64.Idx → EReal := fun i => rowval2 V c (i 0) (i 1)

/-- The index maps over the fifty points: the row-blocked windows (the aggregate and the output) are at block row `t`,
    column block 0; the five small operands are at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregate's block at point `t` is rows `2000 t … 2000 t + 1999` of the array. -/
theorem blk2_0_apply (c : Dev nD) (t : Fin cfg2.N) (y : Fin 2000) (d : Fin 64) (n : Fin 100000)
    (hn : n.val = 2000 * t.val + y.val) :
    (iblk2 V c 0 t : Vec Ideal S2000x64 .f32) (ix2 y d) = (V c main_v109 : S100000x64.Idx → EReal) (ix2 n d) := by
  obtain ⟨e0, e1, -⟩ := idx_facts2 t
  unfold iblk2
  rw [View.read_apply]
  show V c main_v109 _ = V c main_v109 _
  congr 1
  funext a
  apply Fin.ext
  match a with
  | ⟨0, _⟩ => show win2_0.index t (0 : Fin 2) * 2000 + 1 * y.val = n.val; rw [e0, hn]; omega
  | ⟨1, _⟩ => show win2_0.index t (1 : Fin 2) * 64 + 1 * d.val = d.val; rw [e1]; omega

/-- The bias row's block at every point is the whole array. -/
theorem blk2_1_apply (c : Dev nD) (t : Fin cfg2.N) (z : Fin 1) (d : Fin 64) :
    (iblk2 V c 1 t : Vec Ideal S1x64 .f32) (ix2 z d) = (V c main_v121 : S1x64.Idx → EReal) (ix2 z d) := by
  obtain ⟨-, -, e0, e1, -⟩ := idx_facts2 t
  unfold iblk2
  rw [View.read_apply]
  show V c main_v121 _ = V c main_v121 _
  congr 1
  funext a
  apply Fin.ext
  match a with
  | ⟨0, _⟩ => show win2_1.index t (0 : Fin 2) * 1 + 1 * z.val = z.val; rw [e0]; omega
  | ⟨1, _⟩ => show win2_1.index t (1 : Fin 2) * 64 + 1 * d.val = d.val; rw [e1]; omega

/-- The inverse squared widths' block at every point is the whole array. -/
theorem blk2_2_apply (c : Dev nD) (t : Fin cfg2.N) (d : Fin 64) (r : Fin 30) :
    (iblk2 V c 2 t : Vec Ideal S64x30 .f32) (ix2 d r) = (V c main_v119 : S64x30.Idx → EReal) (ix2 d r) := by
  obtain ⟨-, -, -, -, e0, e1, -⟩ := idx_facts2 t
  unfold iblk2
  rw [View.read_apply]
  show V c main_v119 _ = V c main_v119 _
  congr 1
  funext a
  apply Fin.ext
  match a with
  | ⟨0, _⟩ => show win2_2.index t (0 : Fin 2) * 64 + 1 * d.val = d.val; rw [e0]; omega
  | ⟨1, _⟩ => show win2_2.index t (1 : Fin 2) * 30 + 1 * r.val = r.val; rw [e1]; omega

/-- The scaled centres' block at every point is the whole array. -/
theorem blk2_3_apply (c : Dev nD) (t : Fin cfg2.N) (d : Fin 64) (r : Fin 30) :
    (iblk2 V c 3 t : Vec Ideal S64x30 .f32) (ix2 d r) = (V c main_v120 : S64x30.Idx → EReal) (ix2 d r) := by
  obtain ⟨-, -, -, -, -, -, e0, e1, -⟩ := idx_facts2 t
  unfold iblk2
  rw [View.read_apply]
  show V c main_v120 _ = V c main_v120 _
  congr 1
  funext a
  apply Fin.ext
  match a with
  | ⟨0, _⟩ => show win2_3.index t (0 : Fin 2) * 64 + 1 * d.val = d.val; rw [e0]; omega
  | ⟨1, _⟩ => show win2_3.index t (1 : Fin 2) * 30 + 1 * r.val = r.val; rw [e1]; omega

/-- The per-rule constants' block at every point is the whole array. -/
theorem blk2_4_apply (c : Dev nD) (t : Fin cfg2.N) (z : Fin 1) (r : Fin 30) :
    (iblk2 V c 4 t : Vec Ideal S1x30 .f32) (ix2 z r) = (V c main_v118 : S1x30.Idx → EReal) (ix2 z r) := by
  obtain ⟨-, -, -, -, -, -, -, -, e0, e1, -⟩ := idx_facts2 t
  unfold iblk2
  rw [View.read_apply]
  show V c main_v118 _ = V c main_v118 _
  congr 1
  funext a
  apply Fin.ext
  match a with
  | ⟨0, _⟩ => show win2_4.index t (0 : Fin 2) * 1 + 1 * z.val = z.val; rw [e0]; omega
  | ⟨1, _⟩ => show win2_4.index t (1 : Fin 2) * 30 + 1 * r.val = r.val; rw [e1]; omega

/-- The consequent matrix's block at every point is the whole array. -/
theorem blk2_5_apply (c : Dev nD) (t : Fin cfg2.N) (r : Fin 30) (j : Fin 64) :
    (iblk2 V c 5 t : Vec Ideal S30x64 .f32) (ix2 r j) = (V c main_arg9 : S30x64.Idx → EReal) (ix2 r j) := by
  obtain ⟨-, -, -, -, -, -, -, -, -, -, e0, e1, -⟩ := idx_facts2 t
  unfold iblk2
  rw [View.read_apply]
  show V c main_arg9 _ = V c main_arg9 _
  congr 1
  funext a
  apply Fin.ext
  match a with
  | ⟨0, _⟩ => show win2_5.index t (0 : Fin 2) * 30 + 1 * r.val = r.val; rw [e0]; omega
  | ⟨1, _⟩ => show win2_5.index t (1 : Fin 2) * 64 + 1 * j.val = j.val; rw [e1]; omega

/-- The block body at one entry, once each block it reads is known entry by entry as a part of an array. -/
theorem point2 (x0 : Vec Ideal S2000x64 .f32) (x1 : Vec Ideal S1x64 .f32) (x2 x3 : Vec Ideal S64x30 .f32)
    (x4 : Vec Ideal S1x30 .f32) (x5 : Vec Ideal S30x64 .f32)
    (A0 : S100000x64.Idx → EReal) (A1 : S1x64.Idx → EReal) (A2 A3 : S64x30.Idx → EReal) (A4 : S1x30.Idx → EReal)
    (A5 : S30x64.Idx → EReal) (p : Fin 2000) (q : Fin 64) (n : Fin 100000)
    (h0 : ∀ d : Fin 64, x0 (ix2 p d) = A0 (ix2 n d))
    (h1 : ∀ d : Fin 64, x1 (ix2 (0 : Fin 1) d) = A1 (ix2 (0 : Fin 1) d))
    (h2 : ∀ (d : Fin 64) (r : Fin 30), x2 (ix2 d r) = A2 (ix2 d r))
    (h3 : ∀ (d : Fin 64) (r : Fin 30), x3 (ix2 d r) = A3 (ix2 d r))
    (h4 : ∀ r : Fin 30, x4 (ix2 (0 : Fin 1) r) = A4 (ix2 (0 : Fin 1) r))
    (h5 : ∀ (r : Fin 30) (j : Fin 64), x5 (ix2 r j) = A5 (ix2 r j)) :
    k2_pay1 (F := Ideal) x0 x1 x2 x3 x4 x5 (ix2 p q)
      = Cert.Fuzzy.fuzz (fun d : Fin 64 => A0 (ix2 n d) + A1 (ix2 (0 : Fin 1) d)) (fun (d : Fin 64) (r : Fin 30) => A2 (ix2 d r))
          (fun (d : Fin 64) (r : Fin 30) => A3 (ix2 d r)) (fun r : Fin 30 => A4 (ix2 (0 : Fin 1) r))
          (fun (r : Fin 30) (j' : Fin 64) => A5 (ix2 r j')) q := by
  rw [Pay.k2_pay1_apply]
  simp only [h0, h1, h2, h3, h4, h5]

/-- What point `t` writes back is block `t` of `G2`. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero zero_off2]
  simp only [View.ld_unit_zero (S := S2000x64) zero_off2, View.ld_unit_zero (S := S1x64) zero_off2,
    View.ld_unit_zero (S := S64x30) zero_off2, View.ld_unit_zero (S := S1x30) zero_off2,
    View.ld_unit_zero (S := S30x64) zero_off2]
  have e6 := (idx_facts2 t).2.2.2.2.2.2.2.2.2.2.2.2
  have hN : grid2.N = 50 := N_2
  have ht : t.val < 50 := hN ▸ t.isLt
  funext y
  obtain ⟨p, q, rfl⟩ : ∃ (p : Fin 2000) (q : Fin 64), y = ix2 p q := ⟨y 0, y 1, eq_ix2 y⟩
  have hemb : ((cfg2.win 6).blk t).view.emb (ix2 p q) = (ix2 (⟨2000 * t.val + p.val, by omega⟩ : Fin 100000) q : S100000x64.Idx) := by
    funext a
    apply Fin.ext
    match a with
    | ⟨0, _⟩ => show win2_6.index t (0 : Fin 2) * 2000 + 1 * p.val = 2000 * t.val + p.val; rw [e6.1]; omega
    | ⟨1, _⟩ => show win2_6.index t (1 : Fin 2) * 64 + 1 * q.val = q.val; rw [e6.2]; omega
  show k2_pay1 (F := Ideal) (iblk2 V c 0 t) (iblk2 V c 1 t) (iblk2 V c 2 t) (iblk2 V c 3 t) (iblk2 V c 4 t) (iblk2 V c 5 t) (ix2 p q)
      = G2 V c (((cfg2.win 6).blk t).view.emb (ix2 p q))
  rw [hemb]
  exact point2 _ _ _ _ _ _ (V c main_v109) (V c main_v121) (V c main_v119) (V c main_v120) (V c main_v118) (V c main_arg9) p q _
    (fun d => blk2_0_apply V c t p d _ rfl) (fun d => blk2_1_apply V c t 0 d) (fun d r => blk2_2_apply V c t d r)
    (fun d r => blk2_3_apply V c t d r) (fun r => blk2_4_apply V c t 0 r) (fun r j => blk2_5_apply V c t r j)

/-- The region's output array, whole: every row lies in the block of the point `row / 2000`. -/
theorem final2 (c : Dev nD) : (dat2 V c).arrAt 6 cfg2.N = G2 V c :=
  (dat2 V c).arrAt_eq_of_cover 6 (G2 V c) (fun t _ => flushed2_eq V c t) fun i => by
    have hN : grid2.N = 50 := N_2
    have hi0 : (i 0).val < 100000 := (i 0).isLt
    have hi1 : (i 1).val < 64 := (i 1).isLt
    have hq : (i 0).val / 2000 < grid2.N := by rw [hN]; omega
    obtain ⟨-, -, -, -, -, -, -, -, -, -, -, -, e0, e1⟩ := idx_facts2 ⟨(i 0).val / 2000, hq⟩
    refine ⟨⟨(i 0).val / 2000, hq⟩, flush2_6 _, ?_⟩
    show i ∈ ((View.whole main_v122).slice (win2_6.rect ⟨(i 0).val / 2000, hq⟩)).set
    rw [View.set_slice_whole, Rect.mem_set_unit]
    intro a
    match a with
    | ⟨0, _⟩ =>
      show win2_6.index ⟨(i 0).val / 2000, hq⟩ (0 : Fin 2) * 2000 ≤ (i 0).val
        ∧ (i 0).val < win2_6.index ⟨(i 0).val / 2000, hq⟩ (0 : Fin 2) * 2000 + 2000
      rw [e0]; show (i 0).val / 2000 * 2000 ≤ (i 0).val ∧ (i 0).val < (i 0).val / 2000 * 2000 + 2000; omega
    | ⟨1, _⟩ =>
      show win2_6.index ⟨(i 0).val / 2000, hq⟩ (1 : Fin 2) * 64 ≤ (i 1).val
        ∧ (i 1).val < win2_6.index ⟨(i 0).val / 2000, hq⟩ (1 : Fin 2) * 64 + 64
      rw [e1]; omega

/-- Entry (n, j) of the region's output is the membership layer on row n of the aggregate (plus the bias row). -/
theorem region2_value (c : Dev nD) (n : Fin 100000) (j : Fin 64) :
    ((dat2 (F := Ideal) V c).arrAt 6 cfg2.N : S100000x64.Idx → EReal) (ix2 n j)
      = Cert.Fuzzy.fuzz
          (fun d : Fin 64 => HAdd.hAdd (α := EReal) (β := EReal) (γ := EReal) ((V c main_v109 : S100000x64.Idx → EReal) (ix2 n d)) ((V c main_v121 : S1x64.Idx → EReal) (ix2 (0 : Fin 1) d)))
          (fun (d : Fin 64) (r : Fin 30) => (V c main_v119 : S64x30.Idx → EReal) (ix2 d r))
          (fun (d : Fin 64) (r : Fin 30) => (V c main_v120 : S64x30.Idx → EReal) (ix2 d r))
          (fun r : Fin 30 => (V c main_v118 : S1x30.Idx → EReal) (ix2 (0 : Fin 1) r))
          (fun (r : Fin 30) (j' : Fin 64) => (V c main_arg9 : S30x64.Idx → EReal) (ix2 r j')) j := by
  rw [final2 V c]
  rfl

end Cert.KernelIdeal.Regions

end
-- ==== Proof.HostK1.lean ====
/- The host operations between the dense projection and the first membership region: each array the region is
   entered with is the value the reference program computes at the same place from the same arguments. -/
import proofs.«166959_j39908836114942_2_alg».proof.Proof.Gen.KernelIdeal.Frame
import proofs.«166959_j39908836114942_2_alg».proof.Proof.RefReadP
import Idealize.ShloMosaic.Lib.StableHlo.Run
import Idealize.ShloMosaic.Lib.ValueIdx

set_option maxRecDepth 16384

noncomputable section

namespace Cert.KernelIdeal.HostK

open Idealize.ShloMosaic Idealize.ShloMosaic.TcCoe Idealize.ShloMosaic.ValueIdx Idealize.SL.Sem Idealize.ShloMosaic.StableHlo Cert.KernelIdeal Cert.KernelIdeal.Gen Cert.ReferenceIdeal.ReadP

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)

/-- Two arrays joined along an axis, with the two arrays as plain arguments (the joined list's shape fact no longer
    stands in the way of rewriting either array). -/
def joinPairK1 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem joinPairK1_fold {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = joinPairK1 t a s₁ s₂ h x₁ x₂ := rfl

/-- Every operation's result read at its own buffer, every other buffer passed through, joins folded. -/
local macro "host_results" : tactic =>
  `(tactic| simp (disch := decide) only [after_cons, after_nil, joinPairK1_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## After the first stretch -/

theorem w2_v4 : W2 m ρ c (Proc.devRef .tc main_v4) = val_main_v3 (F := Ideal) a1 := by
  show StableHlo.after hostOps1 (W1 m ρ c) (Proc.devRef .tc main_v4) = _
  host_results
  rw [W1_of_ne m ρ c main_arg1 (by decide)]
  rfl

theorem w2_v7 : W2 m ρ c (Proc.devRef .tc main_v7) = val_main_v6 (F := Ideal) a1 := by
  show StableHlo.after hostOps1 (W1 m ρ c) (Proc.devRef .tc main_v7) = _
  host_results
  rw [W1_of_ne m ρ c main_arg1 (by decide)]
  rfl

theorem w2_v9 : W2 m ρ c (Proc.devRef .tc main_v9) = val_main_v8 (F := Ideal) a2 := by
  show StableHlo.after hostOps1 (W1 m ρ c) (Proc.devRef .tc main_v9) = _
  host_results
  rw [W1_of_ne m ρ c main_arg2 (by decide)]
  rfl

theorem w2_v12 : W2 m ρ c (Proc.devRef .tc main_v12) = val_main_v11 (F := Ideal) a1 a2 := by
  show StableHlo.after hostOps1 (W1 m ρ c) (Proc.devRef .tc main_v12) = _
  host_results
  rw [W1_of_ne m ρ c main_arg1 (by decide), W1_of_ne m ρ c main_arg2 (by decide)]
  rfl

theorem w2_v14 : W2 m ρ c (Proc.devRef .tc main_v14) = val_main_v13 (F := Ideal) a1 a2 := by
  show StableHlo.after hostOps1 (W1 m ρ c) (Proc.devRef .tc main_v14) = _
  host_results
  rw [W1_of_ne m ρ c main_arg1 (by decide), W1_of_ne m ρ c main_arg2 (by decide)]
  rfl

theorem w2_v17 : W2 m ρ c (Proc.devRef .tc main_v17) = val_main_v16 (F := Ideal) a1 a2 := by
  show StableHlo.after hostOps1 (W1 m ρ c) (Proc.devRef .tc main_v17) = _
  host_results
  rw [W1_of_ne m ρ c main_arg1 (by decide), W1_of_ne m ρ c main_arg2 (by decide)]
  rfl

theorem w2_cst_3 : W2 m ρ c (Proc.devRef .tc main_cst_3) = val_main_cst_3 (F := Ideal) := by
  show StableHlo.after hostOps1 (W1 m ρ c) (Proc.devRef .tc main_cst_3) = _
  host_results
  rfl

theorem w2_v0 : W2 m ρ c (Proc.devRef .tc main_v0) = W1 m ρ c (Proc.devRef .tc main_v0) := by
  show StableHlo.after hostOps1 (W1 m ρ c) (Proc.devRef .tc main_v0) = _
  host_results

/-! ## After the degree normalisation's select -/

theorem w3_v18 : W3 m ρ c (Proc.devRef .tc main_v18) = val_main_v17 (F := Ideal) a1 a2 := by
  have e14 := w2_v14 m ρ c
  have e17 := w2_v17 m ρ c
  have e3 := w2_cst_3 m ρ c
  show StableHlo.after hostOps1_1 (W2 m ρ c) (Proc.devRef .tc main_v18) = _
  generalize W2 m ρ c = F2 at e14 e17 e3 ⊢
  host_results
  show select (F2 (Proc.devRef .tc main_v14)) (F2 (Proc.devRef .tc main_v17))
    (broadcastInDim S100000 ![] bcast_S_S100000 (id (F2 (Proc.devRef .tc main_cst_3)))) = _
  rw [e14, e17, e3]
  rfl

theorem w3_v4 : W3 m ρ c (Proc.devRef .tc main_v4) = val_main_v3 (F := Ideal) a1 := by
  refine Eq.trans ?_ (w2_v4 m ρ c)
  show StableHlo.after hostOps1_1 (W2 m ρ c) (Proc.devRef .tc main_v4) = _
  generalize W2 m ρ c = F2
  host_results

theorem w3_v7 : W3 m ρ c (Proc.devRef .tc main_v7) = val_main_v6 (F := Ideal) a1 := by
  refine Eq.trans ?_ (w2_v7 m ρ c)
  show StableHlo.after hostOps1_1 (W2 m ρ c) (Proc.devRef .tc main_v7) = _
  generalize W2 m ρ c = F2
  host_results

theorem w3_v9 : W3 m ρ c (Proc.devRef .tc main_v9) = val_main_v8 (F := Ideal) a2 := by
  refine Eq.trans ?_ (w2_v9 m ρ c)
  show StableHlo.after hostOps1_1 (W2 m ρ c) (Proc.devRef .tc main_v9) = _
  generalize W2 m ρ c = F2
  host_results

theorem w3_v0 : W3 m ρ c (Proc.devRef .tc main_v0) = W1 m ρ c (Proc.devRef .tc main_v0) := by
  refine Eq.trans ?_ (w2_v0 m ρ c)
  show StableHlo.after hostOps1_1 (W2 m ρ c) (Proc.devRef .tc main_v0) = _
  generalize W2 m ρ c = F2
  host_results

/-! ## The aggregate -/

/-- The aggregate of the projected features over the graph: the reference's stage 47. -/
theorem w4_v47 (h0 : W1 m ρ c (Proc.devRef .tc main_v0) = val_main_v34 (F := Ideal) (m ((c : Thread nD τ).loc main_arg0)) (m ((c : Thread nD τ).loc main_arg3))) : W4 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) := by
  have e4 := w3_v4 m ρ c
  have e7 := w3_v7 m ρ c
  have e9 := w3_v9 m ρ c
  have e18 := w3_v18 m ρ c
  have e0 := (w3_v0 m ρ c).trans h0
  show StableHlo.after hostOps1_2 (W3 m ρ c) (Proc.devRef .tc main_v47) = _
  generalize W3 m ρ c = F3 at e4 e7 e9 e18 e0 ⊢
  host_results
  rw [e4, e7, e9, e18, e0]
  rfl

/-! ## The membership layer's parameters -/

/-- The inverse squared widths, transposed: the reference's stage 55 of the widths argument. -/
theorem w4_v58 : W4 m ρ c (Proc.devRef .tc main_v58) = val_main_v55 (F := Ideal) (m ((c : Thread nD τ).loc main_arg8)) := by
  show StableHlo.after hostOps1_2 (StableHlo.after hostOps1_1 (StableHlo.after hostOps1 (W1 m ρ c))) (Proc.devRef .tc main_v58) = _
  after_results_simp
  rw [W1_of_ne m ρ c main_arg8 (by decide)]
  rfl

/-- The centres times the inverse squared widths, transposed: the reference's stage 58. -/
theorem w4_v59 : W4 m ρ c (Proc.devRef .tc main_v59) = val_main_v58 (F := Ideal) (m ((c : Thread nD τ).loc main_arg7)) (m ((c : Thread nD τ).loc main_arg8)) := by
  show StableHlo.after hostOps1_2 (StableHlo.after hostOps1_1 (StableHlo.after hostOps1 (W1 m ρ c))) (Proc.devRef .tc main_v59) = _
  after_results_simp
  rw [W1_of_ne m ρ c main_arg8 (by decide), W1_of_ne m ρ c main_arg7 (by decide)]
  rfl

/-- The per-rule constants as a row: the reference's stage 65 laid out as one row of thirty. -/
theorem w4_v57 : (W4 m ρ c (Proc.devRef .tc main_v57) : S1x30.Idx → EReal) = shapeCast S1x30 (broadcastInDim S30x1 (![0] : Fin S30.rank → Fin S30x1.rank) bcast_S30_S30x1_0 (val_main_v65 (F := Ideal) (m ((c : Thread nD τ).loc main_arg7)) (m ((c : Thread nD τ).loc main_arg8)))) shapeCasts_S30x1_S1x30 := by
  show StableHlo.after hostOps1_2 (StableHlo.after hostOps1_1 (StableHlo.after hostOps1 (W1 m ρ c))) (Proc.devRef .tc main_v57) = _
  after_results_simp
  rw [W1_of_ne m ρ c main_arg8 (by decide), W1_of_ne m ρ c main_arg7 (by decide)]
  rfl

/-- The bias as a row. -/
theorem w4_v60 : (W4 m ρ c (Proc.devRef .tc main_v60) : S1x128.Idx → EReal) = shapeCast S1x128 ((m ((c : Thread nD τ).loc main_arg4)) : S128.Idx → EReal) shapeCasts_S128_S1x128 := by
  show StableHlo.after hostOps1_2 (StableHlo.after hostOps1_1 (StableHlo.after hostOps1 (W1 m ρ c))) (Proc.devRef .tc main_v60) = _
  after_results_simp
  rw [W1_of_ne m ρ c main_arg4 (by decide)]
  rfl

/-- The consequent matrix: centres against the second layer's weight. -/
theorem w4_v48 : (W4 m ρ c (Proc.devRef .tc main_v48) : S30x64.Idx → EReal) = Host.dotGeneral (F := Ideal) (φ₁ := .f32) (φ₂ := .f32) dot_S30x128_S128x64_S30x64_1_0_0_1_n_n none ((m ((c : Thread nD τ).loc main_arg7)) : S30x128.Idx → EReal) ((m ((c : Thread nD τ).loc main_arg5)) : S128x64.Idx → EReal) := by
  show StableHlo.after hostOps1_2 (StableHlo.after hostOps1_1 (StableHlo.after hostOps1 (W1 m ρ c))) (Proc.devRef .tc main_v48) = _
  after_results_simp
  rw [W1_of_ne m ρ c main_arg7 (by decide), W1_of_ne m ρ c main_arg5 (by decide)]

end Cert.KernelIdeal.HostK

end
-- ==== Proof.HostK2.lean ====
/- The host operations between the second and the third Pallas region of the idealized kernel, read back to the
   reference's stage functions: the second aggregation of the first layer's output, and the second layer's parameters
   (inverse squared widths, centres times them, the per-rule constant, the bias row), are the reference's own stages
   of the same arguments. -/
import proofs.«166959_j39908836114942_2_alg».proof.Proof.Gen.KernelIdeal.Frame
import proofs.«166959_j39908836114942_2_alg».proof.Proof.RefReadP
import Idealize.ShloMosaic.Lib.StableHlo.Run
import Idealize.ShloMosaic.Lib.ValueIdx

set_option maxRecDepth 16384

noncomputable section

namespace Cert.KernelIdeal.HostK

open Idealize.ShloMosaic Idealize.ShloMosaic.TcCoe Idealize.ShloMosaic.ValueIdx Idealize.SL.Sem Idealize.ShloMosaic.StableHlo Cert.KernelIdeal Cert.KernelIdeal.Gen Cert.ReferenceIdeal.ReadP

variable (m : (ℓ : Loc nD τ sig) → Buf (Elt Ideal) ℓ) (ρ : Dev nD → PrngReg) (c : Dev nD)

/-- The concatenation of a vector of 1600000 entries and a vector of 100000 entries along their one axis, the two
    vectors as plain arguments. -/
def joinPairK2 {α : Type} (a : S1600000.Idx → α) (b : S100000.Idx → α) : S1700000.Idx → α :=
  concatenate S1700000 0 [⟨S1600000, a⟩, ⟨S100000, b⟩] concatenates_S1600000_S100000_S1700000_d0

theorem k2_joinPair_fold {α : Type} (a : S1600000.Idx → α) (b : S100000.Idx → α) :
    concatenate S1700000 0 [⟨S1600000, a⟩, ⟨S100000, b⟩] concatenates_S1600000_S100000_S1700000_d0 = joinPairK2 a b := rfl

/-- No operation before the second region's exit writes argument 1: there it still holds the launch's contents. -/
theorem k2_arg1 : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- No operation before the second region's exit writes argument 6: there it still holds the launch's contents. -/
theorem k2_arg6 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-- No operation before the second region's exit writes argument 9: there it still holds the launch's contents. -/
theorem k2_arg9 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

/-- No operation before the second region's exit writes argument 10: there it still holds the launch's contents. -/
theorem k2_arg10 : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl

/-- The transposed inverse squared widths of the second layer are the reference's %139. -/
theorem w8_v119 : W8 m ρ c (Proc.devRef .tc main_v119) = val_main_v139 (F := Ideal) (m ((c : Thread nD τ).loc main_arg10)) := by
  show StableHlo.after hostOps2_2 (StableHlo.after hostOps2_1 (StableHlo.after hostOps2 (W5 m ρ c))) (Proc.devRef .tc main_v119) = _
  after_results_simp
  rw [k2_arg10 m ρ c]
  unfold val_main_v139 val_main_v137 val_main_v136 val_main_cst_30 val_main_v135
  rfl

/-- The transposed centres times inverse squared widths of the second layer are the reference's %142. -/
theorem w8_v120 : W8 m ρ c (Proc.devRef .tc main_v120) = val_main_v142 (F := Ideal) (m ((c : Thread nD τ).loc main_arg9)) (m ((c : Thread nD τ).loc main_arg10)) := by
  show StableHlo.after hostOps2_2 (StableHlo.after hostOps2_1 (StableHlo.after hostOps2 (W5 m ρ c))) (Proc.devRef .tc main_v120) = _
  after_results_simp
  rw [k2_arg10 m ρ c, k2_arg9 m ρ c]
  unfold val_main_v142 val_main_v141 val_main_v137 val_main_v136 val_main_cst_30 val_main_v135
  rfl

/-- The per-rule constant of the second layer, as one row, is the reference's %149 made a column and cast to a row. -/
theorem w8_v118 : (W8 m ρ c (Proc.devRef .tc main_v118) : S1x30.Idx → EReal) = shapeCast S1x30 (broadcastInDim S30x1 (![0] : Fin S30.rank → Fin S30x1.rank) bcast_S30_S30x1_0 (val_main_v149 (F := Ideal) (m ((c : Thread nD τ).loc main_arg9)) (m ((c : Thread nD τ).loc main_arg10)))) shapeCasts_S30x1_S1x30 := by
  show StableHlo.after hostOps2_2 (StableHlo.after hostOps2_1 (StableHlo.after hostOps2 (W5 m ρ c))) (Proc.devRef .tc main_v118) = _
  after_results_simp
  rw [k2_arg10 m ρ c, k2_arg9 m ρ c]
  unfold val_main_v149 val_main_v148 val_main_v147 val_main_cst_32 val_main_v137 val_main_v136 val_main_cst_30 val_main_v135
  rfl

/-- The second layer's bias as one row. -/
theorem w8_v121 : (W8 m ρ c (Proc.devRef .tc main_v121) : S1x64.Idx → EReal) = shapeCast S1x64 ((m ((c : Thread nD τ).loc main_arg6)) : S64.Idx → EReal) shapeCasts_S64_S1x64 := by
  show StableHlo.after hostOps2_2 (StableHlo.after hostOps2_1 (StableHlo.after hostOps2 (W5 m ρ c))) (Proc.devRef .tc main_v121) = _
  after_results_simp
  rw [k2_arg6 m ρ c]
  rfl

/-- The second layer's centres are still the launch's. -/
theorem w8_arg9 : W8 m ρ c (Proc.devRef .tc main_arg9) = (m ((c : Thread nD τ).loc main_arg9)) :=
  calc W8 m ρ c (Proc.devRef .tc main_arg9)
    _ = W7 m ρ c (Proc.devRef .tc main_arg9) := StableHlo.after_of_forall_not_mem (b := Proc.devRef .tc main_arg9) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg9)) := k2_arg9 m ρ c

/-! ## The second aggregation, stage by stage

Each buffer a later stretch reads is identified with the reference's stage of the same arguments as soon as it is
written; the next stretch is then read over an arbitrary valuation carrying those identifications. -/

set_option quotPrecheck false

local notation "a1" => m ((c : Thread nD τ).loc main_arg1)

/-- Every operation's result read at its own buffer, every other buffer passed through, joins folded. -/
local macro "host_results2" : tactic =>
  `(tactic| simp (disch := decide) only [after_cons, after_nil, k2_joinPair_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ### After the first stretch (edge lists with self loops, unit weights, degrees) -/

/-- The source nodes with self loops: the reference's %87. -/
theorem w6_v66 : W6 m ρ c (Proc.devRef .tc main_v66) = val_main_v87 (F := Ideal) a1 := by
  show StableHlo.after hostOps2 (W5 m ρ c) (Proc.devRef .tc main_v66) = _
  host_results2
  rw [k2_arg1 m ρ c]
  rfl

/-- The target nodes with self loops: the reference's %90. -/
theorem w6_v69 : W6 m ρ c (Proc.devRef .tc main_v69) = val_main_v90 (F := Ideal) a1 := by
  show StableHlo.after hostOps2 (W5 m ρ c) (Proc.devRef .tc main_v69) = _
  host_results2
  rw [k2_arg1 m ρ c]
  rfl

/-- The unit edge weights with self loops: the reference's %92. -/
theorem w6_v71 : W6 m ρ c (Proc.devRef .tc main_v71) = val_main_v92 (F := Ideal) := by
  show StableHlo.after hostOps2 (W5 m ρ c) (Proc.devRef .tc main_v71) = _
  host_results2
  rfl

/-- Which degrees are positive: the reference's %97. -/
theorem w6_v76 : W6 m ρ c (Proc.devRef .tc main_v76) = val_main_v97 (F := Ideal) a1 := by
  show StableHlo.after hostOps2 (W5 m ρ c) (Proc.devRef .tc main_v76) = _
  host_results2
  rw [k2_arg1 m ρ c]
  rfl

/-- The inverse square roots of the clamped degrees: the reference's %100. -/
theorem w6_v79 : W6 m ρ c (Proc.devRef .tc main_v79) = val_main_v100 (F := Ideal) a1 := by
  show StableHlo.after hostOps2 (W5 m ρ c) (Proc.devRef .tc main_v79) = _
  host_results2
  rw [k2_arg1 m ρ c]
  rfl

/-- The zero the normalisation falls back to: the reference's constant. -/
theorem w6_cst_17 : W6 m ρ c (Proc.devRef .tc main_cst_17) = val_main_cst_22 (F := Ideal) := by
  show StableHlo.after hostOps2 (W5 m ρ c) (Proc.devRef .tc main_cst_17) = _
  host_results2
  rfl

/-- The first stretch does not write the second region's output. -/
theorem w6_v61 : W6 m ρ c (Proc.devRef .tc main_v61) = W5 m ρ c (Proc.devRef .tc main_v61) := by
  show StableHlo.after hostOps2 (W5 m ρ c) (Proc.devRef .tc main_v61) = _
  host_results2

/-! ### After the degree normalisation's select -/

/-- The degree normalisation: the reference's %101. -/
theorem w7_v80 : W7 m ρ c (Proc.devRef .tc main_v80) = val_main_v101 (F := Ideal) a1 := by
  have e76 := w6_v76 m ρ c
  have e79 := w6_v79 m ρ c
  have e17 := w6_cst_17 m ρ c
  show StableHlo.after hostOps2_1 (W6 m ρ c) (Proc.devRef .tc main_v80) = _
  generalize W6 m ρ c = F6 at e76 e79 e17 ⊢
  host_results2
  show select (F6 (Proc.devRef .tc main_v76)) (F6 (Proc.devRef .tc main_v79))
    (broadcastInDim S100000 ![] bcast_S_S100000 (id (F6 (Proc.devRef .tc main_cst_17)))) = _
  rw [e76, e79, e17]
  rfl

theorem w7_v66 : W7 m ρ c (Proc.devRef .tc main_v66) = val_main_v87 (F := Ideal) a1 := by
  refine Eq.trans ?_ (w6_v66 m ρ c)
  show StableHlo.after hostOps2_1 (W6 m ρ c) (Proc.devRef .tc main_v66) = _
  generalize W6 m ρ c = F6
  host_results2

theorem w7_v69 : W7 m ρ c (Proc.devRef .tc main_v69) = val_main_v90 (F := Ideal) a1 := by
  refine Eq.trans ?_ (w6_v69 m ρ c)
  show StableHlo.after hostOps2_1 (W6 m ρ c) (Proc.devRef .tc main_v69) = _
  generalize W6 m ρ c = F6
  host_results2

theorem w7_v71 : W7 m ρ c (Proc.devRef .tc main_v71) = val_main_v92 (F := Ideal) := by
  refine Eq.trans ?_ (w6_v71 m ρ c)
  show StableHlo.after hostOps2_1 (W6 m ρ c) (Proc.devRef .tc main_v71) = _
  generalize W6 m ρ c = F6
  host_results2

theorem w7_v61 : W7 m ρ c (Proc.devRef .tc main_v61) = W5 m ρ c (Proc.devRef .tc main_v61) := by
  refine Eq.trans ?_ (w6_v61 m ρ c)
  show StableHlo.after hostOps2_1 (W6 m ρ c) (Proc.devRef .tc main_v61) = _
  generalize W6 m ρ c = F6
  host_results2

/-! ### The aggregate -/

/-- The second aggregation (degree normalisation, gather along the edges, scatter-add to the target nodes) of the
    second region's output is the reference's %131, given that the region's output is the reference's %118. -/
theorem w8_v109 (h1 : W5 m ρ c (Proc.devRef .tc main_v61) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))) : W8 m ρ c (Proc.devRef .tc main_v109) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  have e66 := w7_v66 m ρ c
  have e69 := w7_v69 m ρ c
  have e71 := w7_v71 m ρ c
  have e80 := w7_v80 m ρ c
  have e61 := (w7_v61 m ρ c).trans h1
  show StableHlo.after hostOps2_2 (W7 m ρ c) (Proc.devRef .tc main_v109) = _
  generalize W7 m ρ c = F7 at e66 e69 e71 e80 e61 ⊢
  host_results2
  rw [e66, e69, e71, e80, e61]
  rfl

end Cert.KernelIdeal.HostK

end
-- ==== Proof.RefFz1.lean ====
/- The reference's first membership layer at one entry: the layer of Fuzzy.lean on row n of the biased aggregate
   (%50), with the inverse squared widths %53, the centres times them %57, the per-rule constant %65 and the centres. -/
import proofs.«166959_j39908836114942_2_alg».proof.Proof.RefReadP
import proofs.«166959_j39908836114942_2_alg».proof.Proof.Fuzzy
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal Cert.ReferenceIdeal.ReadP

/-! ## The exponent: two contractions over the feature axis, the per-rule constant, the factor -1/2 -/

/-- The transposed inverse squared widths at (d, r) are the inverse squared widths at (r, d). -/
theorem l1_iv2_transposed (x8 : (⟨S30x128, .f32⟩ : BufTy).Contents (Elt Ideal)) (d : Fin 128) (r : Fin 30) :
    val_main_v55 (F := Ideal) x8 (ix2 d r) = val_main_v53 (F := Ideal) x8 (ix2 r d) :=
  (val_main_v55_apply (F := Ideal) x8 (ix2 d r)).trans (congrArg (val_main_v53 (F := Ideal) x8) (funext fun a => Fin.ext (by match a with | ⟨0, _⟩ => rfl | ⟨1, _⟩ => rfl)))

/-- The transposed centres times inverse squared widths at (d, r) are those at (r, d). -/
theorem l1_civ2_transposed (x7 x8 : (⟨S30x128, .f32⟩ : BufTy).Contents (Elt Ideal)) (d : Fin 128) (r : Fin 30) :
    val_main_v58 (F := Ideal) x7 x8 (ix2 d r) = val_main_v57 (F := Ideal) x7 x8 (ix2 r d) :=
  (val_main_v58_apply (F := Ideal) x7 x8 (ix2 d r)).trans (congrArg (val_main_v57 (F := Ideal) x7 x8) (funext fun a => Fin.ext (by match a with | ⟨0, _⟩ => rfl | ⟨1, _⟩ => rfl)))

/-- The first contraction at (n, r): the sum over d of the squared row entry times the inverse squared width. -/
theorem l1_sq_dot (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x8 : (⟨S30x128, .f32⟩ : BufTy).Contents (Elt Ideal)) (n : Fin 100000) (r : Fin 30) :
    val_main_v56 (F := Ideal) x0 x1 x2 x3 x4 x8 (ix2 n r)
      = ∑ d : Fin 128, (val_main_v50 (F := Ideal) x0 x1 x2 x3 x4 (ix2 n d) * val_main_v50 (F := Ideal) x0 x1 x2 x3 x4 (ix2 n d)) * val_main_v53 (F := Ideal) x8 (ix2 r d) := by
  refine (val_main_v56_apply x0 x1 x2 x3 x4 x8 (ix2 n r)).trans (Finset.sum_congr rfl fun d _ => ?_)
  have el : lidx_main_v56 (ix2 n r) d = ix2 n d := funext fun a => Fin.ext (by match a with | ⟨0, _⟩ => rfl | ⟨1, _⟩ => rfl)
  have er : ridx_main_v56 (ix2 n r) d = ix2 d r := funext fun a => Fin.ext (by match a with | ⟨0, _⟩ => rfl | ⟨1, _⟩ => rfl)
  rewrite [el, er, l1_iv2_transposed, val_main_v54_apply, Ideal.mulf_def]
  with_reducible rfl

/-- The second contraction at (n, r): the sum over d of the row entry times the centre times the inverse squared width. -/
theorem l1_lin_dot (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (r : Fin 30) :
    val_main_v59 (F := Ideal) x0 x1 x2 x3 x4 x7 x8 (ix2 n r)
      = ∑ d : Fin 128, val_main_v50 (F := Ideal) x0 x1 x2 x3 x4 (ix2 n d) * val_main_v57 (F := Ideal) x7 x8 (ix2 r d) := by
  refine (val_main_v59_apply x0 x1 x2 x3 x4 x7 x8 (ix2 n r)).trans (Finset.sum_congr rfl fun d _ => ?_)
  have el : lidx_main_v59 (ix2 n r) d = ix2 n d := funext fun a => Fin.ext (by match a with | ⟨0, _⟩ => rfl | ⟨1, _⟩ => rfl)
  have er : ridx_main_v59 (ix2 n r) d = ix2 d r := funext fun a => Fin.ext (by match a with | ⟨0, _⟩ => rfl | ⟨1, _⟩ => rfl)
  rewrite [el, er, l1_civ2_transposed]
  with_reducible rfl

/-- The per-rule constant broadcast down the rows, at (n, r), is the constant of rule r. -/
theorem l1_con_bcast (x7 x8 : (⟨S30x128, .f32⟩ : BufTy).Contents (Elt Ideal)) (n : Fin 100000) (r : Fin 30) :
    val_main_v67 (F := Ideal) x7 x8 (ix2 n r) = val_main_v65 (F := Ideal) x7 x8 (ix1 r) :=
  (val_main_v67_apply (F := Ideal) x7 x8 (ix2 n r)).trans ((val_main_v66_apply (F := Ideal) x7 x8 _).trans
    (congrArg (val_main_v65 (F := Ideal) x7 x8) (funext fun a => Fin.ext (by match a with | ⟨0, _⟩ => rfl))))

/-- The exponent at (n, r) is the specification's exponent of rule r on row n. -/
theorem l1_z_entry (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (r : Fin 30) :
    val_main_v70 (F := Ideal) x0 x1 x2 x3 x4 x7 x8 (ix2 n r)
      = Cert.Fuzzy.zrow (fun d : Fin 128 => val_main_v50 (F := Ideal) x0 x1 x2 x3 x4 (ix2 n d))
          (fun (d : Fin 128) (r : Fin 30) => val_main_v53 (F := Ideal) x8 (ix2 r d))
          (fun (d : Fin 128) (r : Fin 30) => val_main_v57 (F := Ideal) x7 x8 (ix2 r d))
          (fun r : Fin 30 => val_main_v65 (F := Ideal) x7 x8 (ix1 r)) r := by
  unfold Cert.Fuzzy.zrow
  rewrite [val_main_v70_apply, val_main_v69_apply, val_main_cst_13_apply, val_main_v68_apply, val_main_v62_apply, val_main_v61_apply,
    val_main_v60_apply, val_main_cst_11_apply, l1_sq_dot, l1_lin_dot, l1_con_bcast]
  simp only [Ideal.mulf_def, Ideal.addf_def, Ideal.subf_def, Ideal.ofBits_def]

/-! ## The row maximum -/

/-- A row index with the rule coordinate put back is the pair (row, rule). -/
theorem l1_lift_rule (h : S100000x30.Reduces [1] S100000) (n : Fin 100000) (k : Fin (S100000x30.size 1)) :
    h.lift (ix1 n) k = ix2 n (⟨k.val, k.isLt⟩ : Fin 30) := by
  funext c; apply Fin.ext
  fin_cases c <;> rfl

/-- The reduction with a maximum body from -∞ over the rules is, for any array y, at row n, the fold of max over the row. -/
theorem l1_max_fold_of (y : (⟨S100000x30, .f32⟩ : BufTy).Contents (Elt Ideal)) (h : S100000x30.Reduces [1] S100000) (n : Fin 100000) :
    Host.reduce FloatOps.maximumf y (val_main_cst_14 (F := Ideal)) Gen.reducesTo_S100000x30_S100000_d1 Gen.h_S_ (ix1 n)
      = (Finset.univ : Finset (Fin 30)).fold max (Ideal.ofBits .f32 0xFF800000#32) (fun r : Fin 30 => y (ix2 n r)) := by
  refine (Host.reduce_eq_fold_single (α := Ideal .f32) (FloatOps.maximumf (F := Ideal) (φ := .f32)) y _
    Gen.reducesTo_S100000x30_S100000_d1 h Gen.h_S_ (ix1 n)).trans ?_
  have hf : (y ∘ h.lift (ix1 n)) = fun k : Fin 30 => y (ix2 n k) :=
    funext fun k => congrArg y (l1_lift_rule h n k)
  exact congrArg (fun f => Finset.fold max (Ideal.ofBits .f32 0xFF800000#32) f (Finset.univ : Finset (Fin 30))) hf

/-- The reduction with a maximum body from -∞ over the rules, at row n, is the fold of max over the row of exponents. -/
theorem l1_max_fold (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) :
    val_main_v71 (F := Ideal) x0 x1 x2 x3 x4 x7 x8 (ix1 n)
      = (Finset.univ : Finset (Fin 30)).fold max (Ideal.ofBits .f32 0xFF800000#32)
          (fun r : Fin 30 => val_main_v70 (F := Ideal) x0 x1 x2 x3 x4 x7 x8 (ix2 n r)) := by
  unfold val_main_v71
  generalize val_main_v70 (F := Ideal) x0 x1 x2 x3 x4 x7 x8 = y
  exact l1_max_fold_of y (by decide) n

/-- The row maximum, taken once more against -∞, is the specification's. -/
theorem l1_row_max (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) :
    val_main_v73 (F := Ideal) x0 x1 x2 x3 x4 x7 x8 (ix1 n) = Cert.Fuzzy.rowMax (fun r' : Fin 30 => val_main_v70 (F := Ideal) x0 x1 x2 x3 x4 x7 x8 (ix2 n r')) := by
  unfold Cert.Fuzzy.rowMax
  rewrite [val_main_v73_apply, val_main_v72_apply, val_main_cst_15_apply, l1_max_fold, Ideal.maximumf_def, Ideal.ofBits_def]
  with_reducible rfl

/-- The row maximum broadcast along the rules, at (n, r), is the maximum of row n. -/
theorem l1_max_bcast (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (r : Fin 30) :
    val_main_v75 (F := Ideal) x0 x1 x2 x3 x4 x7 x8 (ix2 n r) = val_main_v73 (F := Ideal) x0 x1 x2 x3 x4 x7 x8 (ix1 n) :=
  (val_main_v75_apply (F := Ideal) x0 x1 x2 x3 x4 x7 x8 (ix2 n r)).trans ((val_main_v74_apply (F := Ideal) x0 x1 x2 x3 x4 x7 x8 _).trans
    (congrArg (val_main_v73 (F := Ideal) x0 x1 x2 x3 x4 x7 x8) (funext fun a => Fin.ext (by match a with | ⟨0, _⟩ => rfl))))

/-! ## The shifted exponentials, their sum, the quotient -/

/-- The exponential at (n, r) is the specification's shifted exponential of rule r. -/
theorem l1_exp_entry (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (r : Fin 30) :
    val_main_v77 (F := Ideal) x0 x1 x2 x3 x4 x7 x8 (ix2 n r) = Cert.Fuzzy.erow (fun r' : Fin 30 => val_main_v70 (F := Ideal) x0 x1 x2 x3 x4 x7 x8 (ix2 n r')) r := by
  unfold Cert.Fuzzy.erow
  rewrite [val_main_v77_apply, val_main_v76_apply, l1_max_bcast, l1_row_max, Ideal.hostUnary_exp_def, Ideal.subf_def]
  with_reducible rfl

/-- The sum from zero over the rules, at row n, is the sum of the shifted exponentials. -/
theorem l1_exp_sum (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) :
    val_main_v78 (F := Ideal) x0 x1 x2 x3 x4 x7 x8 (ix1 n) = ∑ r : Fin 30, Cert.Fuzzy.erow (fun r' : Fin 30 => val_main_v70 (F := Ideal) x0 x1 x2 x3 x4 x7 x8 (ix2 n r')) r := by
  rewrite [val_main_v78_apply, val_main_cst_16_apply, Ideal.ofBits_def, Ideal.ofBits_zero_f32, zero_add]
  refine Finset.sum_congr rfl fun r _ => ?_
  have e : idx_main_v78 (ix1 n) r = ix2 n r := funext fun a => Fin.ext (by match a with | ⟨0, _⟩ => rfl | ⟨1, _⟩ => rfl)
  rewrite [e]
  exact l1_exp_entry x0 x1 x2 x3 x4 x7 x8 n r

/-- The sum broadcast along the rules, at (n, r), is the sum of row n. -/
theorem l1_sum_bcast (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (r : Fin 30) :
    val_main_v80 (F := Ideal) x0 x1 x2 x3 x4 x7 x8 (ix2 n r) = val_main_v78 (F := Ideal) x0 x1 x2 x3 x4 x7 x8 (ix1 n) :=
  (val_main_v80_apply (F := Ideal) x0 x1 x2 x3 x4 x7 x8 (ix2 n r)).trans ((val_main_v79_apply (F := Ideal) x0 x1 x2 x3 x4 x7 x8 _).trans
    (congrArg (val_main_v78 (F := Ideal) x0 x1 x2 x3 x4 x7 x8) (funext fun a => Fin.ext (by match a with | ⟨0, _⟩ => rfl))))

/-- The quotient at (n, r) is the specification's normalised firing strength of rule r. -/
theorem l1_frs_entry (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (r : Fin 30) :
    val_main_v81 (F := Ideal) x0 x1 x2 x3 x4 x7 x8 (ix2 n r) = Cert.Fuzzy.frs (fun r' : Fin 30 => val_main_v70 (F := Ideal) x0 x1 x2 x3 x4 x7 x8 (ix2 n r')) r := by
  unfold Cert.Fuzzy.frs
  rewrite [val_main_v81_apply, l1_sum_bcast, l1_exp_sum, l1_exp_entry, Ideal.hostDivf_def]
  with_reducible rfl

/-! ## Mixing with the centres -/

/-- Entry (n, k) of %82 (firing strengths times the centres) is the membership layer on row n of %50. -/
theorem ref_layer1 (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x7 x8 : (⟨S30x128, .f32⟩ : BufTy).Contents (Elt Ideal)) (n : Fin 100000) (k : Fin 128) :
    val_main_v82 (F := Ideal) x0 x1 x2 x3 x4 x7 x8 (ix2 n k)
      = Cert.Fuzzy.fuzz (fun d : Fin 128 => val_main_v50 (F := Ideal) x0 x1 x2 x3 x4 (ix2 n d))
          (fun (d : Fin 128) (r : Fin 30) => val_main_v53 (F := Ideal) x8 (ix2 r d))
          (fun (d : Fin 128) (r : Fin 30) => val_main_v57 (F := Ideal) x7 x8 (ix2 r d))
          (fun r : Fin 30 => val_main_v65 (F := Ideal) x7 x8 (ix1 r))
          (fun (r : Fin 30) (k' : Fin 128) => x7 (ix2 r k')) k := by
  have hz : (fun r' : Fin 30 => val_main_v70 (F := Ideal) x0 x1 x2 x3 x4 x7 x8 (ix2 n r'))
      = Cert.Fuzzy.zrow (fun d : Fin 128 => val_main_v50 (F := Ideal) x0 x1 x2 x3 x4 (ix2 n d))
          (fun (d : Fin 128) (r : Fin 30) => val_main_v53 (F := Ideal) x8 (ix2 r d))
          (fun (d : Fin 128) (r : Fin 30) => val_main_v57 (F := Ideal) x7 x8 (ix2 r d))
          (fun r : Fin 30 => val_main_v65 (F := Ideal) x7 x8 (ix1 r)) := funext fun r' => l1_z_entry x0 x1 x2 x3 x4 x7 x8 n r'
  unfold Cert.Fuzzy.fuzz Cert.Fuzzy.mix
  rewrite [← hz]
  refine (val_main_v82_apply x0 x1 x2 x3 x4 x7 x8 (ix2 n k)).trans (Finset.sum_congr rfl fun r _ => ?_)
  have el : lidx_main_v82 (ix2 n k) r = ix2 n r := funext fun a => Fin.ext (by match a with | ⟨0, _⟩ => rfl | ⟨1, _⟩ => rfl)
  have er : ridx_main_v82 (ix2 n k) r = ix2 r k := funext fun a => Fin.ext (by match a with | ⟨0, _⟩ => rfl | ⟨1, _⟩ => rfl)
  rewrite [el, er, l1_frs_entry]
  with_reducible rfl

end Cert.ReferenceIdeal.Rows

end
-- ==== Proof.RefFz2.lean ====
/- The reference's second membership layer at one entry: the layer of Fuzzy.lean on row n of the biased aggregate
   (%134), with the inverse squared widths %137, the centres times them %141, the per-rule constant %149 and the centres. -/
import proofs.«166959_j39908836114942_2_alg».proof.Proof.RefReadP
import proofs.«166959_j39908836114942_2_alg».proof.Proof.Fuzzy
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal Cert.ReferenceIdeal.ReadP

/-! ## The exponent: two contractions over the feature axis, the per-rule constant, the factor -1/2 -/

/-- The transposed inverse squared widths at (d, r) are the inverse squared widths at (r, d). -/
theorem l2_iv2_transposed (x10 : (⟨S30x64, .f32⟩ : BufTy).Contents (Elt Ideal)) (d : Fin 64) (r : Fin 30) :
    val_main_v139 (F := Ideal) x10 (ix2 d r) = val_main_v137 (F := Ideal) x10 (ix2 r d) :=
  (val_main_v139_apply (F := Ideal) x10 (ix2 d r)).trans (congrArg (val_main_v137 (F := Ideal) x10) (funext fun a => Fin.ext (by match a with | ⟨0, _⟩ => rfl | ⟨1, _⟩ => rfl)))

/-- The transposed centres times inverse squared widths at (d, r) are those at (r, d). -/
theorem l2_civ2_transposed (x9 x10 : (⟨S30x64, .f32⟩ : BufTy).Contents (Elt Ideal)) (d : Fin 64) (r : Fin 30) :
    val_main_v142 (F := Ideal) x9 x10 (ix2 d r) = val_main_v141 (F := Ideal) x9 x10 (ix2 r d) :=
  (val_main_v142_apply (F := Ideal) x9 x10 (ix2 d r)).trans (congrArg (val_main_v141 (F := Ideal) x9 x10) (funext fun a => Fin.ext (by match a with | ⟨0, _⟩ => rfl | ⟨1, _⟩ => rfl)))

/-- The first contraction at (n, r): the sum over d of the squared row entry times the inverse squared width. -/
theorem l2_sq_dot (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x10 : (⟨S30x64, .f32⟩ : BufTy).Contents (Elt Ideal)) (n : Fin 100000) (r : Fin 30) :
    val_main_v140 (F := Ideal) x0 x1 x2 x3 x4 x5 x6 x7 x8 x10 (ix2 n r)
      = ∑ d : Fin 64, (val_main_v134 (F := Ideal) x0 x1 x2 x3 x4 x5 x6 x7 x8 (ix2 n d) * val_main_v134 (F := Ideal) x0 x1 x2 x3 x4 x5 x6 x7 x8 (ix2 n d)) * val_main_v137 (F := Ideal) x10 (ix2 r d) := by
  refine (val_main_v140_apply x0 x1 x2 x3 x4 x5 x6 x7 x8 x10 (ix2 n r)).trans (Finset.sum_congr rfl fun d _ => ?_)
  have el : lidx_main_v140 (ix2 n r) d = ix2 n d := funext fun a => Fin.ext (by match a with | ⟨0, _⟩ => rfl | ⟨1, _⟩ => rfl)
  have er : ridx_main_v140 (ix2 n r) d = ix2 d r := funext fun a => Fin.ext (by match a with | ⟨0, _⟩ => rfl | ⟨1, _⟩ => rfl)
  rewrite [el, er, l2_iv2_transposed, val_main_v138_apply, Ideal.mulf_def]
  with_reducible rfl

/-- The second contraction at (n, r): the sum over d of the row entry times the centre times the inverse squared width. -/
theorem l2_lin_dot (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) (r : Fin 30) :
    val_main_v143 (F := Ideal) x0 x1 x2 x3 x4 x5 x6 x7 x8 x9 x10 (ix2 n r)
      = ∑ d : Fin 64, val_main_v134 (F := Ideal) x0 x1 x2 x3 x4 x5 x6 x7 x8 (ix2 n d) * val_main_v141 (F := Ideal) x9 x10 (ix2 r d) := by
  refine (val_main_v143_apply x0 x1 x2 x3 x4 x5 x6 x7 x8 x9 x10 (ix2 n r)).trans (Finset.sum_congr rfl fun d _ => ?_)
  have el : lidx_main_v143 (ix2 n r) d = ix2 n d := funext fun a => Fin.ext (by match a with | ⟨0, _⟩ => rfl | ⟨1, _⟩ => rfl)
  have er : ridx_main_v143 (ix2 n r) d = ix2 d r := funext fun a => Fin.ext (by match a with | ⟨0, _⟩ => rfl | ⟨1, _⟩ => rfl)
  rewrite [el, er, l2_civ2_transposed]
  with_reducible rfl

/-- The per-rule constant broadcast down the rows, at (n, r), is the constant of rule r. -/
theorem l2_con_bcast (x9 x10 : (⟨S30x64, .f32⟩ : BufTy).Contents (Elt Ideal)) (n : Fin 100000) (r : Fin 30) :
    val_main_v151 (F := Ideal) x9 x10 (ix2 n r) = val_main_v149 (F := Ideal) x9 x10 (ix1 r) :=
  (val_main_v151_apply (F := Ideal) x9 x10 (ix2 n r)).trans ((val_main_v150_apply (F := Ideal) x9 x10 _).trans
    (congrArg (val_main_v149 (F := Ideal) x9 x10) (funext fun a => Fin.ext (by match a with | ⟨0, _⟩ => rfl))))

/-- The exponent at (n, r) is the specification's exponent of rule r on row n. -/
theorem l2_z_entry (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) (r : Fin 30) :
    val_main_v154 (F := Ideal) x0 x1 x2 x3 x4 x5 x6 x7 x8 x9 x10 (ix2 n r)
      = Cert.Fuzzy.zrow (fun d : Fin 64 => val_main_v134 (F := Ideal) x0 x1 x2 x3 x4 x5 x6 x7 x8 (ix2 n d))
          (fun (d : Fin 64) (r : Fin 30) => val_main_v137 (F := Ideal) x10 (ix2 r d))
          (fun (d : Fin 64) (r : Fin 30) => val_main_v141 (F := Ideal) x9 x10 (ix2 r d))
          (fun r : Fin 30 => val_main_v149 (F := Ideal) x9 x10 (ix1 r)) r := by
  unfold Cert.Fuzzy.zrow
  rewrite [val_main_v154_apply, val_main_v153_apply, val_main_cst_33_apply, val_main_v152_apply, val_main_v146_apply, val_main_v145_apply,
    val_main_v144_apply, val_main_cst_31_apply, l2_sq_dot, l2_lin_dot, l2_con_bcast]
  simp only [Ideal.mulf_def, Ideal.addf_def, Ideal.subf_def, Ideal.ofBits_def]

/-! ## The row maximum -/

/-- A row index with the rule coordinate put back is the pair (row, rule). -/
theorem l2_lift_rule (h : S100000x30.Reduces [1] S100000) (n : Fin 100000) (k : Fin (S100000x30.size 1)) :
    h.lift (ix1 n) k = ix2 n (⟨k.val, k.isLt⟩ : Fin 30) := by
  funext c; apply Fin.ext
  fin_cases c <;> rfl

/-- The reduction with a maximum body from -∞ over the rules is, for any array y, at row n, the fold of max over the row. -/
theorem l2_max_fold_of (y : (⟨S100000x30, .f32⟩ : BufTy).Contents (Elt Ideal)) (h : S100000x30.Reduces [1] S100000) (n : Fin 100000) :
    Host.reduce FloatOps.maximumf y (val_main_cst_34 (F := Ideal)) Gen.reducesTo_S100000x30_S100000_d1 Gen.h_S_ (ix1 n)
      = (Finset.univ : Finset (Fin 30)).fold max (Ideal.ofBits .f32 0xFF800000#32) (fun r : Fin 30 => y (ix2 n r)) := by
  refine (Host.reduce_eq_fold_single (α := Ideal .f32) (FloatOps.maximumf (F := Ideal) (φ := .f32)) y _
    Gen.reducesTo_S100000x30_S100000_d1 h Gen.h_S_ (ix1 n)).trans ?_
  have hf : (y ∘ h.lift (ix1 n)) = fun k : Fin 30 => y (ix2 n k) :=
    funext fun k => congrArg y (l2_lift_rule h n k)
  exact congrArg (fun f => Finset.fold max (Ideal.ofBits .f32 0xFF800000#32) f (Finset.univ : Finset (Fin 30))) hf

/-- The reduction with a maximum body from -∞ over the rules, at row n, is the fold of max over the row of exponents. -/
theorem l2_max_fold (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) :
    val_main_v155 (F := Ideal) x0 x1 x2 x3 x4 x5 x6 x7 x8 x9 x10 (ix1 n)
      = (Finset.univ : Finset (Fin 30)).fold max (Ideal.ofBits .f32 0xFF800000#32)
          (fun r : Fin 30 => val_main_v154 (F := Ideal) x0 x1 x2 x3 x4 x5 x6 x7 x8 x9 x10 (ix2 n r)) := by
  unfold val_main_v155
  generalize val_main_v154 (F := Ideal) x0 x1 x2 x3 x4 x5 x6 x7 x8 x9 x10 = y
  exact l2_max_fold_of y (by decide) n

/-- The row maximum, taken once more against -∞, is the specification's. -/
theorem l2_row_max (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) :
    val_main_v157 (F := Ideal) x0 x1 x2 x3 x4 x5 x6 x7 x8 x9 x10 (ix1 n) = Cert.Fuzzy.rowMax (fun r' : Fin 30 => val_main_v154 (F := Ideal) x0 x1 x2 x3 x4 x5 x6 x7 x8 x9 x10 (ix2 n r')) := by
  unfold Cert.Fuzzy.rowMax
  rewrite [val_main_v157_apply, val_main_v156_apply, val_main_cst_35_apply, l2_max_fold, Ideal.maximumf_def, Ideal.ofBits_def]
  with_reducible rfl

/-- The row maximum broadcast along the rules, at (n, r), is the maximum of row n. -/
theorem l2_max_bcast (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) (r : Fin 30) :
    val_main_v159 (F := Ideal) x0 x1 x2 x3 x4 x5 x6 x7 x8 x9 x10 (ix2 n r) = val_main_v157 (F := Ideal) x0 x1 x2 x3 x4 x5 x6 x7 x8 x9 x10 (ix1 n) :=
  (val_main_v159_apply (F := Ideal) x0 x1 x2 x3 x4 x5 x6 x7 x8 x9 x10 (ix2 n r)).trans ((val_main_v158_apply (F := Ideal) x0 x1 x2 x3 x4 x5 x6 x7 x8 x9 x10 _).trans
    (congrArg (val_main_v157 (F := Ideal) x0 x1 x2 x3 x4 x5 x6 x7 x8 x9 x10) (funext fun a => Fin.ext (by match a with | ⟨0, _⟩ => rfl))))

/-! ## The shifted exponentials, their sum, the quotient -/

/-- The exponential at (n, r) is the specification's shifted exponential of rule r. -/
theorem l2_exp_entry (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) (r : Fin 30) :
    val_main_v161 (F := Ideal) x0 x1 x2 x3 x4 x5 x6 x7 x8 x9 x10 (ix2 n r) = Cert.Fuzzy.erow (fun r' : Fin 30 => val_main_v154 (F := Ideal) x0 x1 x2 x3 x4 x5 x6 x7 x8 x9 x10 (ix2 n r')) r := by
  unfold Cert.Fuzzy.erow
  rewrite [val_main_v161_apply, val_main_v160_apply, l2_max_bcast, l2_row_max, Ideal.hostUnary_exp_def, Ideal.subf_def]
  with_reducible rfl

/-- The sum from zero over the rules, at row n, is the sum of the shifted exponentials. -/
theorem l2_exp_sum (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) :
    val_main_v162 (F := Ideal) x0 x1 x2 x3 x4 x5 x6 x7 x8 x9 x10 (ix1 n) = ∑ r : Fin 30, Cert.Fuzzy.erow (fun r' : Fin 30 => val_main_v154 (F := Ideal) x0 x1 x2 x3 x4 x5 x6 x7 x8 x9 x10 (ix2 n r')) r := by
  rewrite [val_main_v162_apply, val_main_cst_36_apply, Ideal.ofBits_def, Ideal.ofBits_zero_f32, zero_add]
  refine Finset.sum_congr rfl fun r _ => ?_
  have e : idx_main_v162 (ix1 n) r = ix2 n r := funext fun a => Fin.ext (by match a with | ⟨0, _⟩ => rfl | ⟨1, _⟩ => rfl)
  rewrite [e]
  exact l2_exp_entry x0 x1 x2 x3 x4 x5 x6 x7 x8 x9 x10 n r

/-- The sum broadcast along the rules, at (n, r), is the sum of row n. -/
theorem l2_sum_bcast (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) (r : Fin 30) :
    val_main_v164 (F := Ideal) x0 x1 x2 x3 x4 x5 x6 x7 x8 x9 x10 (ix2 n r) = val_main_v162 (F := Ideal) x0 x1 x2 x3 x4 x5 x6 x7 x8 x9 x10 (ix1 n) :=
  (val_main_v164_apply (F := Ideal) x0 x1 x2 x3 x4 x5 x6 x7 x8 x9 x10 (ix2 n r)).trans ((val_main_v163_apply (F := Ideal) x0 x1 x2 x3 x4 x5 x6 x7 x8 x9 x10 _).trans
    (congrArg (val_main_v162 (F := Ideal) x0 x1 x2 x3 x4 x5 x6 x7 x8 x9 x10) (funext fun a => Fin.ext (by match a with | ⟨0, _⟩ => rfl))))

/-- The quotient at (n, r) is the specification's normalised firing strength of rule r. -/
theorem l2_frs_entry (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (x9 x10 : (⟨S30x64, .f32⟩ : BufTy).Contents (Elt Ideal)) (n : Fin 100000) (r : Fin 30) :
    val_main_v165 (F := Ideal) x0 x1 x2 x3 x4 x5 x6 x7 x8 x9 x10 (ix2 n r) = Cert.Fuzzy.frs (fun r' : Fin 30 => val_main_v154 (F := Ideal) x0 x1 x2 x3 x4 x5 x6 x7 x8 x9 x10 (ix2 n r')) r := by
  unfold Cert.Fuzzy.frs
  rewrite [val_main_v165_apply, l2_sum_bcast, l2_exp_sum, l2_exp_entry, Ideal.hostDivf_def]
  with_reducible rfl

/-! ## Mixing with the centres -/

/-- Entry (n, j) of the result %166 is the membership layer on row n of %134. -/
theorem ref_layer2 (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal))
    (x9 x10 : (⟨S30x64, .f32⟩ : BufTy).Contents (Elt Ideal)) (n : Fin 100000) (j : Fin 64) :
    val_main_v166 (F := Ideal) x0 x1 x2 x3 x4 x5 x6 x7 x8 x9 x10 (ix2 n j)
      = Cert.Fuzzy.fuzz (fun d : Fin 64 => val_main_v134 (F := Ideal) x0 x1 x2 x3 x4 x5 x6 x7 x8 (ix2 n d))
          (fun (d : Fin 64) (r : Fin 30) => val_main_v137 (F := Ideal) x10 (ix2 r d))
          (fun (d : Fin 64) (r : Fin 30) => val_main_v141 (F := Ideal) x9 x10 (ix2 r d))
          (fun r : Fin 30 => val_main_v149 (F := Ideal) x9 x10 (ix1 r))
          (fun (r : Fin 30) (j' : Fin 64) => x9 (ix2 r j')) j := by
  have hz : (fun r' : Fin 30 => val_main_v154 (F := Ideal) x0 x1 x2 x3 x4 x5 x6 x7 x8 x9 x10 (ix2 n r'))
      = Cert.Fuzzy.zrow (fun d : Fin 64 => val_main_v134 (F := Ideal) x0 x1 x2 x3 x4 x5 x6 x7 x8 (ix2 n d))
          (fun (d : Fin 64) (r : Fin 30) => val_main_v137 (F := Ideal) x10 (ix2 r d))
          (fun (d : Fin 64) (r : Fin 30) => val_main_v141 (F := Ideal) x9 x10 (ix2 r d))
          (fun r : Fin 30 => val_main_v149 (F := Ideal) x9 x10 (ix1 r)) := funext fun r' => l2_z_entry x0 x1 x2 x3 x4 x5 x6 x7 x8 x9 x10 n r'
  unfold Cert.Fuzzy.fuzz Cert.Fuzzy.mix
  rewrite [← hz]
  refine (val_main_v166_apply x0 x1 x2 x3 x4 x5 x6 x7 x8 x9 x10 (ix2 n j)).trans (Finset.sum_congr rfl fun r _ => ?_)
  have el : lidx_main_v166 (ix2 n j) r = ix2 n r := funext fun a => Fin.ext (by match a with | ⟨0, _⟩ => rfl | ⟨1, _⟩ => rfl)
  have er : ridx_main_v166 (ix2 n j) r = ix2 r j := funext fun a => Fin.ext (by match a with | ⟨0, _⟩ => rfl | ⟨1, _⟩ => rfl)
  rewrite [el, er, l2_frs_entry]
  with_reducible rfl

end Cert.ReferenceIdeal.Rows

end
-- ==== Proof.RefIdx.lean ====
/- The reference's stages that the kernel's regions are compared with, read at an entry given by its coordinates:
   each product at (row, column) is the sum over the contracted coordinate, each bias addition at (n, d) adds the
   bias at d, and each transposed matrix at (d, r) is the matrix at (r, d). -/
import proofs.«166959_j39908836114942_2_alg».proof.Proof.RefReadP
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Idx

open Idealize.ShloMosaic Idealize.ShloMosaic.ValueIdx Cert.ReferenceIdeal Cert.ReferenceIdeal.ReadP

/-- The first projection at (n, e): row n of the features against column e of the weight. -/
theorem v34_at (x0 : (⟨S100000x128, .f32⟩ : BufTy).Contents (Elt Ideal)) (x3 : (⟨S128x128, .f32⟩ : BufTy).Contents (Elt Ideal)) (n : Fin 100000) (e : Fin 128) :
    val_main_v34 (F := Ideal) x0 x3 (ix2 n e) = ∑ j : Fin 128, x0 (ix2 n j) * x3 (ix2 j e) := by
  rw [val_main_v34_apply]
  refine Finset.sum_congr rfl fun k _ => ?_
  have el : lidx_main_v34 (ix2 n e) k = ix2 n k := funext fun a => by match a with | ⟨0, _⟩ => rfl | ⟨1, _⟩ => rfl
  have er : ridx_main_v34 (ix2 n e) k = ix2 k e := funext fun a => by match a with | ⟨0, _⟩ => rfl | ⟨1, _⟩ => rfl
  rw [el, er]

/-- The first layer's aggregated features plus the bias, at (n, d): the bias vector is read at d. -/
theorem v50_at (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (n : Fin 100000) (d : Fin 128) :
    val_main_v50 (F := Ideal) x0 x1 x2 x3 x4 (ix2 n d) = val_main_v47 (F := Ideal) x0 x1 x2 x3 (ix2 n d) + x4 (ix1 d) := by
  have e : idx_main_v48 (idx_main_v49 (ix2 n d)) = ix1 d := funext fun a => by match a with | ⟨0, _⟩ => rfl
  rw [val_main_v50_apply, val_main_v49_apply, val_main_v48_apply, e]
  exact Ideal.addf_def _ _

/-- The transposed inverse squared widths at (d, r). -/
theorem v55_at (x8 : (⟨S30x128, .f32⟩ : BufTy).Contents (Elt Ideal)) (d : Fin 128) (r : Fin 30) :
    val_main_v55 (F := Ideal) x8 (ix2 d r) = val_main_v53 (F := Ideal) x8 (ix2 r d) := by
  rw [val_main_v55_apply]
  have e : idx_main_v55 (ix2 d r) = ix2 r d := funext fun a => by match a with | ⟨0, _⟩ => rfl | ⟨1, _⟩ => rfl
  rw [e]

/-- The transposed centres times inverse squared widths at (d, r). -/
theorem v58_at (x7 x8 : (⟨S30x128, .f32⟩ : BufTy).Contents (Elt Ideal)) (d : Fin 128) (r : Fin 30) :
    val_main_v58 (F := Ideal) x7 x8 (ix2 d r) = val_main_v57 (F := Ideal) x7 x8 (ix2 r d) := by
  rw [val_main_v58_apply]
  have e : idx_main_v58 (ix2 d r) = ix2 r d := funext fun a => by match a with | ⟨0, _⟩ => rfl | ⟨1, _⟩ => rfl
  rw [e]

/-- The second projection at (n, j): row n of the first layer's output against column j of the weight. -/
theorem v118_at (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x7 x8 : (⟨S30x128, .f32⟩ : BufTy).Contents (Elt Ideal)) (n : Fin 100000) (j : Fin 64) :
    val_main_v118 (F := Ideal) x0 x1 x2 x3 x4 x5 x7 x8 (ix2 n j)
      = ∑ k : Fin 128, val_main_v82 (F := Ideal) x0 x1 x2 x3 x4 x7 x8 (ix2 n k) * x5 (ix2 k j) := by
  rw [val_main_v118_apply]
  refine Finset.sum_congr rfl fun k _ => ?_
  have el : lidx_main_v118 (ix2 n j) k = ix2 n k := funext fun a => by match a with | ⟨0, _⟩ => rfl | ⟨1, _⟩ => rfl
  have er : ridx_main_v118 (ix2 n j) k = ix2 k j := funext fun a => by match a with | ⟨0, _⟩ => rfl | ⟨1, _⟩ => rfl
  rw [el, er]

/-- The second layer's aggregated features plus the bias, at (n, d): the bias vector is read at d. -/
theorem v134_at (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 x8 : (⟨S30x128, .f32⟩ : BufTy).Contents (Elt Ideal)) (n : Fin 100000) (d : Fin 64) :
    val_main_v134 (F := Ideal) x0 x1 x2 x3 x4 x5 x6 x7 x8 (ix2 n d)
      = val_main_v131 (F := Ideal) x0 x1 x2 x3 x4 x5 x7 x8 (ix2 n d) + x6 (ix1 d) := by
  have e : idx_main_v132 (idx_main_v133 (ix2 n d)) = ix1 d := funext fun a => by match a with | ⟨0, _⟩ => rfl
  rw [val_main_v134_apply, val_main_v133_apply, val_main_v132_apply, e]
  exact Ideal.addf_def _ _

/-- The second layer's transposed inverse squared widths at (d, r). -/
theorem v139_at (x10 : (⟨S30x64, .f32⟩ : BufTy).Contents (Elt Ideal)) (d : Fin 64) (r : Fin 30) :
    val_main_v139 (F := Ideal) x10 (ix2 d r) = val_main_v137 (F := Ideal) x10 (ix2 r d) := by
  rw [val_main_v139_apply]
  have e : idx_main_v139 (ix2 d r) = ix2 r d := funext fun a => by match a with | ⟨0, _⟩ => rfl | ⟨1, _⟩ => rfl
  rw [e]

/-- The second layer's transposed centres times inverse squared widths at (d, r). -/
theorem v142_at (x9 x10 : (⟨S30x64, .f32⟩ : BufTy).Contents (Elt Ideal)) (d : Fin 64) (r : Fin 30) :
    val_main_v142 (F := Ideal) x9 x10 (ix2 d r) = val_main_v141 (F := Ideal) x9 x10 (ix2 r d) := by
  rw [val_main_v142_apply]
  have e : idx_main_v142 (ix2 d r) = ix2 r d := funext fun a => by match a with | ⟨0, _⟩ => rfl | ⟨1, _⟩ => rfl
  rw [e]

end Cert.ReferenceIdeal.Idx

end
-- ==== Proof.KLayout.lean ====
/- Layout reads the kernel's host-side glue needs, at an entry given by its coordinates: a vector as a one-row matrix,
   a vector made a column and then a row, and a product of two matrices on the host. -/
import proofs.«166959_j39908836114942_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layout

open Idealize.ShloMosaic Idealize.ShloMosaic.ValueIdx Cert.KernelIdeal

/-- A length-128 vector as a one-row matrix reads, at (0, d), the vector at d. -/
theorem row_of_vec128 (x : S128.Idx → EReal) (h : S128.ShapeCasts S1x128) (d : Fin 128) :
    shapeCast S1x128 x h (ix2 (0 : Fin 1) d) = x (ix1 d) :=
  shapeCast_a_1a_apply x h 0 d

/-- A length-64 vector as a one-row matrix reads, at (0, d), the vector at d. -/
theorem row_of_vec64 (x : S64.Idx → EReal) (h : S64.ShapeCasts S1x64) (d : Fin 64) :
    shapeCast S1x64 x h (ix2 (0 : Fin 1) d) = x (ix1 d) :=
  shapeCast_a_1a_apply x h 0 d

/-- A length-30 vector made a [30, 1] column and then a [1, 30] row reads, at (0, r), the vector at r. -/
theorem row_of_col30 (v : S30.Idx → EReal) (hb : S30.BroadcastsInDim S30x1 ![0]) (hc : S30x1.ShapeCasts S1x30) (r : Fin 30) :
    shapeCast S1x30 (broadcastInDim S30x1 ![0] hb v) hc (ix2 (0 : Fin 1) r) = v (ix1 r) := by
  refine (shapeCast_apply (broadcastInDim S30x1 ![0] hb v) hc (ix2 (0 : Fin 1) r) (ix2 r (0 : Fin 1)) ?_).trans ?_
  · rw [Shape.rowMajor_val_two, Shape.rowMajor_val_two]
    show r.val * 1 + 0 = 0 * 30 + r.val
    omega
  · refine broadcastInDim_apply ![0] hb v (ix2 r (0 : Fin 1)) (ix1 r) fun a => ?_
    match a with
    | ⟨0, _⟩ =>
      show r.val = if (30 : ℕ) = 1 then 0 else r.val
      rw [if_neg (by decide)]

section
variable [Facts₀]

/-! The dimension numbers of the [30, 128] × [128, 64] product: the left operand is read at (row, k), the right at (k, column). -/

private theorem cw_lhs0 (i : S30x64.Idx) (q : dot_S30x128_S128x64_S30x64_1_0_0_1_n_n.contr.Idx) :
    (dot_S30x128_S128x64_S30x64_1_0_0_1_n_n.lhsIdx i q 0).val = (i 0).val := by
  unfold DotDims.lhsIdx
  rw [dif_neg (show ¬(0 : Fin S30x128.rank) ∈ dot_S30x128_S128x64_S30x64_1_0_0_1_n_n.lhsBatch from List.not_mem_nil), dif_pos (show (0 : Fin S30x128.rank) ∈ dot_S30x128_S128x64_S30x64_1_0_0_1_n_n.lhsNonContracting from List.mem_singleton.mpr rfl)]
  rfl
private theorem cw_lhs1 (i : S30x64.Idx) (q : dot_S30x128_S128x64_S30x64_1_0_0_1_n_n.contr.Idx) :
    (dot_S30x128_S128x64_S30x64_1_0_0_1_n_n.lhsIdx i q 1).val = (q ⟨0, Nat.one_pos⟩).val :=
  dot_S30x128_S128x64_S30x64_1_0_0_1_n_n.lhsIdx_val_of_single rfl i q
private theorem cw_rhs0 (i : S30x64.Idx) (q : dot_S30x128_S128x64_S30x64_1_0_0_1_n_n.contr.Idx) :
    (dot_S30x128_S128x64_S30x64_1_0_0_1_n_n.rhsIdx i q 0).val = (q ⟨0, Nat.one_pos⟩).val :=
  dot_S30x128_S128x64_S30x64_1_0_0_1_n_n.rhsIdx_val_of_single rfl i q
private theorem cw_rhs1 (i : S30x64.Idx) (q : dot_S30x128_S128x64_S30x64_1_0_0_1_n_n.contr.Idx) :
    (dot_S30x128_S128x64_S30x64_1_0_0_1_n_n.rhsIdx i q 1).val = (i 1).val := by
  unfold DotDims.rhsIdx
  rw [dif_neg (show ¬(1 : Fin S128x64.rank) ∈ dot_S30x128_S128x64_S30x64_1_0_0_1_n_n.rhsBatch from List.not_mem_nil), dif_pos (show (1 : Fin S128x64.rank) ∈ dot_S30x128_S128x64_S30x64_1_0_0_1_n_n.rhsNonContracting from List.mem_singleton.mpr rfl)]
  rfl

/-- The host's [30, 128] × [128, 64] product at (r, j): the sum over the contracted coordinate. -/
theorem cw_at (c : S30x128.Idx → EReal) (w : S128x64.Idx → EReal) (r : Fin 30) (j : Fin 64) :
    Host.dotGeneral (F := Ideal) (φ₁ := .f32) (φ₂ := .f32) dot_S30x128_S128x64_S30x64_1_0_0_1_n_n none c w (ix2 r j)
      = ∑ k : Fin 128, c (ix2 r k) * w (ix2 k j) := by
  simp only [Host.dotGeneral]
  rw [Ideal.dotGeneral_apply, ← Equiv.sum_comp (contrEquiv1 dot_S30x128_S128x64_S30x64_1_0_0_1_n_n 128 rfl rfl).symm]
  refine Finset.sum_congr rfl fun k _ => ?_
  have hk := contrEquiv1_symm_val dot_S30x128_S128x64_S30x64_1_0_0_1_n_n 128 rfl rfl k
  have el : dot_S30x128_S128x64_S30x64_1_0_0_1_n_n.lhsIdx (ix2 r j) ((contrEquiv1 dot_S30x128_S128x64_S30x64_1_0_0_1_n_n 128 rfl rfl).symm k) = ix2 r k := funext fun a => Fin.ext (by
    match a with
    | ⟨0, _⟩ => exact cw_lhs0 _ _
    | ⟨1, _⟩ => exact (cw_lhs1 _ _).trans hk)
  have er : dot_S30x128_S128x64_S30x64_1_0_0_1_n_n.rhsIdx (ix2 r j) ((contrEquiv1 dot_S30x128_S128x64_S30x64_1_0_0_1_n_n 128 rfl rfl).symm k) = ix2 k j := funext fun a => Fin.ext (by
    match a with
    | ⟨0, _⟩ => exact (cw_rhs0 _ _).trans hk
    | ⟨1, _⟩ => exact cw_rhs1 _ _)
  rw [el, er]

end

end Cert.KernelIdeal.Layout

end
-- ==== Proof.RealArr.lean ====
/-
  Arrays whose every entry is a real number, and the operations that keep them so.

  A gather, a broadcast, a reshape, a slice, a transpose and a concatenation only move entries; a product, a sum and a
  select combine real entries into real entries; an accumulating scatter at exact arithmetic adds finitely many update
  entries to an operand entry; a contraction is a finite sum of products; the reciprocal square root of max(x, ε) for a
  positive real ε is the reciprocal square root of a positive real; a quotient by a nonzero real is real.
-/
import Idealize.ShloMosaic.PureOps.Ideal
import Idealize.ShloMosaic.PureOps.Ideal.Laws
import Idealize.ShloMosaic.PureOps
import proofs.«166959_j39908836114942_2_alg».proof.Proof.LibReal

noncomputable section

namespace Cert.RealArr

open Idealize.ShloMosaic Cert.LibReal

/-- Every entry is a real number. -/
def AllReal {s : Shape} (x : s.Idx → EReal) : Prop := ∀ i, IsReal (x i)

variable {s t si u : Shape}

theorem gather {w : Nat} (d : GatherDims s si t) {x : s.Idx → EReal} (hx : AllReal x) (idx : IVec si w) :
    AllReal (Host.gather d x idx) := fun _ => hx _

theorem bcast (dims : Fin s.rank → Fin t.rank) (h : s.BroadcastsInDim t dims) {x : s.Idx → EReal} (hx : AllReal x) :
    AllReal (broadcastInDim t dims h x) := fun _ => hx _

theorem cast {x : s.Idx → EReal} (hx : AllReal x) (h : s.ShapeCasts t) : AllReal (shapeCast t x h) := fun _ => hx _

theorem transp (perm : List (Fin s.rank)) {x : s.Idx → EReal} (hx : AllReal x) (h : s.Transposes perm t) :
    AllReal (transpose t perm x h) := fun _ => hx _

theorem mul {x y : s.Idx → EReal} (hx : AllReal x) (hy : AllReal y) : AllReal (mulf (F := Ideal) (φ := .f32) x y) :=
  fun i => (hx i).mul (hy i)

theorem add {x y : s.Idx → EReal} (hx : AllReal x) (hy : AllReal y) : AllReal (addf (F := Ideal) (φ := .f32) x y) :=
  fun i => (hx i).add (hy i)

theorem sel (c : IVec s 1) {x y : s.Idx → EReal} (hx : AllReal x) (hy : AllReal y) : AllReal (select c x y) := fun i => by
  show IsReal (if c i = 1 then x i else y i)
  split
  · exact hx i
  · exact hy i

/-- Two arrays joined along an axis. -/
theorem concat2 {s₁ s₂ : Shape} (a : Fin t.rank) {x : s₁.Idx → EReal} {y : s₂.Idx → EReal} (hx : AllReal x) (hy : AllReal y)
    (h : Shape.Concatenates (([⟨s₁, x⟩, ⟨s₂, y⟩] : List ((s : Shape) × (s.Idx → EReal))).map (·.1)) t a) :
    AllReal (concatenate t a [⟨s₁, x⟩, ⟨s₂, y⟩] h) := fun j => by
  have hall : ∀ p ∈ ([⟨s₁, x⟩, ⟨s₂, y⟩] : List ((s : Shape) × (s.Idx → EReal))), ∀ i, IsReal (p.2 i) := by
    intro p hp
    simp only [List.mem_cons, List.mem_nil_iff, or_false] at hp
    rcases hp with rfl | rfl
    · exact hx
    · exact hy
  unfold concatenate
  exact hall _ (List.getElem_mem _) _

/-- A splat of a word that denotes a real. -/
theorem const (w : BitVec 32) (hw : IsReal (Ideal.ofBits .f32 w)) (dims : Fin (⟨0, ![]⟩ : Shape).rank → Fin t.rank)
    (h : (⟨0, ![]⟩ : Shape).BroadcastsInDim t dims) :
    AllReal (broadcastInDim t dims h (constant (F := Ideal) ⟨0, ![]⟩ .f32 w)) := fun _ => hw

/-- The exact accumulating scatter: an operand entry plus finitely many update entries. -/
theorem scatterAdd {w : Nat} (d : ScatterDims s si u) {x : s.Idx → EReal} (hx : AllReal x) (idx : IVec si w)
    {upd : u.Idx → EReal} (hu : AllReal upd) : AllReal (Host.scatterAdd (F := Ideal) (φ := .f32) d x idx upd) := fun i => by
  show IsReal (x i + ∑ j ∈ Finset.univ.filter (fun j => d.resultIdx? j idx = some i), upd j)
  exact (hx i).add (IsReal.sum _ _ fun j _ => hu j)

/-- A contraction of real arrays. -/
theorem dot {sl sr so : Shape} (d : DotDims sl sr so) {l : sl.Idx → EReal} {r : sr.Idx → EReal} (hl : AllReal l) (hr : AllReal r) :
    AllReal (Host.dotGeneral (F := Ideal) (φ₁ := .f32) (φ₂ := .f32) d none l r) := fun j => by
  simp only [Host.dotGeneral]
  rw [Ideal.dotGeneral_apply]
  exact IsReal.sum _ _ fun k _ => (hl _).mul (hr _)

theorem one_word : IsReal (Ideal.ofBits .f32 0x3F800000#32) :=
  ⟨1, by simp [Ideal.ofBits, Ideal.ieee, -EReal.coe_mul]; norm_num⟩

/-- The word `0x2B8CBCCC` (exponent field 87, fraction field 834764) is `(2²³ + 834764) · 2⁻⁶³`, a positive real. -/
theorem eps_word : ∃ e : ℝ, 0 < e ∧ Ideal.ofBits .f32 0x2B8CBCCC#32 = (e : EReal) := by
  refine ⟨9223372 * (2 : ℝ) ^ (-63 : Int), by positivity, ?_⟩
  simp [Ideal.ofBits, Ideal.ieee, -EReal.coe_mul]

/-- The reciprocal square root of `max x ε`, entry by entry, for real `x` and the positive real `ε`. -/
theorem rsqrt_max (dims : Fin (⟨0, ![]⟩ : Shape).rank → Fin t.rank) (h : (⟨0, ![]⟩ : Shape).BroadcastsInDim t dims)
    {x : t.Idx → EReal} (hx : AllReal x) :
    AllReal (Host.rsqrt (F := Ideal) (φ := .f32) (maximumf (F := Ideal) (φ := .f32) x
      (broadcastInDim t dims h (constant (F := Ideal) ⟨0, ![]⟩ .f32 0x2B8CBCCC#32)))) := fun i => by
  obtain ⟨e, he, hw⟩ := eps_word
  obtain ⟨r, hr⟩ := hx i
  show IsReal (Ideal.rsqrt (max (x i) (Ideal.ofBits .f32 0x2B8CBCCC#32)))
  have hm : max (r : EReal) (e : EReal) = ((max r e : ℝ) : EReal) := by
    rcases le_total r e with h' | h'
    · rw [max_eq_right h', max_eq_right (EReal.coe_le_coe_iff.mpr h')]
    · rw [max_eq_left h', max_eq_left (EReal.coe_le_coe_iff.mpr h')]
  rw [hw, hr, hm]
  have hpos : 0 < max r e := lt_max_of_lt_right he
  rw [Ideal.rsqrt_coe, if_neg (not_lt.mpr hpos.le), if_neg hpos.ne']
  exact isReal_coe _

/-- One over a nonzero real. -/
theorem one_div {x : EReal} (hx : IsReal x) (h0 : x ≠ 0) : IsReal (Ideal.div (Ideal.ofBits .f32 0x3F800000#32) x) := by
  obtain ⟨r, rfl⟩ := hx
  obtain ⟨o, ho⟩ := one_word
  have hr : r ≠ 0 := fun e => h0 (by rw [e]; rfl)
  rw [Ideal.div_coe hr, ho, ← EReal.coe_mul]
  exact isReal_coe _

end Cert.RealArr

end
-- ==== Proof.RefReal.lean ====
/-
  The reference's first graph convolution and the first layer's rule parameters hold real numbers when the inputs do
  (and no squared width is zero): the edge weights joined with the self-loop ones, the degrees (an exact scatter sum),
  their reciprocal square roots after the clamp from below by a positive constant, the per-edge normalisation (gathered
  factors multiplied), the projected features x·W1 (a finite sum of products), the per-edge messages, their exact scatter
  sum, and the bias added; the inverse squared widths 1/(v·v), the centres times them, and the per-rule constant.
-/
import proofs.«166959_j39908836114942_2_alg».proof.Proof.RefReadP
import proofs.«166959_j39908836114942_2_alg».proof.Proof.RealArr

noncomputable section

namespace Cert.ReferenceIdeal.Reals

open Idealize.ShloMosaic Cert.LibReal Cert.RealArr Cert.ReferenceIdeal Cert.ReferenceIdeal.ReadP

variable (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal)) (x7 x8 : (⟨S30x128, .f32⟩ : BufTy).Contents (Elt Ideal))

theorem r_v8 (h2 : AllReal (s := S1600000) x2) : AllReal (s := S1700000) (val_main_v8 (F := Ideal) x2) := by
  unfold val_main_v8 val_main_v7 val_main_cst
  exact concat2 _ h2 (const _ one_word _ _) _

theorem r_v11 (h2 : AllReal (s := S1600000) x2) : AllReal (s := S100000) (val_main_v11 (F := Ideal) x1 x2) := by
  unfold val_main_v11 val_main_v9 val_main_cst_0
  exact scatterAdd _ (const _ isReal_zero_word _ _) _ (r_v8 x2 h2)

theorem r_v17 (h2 : AllReal (s := S1600000) x2) : AllReal (s := S100000) (val_main_v17 (F := Ideal) x1 x2) := by
  unfold val_main_v17 val_main_v16 val_main_v15 val_main_v14 val_main_cst_2 val_main_call0_v1 val_main_call0_v0 val_main_cst_3
  exact sel _ (rsqrt_max _ _ (r_v11 x1 x2 h2)) (const _ isReal_zero_word _ _)

theorem r_v33 (h2 : AllReal (s := S1600000) x2) : AllReal (s := S1700000) (val_main_v33 (F := Ideal) x1 x2) := by
  unfold val_main_v33 val_main_v32 val_main_v25 val_main_v24
  exact mul (mul (gather _ (r_v17 x1 x2 h2) _) (r_v8 x2 h2)) (gather _ (r_v17 x1 x2 h2) _)

theorem r_v34 (h0 : AllReal (s := S100000x128) x0) (h3 : AllReal (s := S128x128) x3) :
    AllReal (s := S100000x128) (val_main_v34 (F := Ideal) x0 x3) := by
  unfold val_main_v34
  exact dot _ h0 h3

theorem r_v47 (h0 : AllReal (s := S100000x128) x0) (h2 : AllReal (s := S1600000) x2) (h3 : AllReal (s := S128x128) x3) :
    AllReal (s := S100000x128) (val_main_v47 (F := Ideal) x0 x1 x2 x3) := by
  unfold val_main_v47 val_main_v45 val_main_cst_9 val_main_v44 val_main_v43 val_main_v42 val_main_v41
  exact scatterAdd _ (const _ isReal_zero_word _ _) _
    (mul (gather _ (r_v34 x0 x3 h0 h3) _) (bcast _ _ (bcast _ _ (r_v33 x1 x2 h2))))

theorem r_v50 (h0 : AllReal (s := S100000x128) x0) (h2 : AllReal (s := S1600000) x2) (h3 : AllReal (s := S128x128) x3)
    (h4 : AllReal (s := S128) x4) : AllReal (s := S100000x128) (val_main_v50 (F := Ideal) x0 x1 x2 x3 x4) := by
  unfold val_main_v50 val_main_v49 val_main_v48
  exact add (r_v47 x0 x1 x2 x3 h0 h2 h3) (bcast _ _ (bcast _ _ h4))

theorem r_v53 (h8 : AllReal (s := S30x128) x8) (nz : ∀ i, x8 i * x8 i ≠ 0) :
    AllReal (s := S30x128) (val_main_v53 (F := Ideal) x8) := fun i => by
  show IsReal (Ideal.div (Ideal.ofBits .f32 0x3F800000#32) (x8 i * x8 i))
  exact one_div ((h8 i).mul (h8 i)) (nz i)

theorem r_v57 (h7 : AllReal (s := S30x128) x7) (h8 : AllReal (s := S30x128) x8) (nz : ∀ i, x8 i * x8 i ≠ 0) :
    AllReal (s := S30x128) (val_main_v57 (F := Ideal) x7 x8) := by
  unfold val_main_v57
  exact mul h7 (r_v53 x8 h8 nz)

theorem r_v65 (h7 : AllReal (s := S30x128) x7) (h8 : AllReal (s := S30x128) x8) (nz : ∀ i, x8 i * x8 i ≠ 0) :
    AllReal (s := S30) (val_main_v65 (F := Ideal) x7 x8) := fun i => by
  rw [val_main_v65_apply]
  refine IsReal.add isReal_zero_word (IsReal.sum _ _ fun k _ => ?_)
  unfold val_main_v64 val_main_v63
  exact mul (mul h7 h7) (r_v53 x8 h8 nz) _

end Cert.ReferenceIdeal.Reals

end
-- ==== Proof.Pre.lean ====
/-
  The precondition read entry by entry: where "every float input is finite and no squared first-layer width is zero"
  evaluates to 1, every entry of every float input is a real number, and every entry of v1 * v1 is different from zero.
  The printed predicate is a chain of conjunctions of `all`-reductions; each conjunct is split off and read at an index.
-/
import proofs.«166959_j39908836114942_2_alg».proof.Pre_finite_inputs
import proofs.«166959_j39908836114942_2_alg».proof.Proof.Gen.Pre_finite_inputs
import proofs.«166959_j39908836114942_2_alg».proof.Proof.LibReal
import Idealize.ShloMosaic.PureOps.Ideal
import Idealize.ShloMosaic.Lib.ValueIdx
import Idealize.ShloMosaic.Lib.ReduceAll
import Idealize.ShloMosaic.Lib.Affine

noncomputable section

namespace Cert.PreRead

open Idealize.ShloMosaic Cert.LibReal Cert.Pre_finite_inputs Cert.Pre_finite_inputs.Facts

private instance subsingleton_scalar_idx : Subsingleton (⟨0, ![]⟩ : Shape).Idx := ⟨fun a b => funext fun d => d.elim0⟩

/-- What the precondition gives: real entries everywhere, and no zero among the squared first-layer widths. -/
structure Good (a0 : FVec Ideal S100000x128 .f32) (a2 : FVec Ideal S1600000 .f32) (a3 : FVec Ideal S128x128 .f32)
    (a4 : FVec Ideal S128 .f32) (a5 : FVec Ideal S128x64 .f32) (a6 : FVec Ideal S64 .f32) (a7 a8 : FVec Ideal S30x128 .f32)
    (a9 a10 : FVec Ideal S30x64 .f32) : Prop where
  r0 : ∀ i, IsReal (a0 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  r10 : ∀ i, IsReal (a10 i)
  nz8 : ∀ i, a8 i * a8 i ≠ 0

theorem good_of_pre [Cert.Pre_finite_inputs.Facts] (a0 : FVec Ideal S100000x128 .f32) (a1 : IVec S2x1600000 32)
    (a2 : FVec Ideal S1600000 .f32) (a3 : FVec Ideal S128x128 .f32)
    (a4 : FVec Ideal S128 .f32) (a5 : FVec Ideal S128x64 .f32) (a6 : FVec Ideal S64 .f32) (a7 a8 : FVec Ideal S30x128 .f32)
    (a9 a10 : FVec Ideal S30x64 .f32)
    (h : Cert.Pre_finite_inputs.fn (F := Ideal) a0 a1 a2 a3 a4 a5 a6 a7 a8 a9 a10 = fun _ => 1#1) :
    Good a0 a2 a3 a4 a5 a6 a7 a8 a9 a10 := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  refine ⟨real_of_all _ _ _ a0 _ e0, real_of_all _ _ _ a2 _ e2, real_of_all _ _ _ a3 _ e3, real_of_all _ _ _ a4 _ e4,
    real_of_all _ _ _ a5 _ e5, real_of_all _ _ _ a6 _ e6, real_of_all _ _ _ a7 _ e7, real_of_all _ _ _ a8 _ e8,
    real_of_all _ _ _ a9 _ e9, real_of_all _ _ _ a10 _ e10, fun i => ?_⟩
  have e := Host.reduce_andi_all _ _ _ _ _ e11 i
  have e' : Ideal.cmp .une (a8 i * a8 i) (Ideal.ofBits .f32 0x00000000#32) = 1#1 := e
  rw [Ideal.ofBits_zero_f32] at e'
  have e'' : BitVec.ofBool (decide (a8 i * a8 i ≠ 0)) = 1#1 := e'
  exact of_decide_eq_true ((ofBool_eq_one _).1 e'')

end Cert.PreRead

end
-- ==== Proof.Bridge.lean ====
/-
  The idealized kernel's result array is the reference's last stage of the same arguments.

  Region by region. (0) The projection's output is x·W1, the reference's %34, entry by entry a finite sum. (1) The
  aggregate that enters the first membership region is the reference's %47 of the same arguments (the host operations
  are the same), so each row of the region's output is the membership layer on the reference's row %50, mixed with the
  rows of c1·W2; the reference mixes with c1 (%82) and multiplies by W2 afterwards (%118). Under the precondition
  every number involved is real — the firing strengths too — and the two are the same finite double sum. (2) The
  second aggregate is then the reference's %131, and the second region's rows are the membership layer on the
  reference's row %134 with the reference's own parameters: its result %166.
-/
import proofs.«166959_j39908836114942_2_alg».proof.Proof.KRegion0
import proofs.«166959_j39908836114942_2_alg».proof.Proof.KRegion1
import proofs.«166959_j39908836114942_2_alg».proof.Proof.KRegion2
import proofs.«166959_j39908836114942_2_alg».proof.Proof.HostK1
import proofs.«166959_j39908836114942_2_alg».proof.Proof.HostK2
import proofs.«166959_j39908836114942_2_alg».proof.Proof.RefFz1
import proofs.«166959_j39908836114942_2_alg».proof.Proof.RefFz2
import proofs.«166959_j39908836114942_2_alg».proof.Proof.RefIdx
import proofs.«166959_j39908836114942_2_alg».proof.Proof.KLayout
import proofs.«166959_j39908836114942_2_alg».proof.Proof.RefReal
import proofs.«166959_j39908836114942_2_alg».proof.Proof.Pre

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.LibReal Cert.RealArr
open Cert.KernelIdeal.Regions Cert.KernelIdeal.HostK Cert.KernelIdeal.Layout
open Cert.ReferenceIdeal.Rows Cert.ReferenceIdeal.Idx Cert.ReferenceIdeal.Reals

open Cert.ReferenceIdeal.ReadP

variable (m : (ℓ : Loc nD τ sig) → Buf (Elt Ideal) ℓ) (ρ : Dev nD → PrngReg) (c : Dev nD)

/-! The argument arrays of core `c`, as functions of an index into their shapes. -/
abbrev A0 : S100000x128.Idx → EReal := m ((c : Thread nD τ).loc main_arg0)
abbrev A2 : S1600000.Idx → EReal := m ((c : Thread nD τ).loc main_arg2)
abbrev A3 : S128x128.Idx → EReal := m ((c : Thread nD τ).loc main_arg3)
abbrev A4 : S128.Idx → EReal := m ((c : Thread nD τ).loc main_arg4)
abbrev A5 : S128x64.Idx → EReal := m ((c : Thread nD τ).loc main_arg5)
abbrev A6 : S64.Idx → EReal := m ((c : Thread nD τ).loc main_arg6)
abbrev A7 : S30x128.Idx → EReal := m ((c : Thread nD τ).loc main_arg7)
abbrev A8 : S30x128.Idx → EReal := m ((c : Thread nD τ).loc main_arg8)
abbrev A9 : S30x64.Idx → EReal := m ((c : Thread nD τ).loc main_arg9)
abbrev A10 : S30x64.Idx → EReal := m ((c : Thread nD τ).loc main_arg10)
abbrev A1 := m ((c : Thread nD τ).loc main_arg1)

/-- The membership layer depends only on its five arguments. -/
theorem fuzz_congr {D R O : ℕ} {hb hb' : Fin D → EReal} {iv iv' civ civ' : Fin D → Fin R → EReal} {con con' : Fin R → EReal}
    {cp cp' : Fin R → Fin O → EReal} (h1 : hb = hb') (h2 : iv = iv') (h3 : civ = civ') (h4 : con = con') (h5 : cp = cp')
    (j : Fin O) : Cert.Fuzzy.fuzz hb iv civ con cp j = Cert.Fuzzy.fuzz hb' iv' civ' con' cp' j := by
  subst h1 h2 h3 h4 h5; rfl

/-- Region 0: the projection's output array is the reference's x·W1. -/
theorem w1_v0 : W1 m ρ c (Proc.devRef .tc main_v0) = val_main_v34 (F := Ideal) (A0 m c) (A3 m c) := by
  refine (W1_arr m ρ c 2).trans ?_
  funext i
  obtain ⟨n, e, rfl⟩ : ∃ (n : Fin 100000) (e : Fin 128), i = ix2 n e := ⟨i 0, i 1, eq_ix2 i⟩
  refine (region0_value (V0 m ρ) c n e).trans ?_
  rw [v34_at]

section
variable (hg : Cert.PreRead.Good (A0 m c) (A2 m c) (A3 m c) (A4 m c) (A5 m c) (A6 m c) (A7 m c) (A8 m c) (A9 m c) (A10 m c))
include hg

/-- Region 1: the first membership region's output array is the reference's %118, the defuzzified features times W2. -/
theorem w5_v61 : W5 m ρ c (Proc.devRef .tc main_v61) = val_main_v118 (F := Ideal) (A0 m c) (A1 m c) (A2 m c) (A3 m c) (A4 m c) (A5 m c) (A7 m c) (A8 m c) := by
  refine (W5_arr m ρ c 6).trans ?_
  funext i
  obtain ⟨n, j, rfl⟩ : ∃ (n : Fin 100000) (j : Fin 64), i = ix2 n j := ⟨i 0, i 1, eq_ix2 i⟩
  refine (region1_value (V4 m ρ) c n j).trans ?_
  -- the region's operands are the reference's stages
  refine (fuzz_congr (hb' := fun d : Fin 128 => val_main_v50 (F := Ideal) (A0 m c) (A1 m c) (A2 m c) (A3 m c) (A4 m c) (ix2 n d))
    (iv' := fun (d : Fin 128) (r : Fin 30) => val_main_v53 (F := Ideal) (A8 m c) (ix2 r d))
    (civ' := fun (d : Fin 128) (r : Fin 30) => val_main_v57 (F := Ideal) (A7 m c) (A8 m c) (ix2 r d))
    (con' := fun r : Fin 30 => val_main_v65 (F := Ideal) (A7 m c) (A8 m c) (ix1 r))
    (cp' := fun (r : Fin 30) (j' : Fin 64) => ∑ k : Fin 128, (A7 m c) (ix2 r k) * (A5 m c) (ix2 k j'))
    (funext fun d => ?_) (funext fun d => funext fun r => ?_) (funext fun d => funext fun r => ?_) (funext fun r => ?_)
    (funext fun r => funext fun j' => ?_) j).trans ?_
  · show HAdd.hAdd (α := EReal) (β := EReal) (γ := EReal) ((W4 m ρ c (Proc.devRef .tc main_v47) : S100000x128.Idx → EReal) (ix2 n d)) ((W4 m ρ c (Proc.devRef .tc main_v60) : S1x128.Idx → EReal) (ix2 (0 : Fin 1) d)) = _
    rw [w4_v47 m ρ c (w1_v0 m ρ c), w4_v60, row_of_vec128, v50_at]
  · show (W4 m ρ c (Proc.devRef .tc main_v58) : S128x30.Idx → EReal) (ix2 d r) = _
    rw [w4_v58, v55_at]
  · show (W4 m ρ c (Proc.devRef .tc main_v59) : S128x30.Idx → EReal) (ix2 d r) = _
    rw [w4_v59, v58_at]
  · show (W4 m ρ c (Proc.devRef .tc main_v57) : S1x30.Idx → EReal) (ix2 (0 : Fin 1) r) = _
    rw [w4_v57, row_of_col30]
  · show (W4 m ρ c (Proc.devRef .tc main_v48) : S30x64.Idx → EReal) (ix2 r j') = _
    rw [w4_v48, cw_at]
  -- mixing with c1·W2 is mixing with c1 and multiplying by W2: every number is real
  unfold Cert.Fuzzy.fuzz
  have h1 : ∀ d : Fin 128, IsReal (val_main_v50 (F := Ideal) (A0 m c) (A1 m c) (A2 m c) (A3 m c) (A4 m c) (ix2 n d)) := fun d =>
    r_v50 (A0 m c) (A1 m c) (A2 m c) (A3 m c) (A4 m c) hg.r0 hg.r2 hg.r3 hg.r4 (ix2 n d)
  have h2 : ∀ (d : Fin 128) (r : Fin 30), IsReal (val_main_v53 (F := Ideal) (A8 m c) (ix2 r d)) := fun d r =>
    r_v53 (A8 m c) hg.r8 hg.nz8 (ix2 r d)
  have h3 : ∀ (d : Fin 128) (r : Fin 30), IsReal (val_main_v57 (F := Ideal) (A7 m c) (A8 m c) (ix2 r d)) := fun d r =>
    r_v57 (A7 m c) (A8 m c) hg.r7 hg.r8 hg.nz8 (ix2 r d)
  have h4 : ∀ r : Fin 30, IsReal (val_main_v65 (F := Ideal) (A7 m c) (A8 m c) (ix1 r)) := fun r =>
    r_v65 (A7 m c) (A8 m c) hg.r7 hg.r8 hg.nz8 (ix1 r)
  rw [Cert.Fuzzy.mix_assoc (fun r => Cert.Fuzzy.frs_real (by norm_num) (Cert.Fuzzy.zrow_real h1 h2 h3 h4) r)
    (fun r k => hg.r7 (ix2 r k)) (fun k j' => hg.r5 (ix2 k j')) j, v118_at]
  refine Finset.sum_congr rfl fun k _ => ?_
  rw [ref_layer1]
  rfl

/-- Region 2: the kernel's result array is the reference's result. -/
theorem w9_v122 : W9 m ρ c (Proc.devRef .tc main_v122) = val_main_v166 (F := Ideal) (A0 m c) (A1 m c) (A2 m c) (A3 m c) (A4 m c) (A5 m c) (A6 m c) (A7 m c) (A8 m c) (A9 m c) (A10 m c) := by
  refine (W9_arr m ρ c 6).trans ?_
  funext i
  obtain ⟨n, j, rfl⟩ : ∃ (n : Fin 100000) (j : Fin 64), i = ix2 n j := ⟨i 0, i 1, eq_ix2 i⟩
  refine (region2_value (V8 m ρ) c n j).trans ?_
  rw [ref_layer2]
  refine fuzz_congr (funext fun d => ?_) (funext fun d => funext fun r => ?_) (funext fun d => funext fun r => ?_)
    (funext fun r => ?_) (funext fun r => funext fun j' => ?_) j
  · show HAdd.hAdd (α := EReal) (β := EReal) (γ := EReal) ((W8 m ρ c (Proc.devRef .tc main_v109) : S100000x64.Idx → EReal) (ix2 n d)) ((W8 m ρ c (Proc.devRef .tc main_v121) : S1x64.Idx → EReal) (ix2 (0 : Fin 1) d)) = _
    rw [w8_v109 m ρ c (w5_v61 m ρ c hg), w8_v121, row_of_vec64, v134_at]
  · show (W8 m ρ c (Proc.devRef .tc main_v119) : S64x30.Idx → EReal) (ix2 d r) = _
    rw [w8_v119, v139_at]
  · show (W8 m ρ c (Proc.devRef .tc main_v120) : S64x30.Idx → EReal) (ix2 d r) = _
    rw [w8_v120, v142_at]
  · show (W8 m ρ c (Proc.devRef .tc main_v118) : S1x30.Idx → EReal) (ix2 (0 : Fin 1) r) = _
    rw [w8_v118, row_of_col30]
  · show (W8 m ρ c (Proc.devRef .tc main_arg9) : S30x64.Idx → EReal) (ix2 r j') = _
    rw [w8_arg9]

end

end Cert.Bridge

end
-- ==== Proof.lean ====
/-
  The certificate of a two-layer graph network: a dense projection, a normalised graph aggregation, a Gaussian
  membership layer, a second aggregation and a second membership layer — the kernel computing the three dense stages in
  Pallas regions and folding the second projection W2 into the first membership layer's mixing matrix (c1·W2), the
  reference computing everything on the host with W2 applied afterwards.

  The three frames: the two kernel programs' from their generated frame certificates; the reference's from its run.
  The kernel is its own idealization (no rewrite: `preserves` is `True`). The value claim: at exact arithmetic the
  kernel's result array is the reference's result of the same arguments (Proof/Bridge.lean), under the precondition that
  every float input is finite and no squared first-layer width v1·v1 is zero — which makes every intermediate a real
  number, so that mixing the firing strengths with c1·W2 is mixing with c1 and multiplying by W2.
-/
import proofs.«166959_j39908836114942_2_alg».proof.Defs
import proofs.«166959_j39908836114942_2_alg».proof.Proof.Gen.Kernel
import proofs.«166959_j39908836114942_2_alg».proof.Proof.Gen.Kernel.Frame
import proofs.«166959_j39908836114942_2_alg».proof.Proof.Gen.KernelIdeal
import proofs.«166959_j39908836114942_2_alg».proof.Proof.Gen.KernelIdeal.Frame
import proofs.«166959_j39908836114942_2_alg».proof.Proof.Gen.ReferenceIdeal
import proofs.«166959_j39908836114942_2_alg».proof.Proof.Gen.Pre_finite_inputs
import proofs.«166959_j39908836114942_2_alg».proof.Proof.KRun
import proofs.«166959_j39908836114942_2_alg».proof.Proof.RefRunP
import proofs.«166959_j39908836114942_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs run, and end with the same result array: the reference's last stage of the arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v122),
    Cert.KernelIdeal.RunAll.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  unfold Cert.ReferenceIdeal.ValueP.res_main_v166
  obtain ⟨e0, e1, e2, e3, e4, e5, e6, e7, e8, e9, e10⟩ := hagree c
  rw [e0, e1, e2, e3, e4, e5, e6, e7, e8, e9, e10]
  exact (Cert.Bridge.w9_v122 m ρ c (Cert.PreRead.good_of_pre _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
